-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S5x128 : Shape := ⟨2, ![5, 128]⟩
abbrev S5 : Shape := ⟨1, ![5]⟩
abbrev S5x256 : Shape := ⟨2, ![5, 256]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_
  bcast_S_S5x256 : S_.BroadcastsInDim S5x256 (![] : Fin 0 → Fin S5x256.rank)
  reducesTo_S5x256_S_d0_1 : S5x256.ReducesTo [0, 1] S_

variable [Facts]

def fn_part1 {F : FTy → Type} [FloatOps F] (main_arg4 : FVec F S5x128 .f32) (main_arg5 : FVec F S5x256 .f32) (main_arg6 : FVec F S5 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x128 .f32 := Host.absf main_arg4
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x256 .f32 := Host.absf main_arg5
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x128 .f32) (main_arg1 : FVec F S5x128 .f32) (main_arg2 : FVec F S5x128 .f32) (main_arg3 : FVec F S5 .f32) (main_arg4 : FVec F S5x128 .f32) (main_arg5 : FVec F S5x256 .f32) (main_arg6 : FVec F S5 .f32) (main_arg7 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5x128 .f32 := Host.absf main_arg1
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S5x128 .f32 := Host.absf main_arg2
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_v13 main_v16
-- ==== Kernel.lean ====
abbrev S100000x128 : Shape := ⟨2, ![100000, 128]⟩
abbrev S5x128 : Shape := ⟨2, ![5, 128]⟩
abbrev S5 : Shape := ⟨1, ![5]⟩
abbrev S5x256 : Shape := ⟨2, ![5, 256]⟩
abbrev S2x600000 : Shape := ⟨2, ![2, 600000]⟩
abbrev S1x5 : Shape := ⟨2, ![1, 5]⟩
abbrev S100000x5 : Shape := ⟨2, ![100000, 5]⟩
abbrev S5000x128 : Shape := ⟨2, ![5000, 128]⟩
abbrev S5000x5 : Shape := ⟨2, ![5000, 5]⟩
abbrev S128x5 : Shape := ⟨2, ![128, 5]⟩
abbrev S5000 : Shape := ⟨1, ![5000]⟩
abbrev S5000x1 : Shape := ⟨2, ![5000, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x5 : Shape := ⟨2, ![600000, 5]⟩
abbrev S6000x5 : Shape := ⟨2, ![6000, 5]⟩
abbrev S6000 : Shape := ⟨1, ![6000]⟩
abbrev S6000x1 : Shape := ⟨2, ![6000, 1]⟩

abbrev nBuf : Space → Nat
  | .hbm => 59
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S5x128, .f32⟩
  | .hbm, ⟨2, _⟩ => ⟨S5x128, .f32⟩
  | .hbm, ⟨3, _⟩ => ⟨S5, .f32⟩
  | .hbm, ⟨4, _⟩ => ⟨S5x128, .f32⟩
  | .hbm, ⟨5, _⟩ => ⟨S5x256, .f32⟩
  | .hbm, ⟨6, _⟩ => ⟨S5, .f32⟩
  | .hbm, ⟨7, _⟩ => ⟨S2x600000, .i32⟩
  | .hbm, ⟨8, _⟩ => ⟨S1x5, .f32⟩
  | .hbm, ⟨9, _⟩ => ⟨S1x5, .f32⟩
  | .hbm, ⟨10, _⟩ => ⟨S5x128, .f32⟩
  | .hbm, ⟨11, _⟩ => ⟨S5x128, .f32⟩
  | .hbm, ⟨12, _⟩ => ⟨S100000x128, .f32⟩
  | .hbm, ⟨13, _⟩ => ⟨S100000x5, .f32⟩
  | .hbm, ⟨14, _⟩ => ⟨S100000x5, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x5, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x5, .f32⟩
  | .hbm, ⟨37, _⟩ => ⟨S600000x5, .f32⟩
  | .hbm, ⟨38, _⟩ => ⟨S_, .f32⟩
  | .hbm, ⟨39, _⟩ => ⟨S100000x5, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S100000x5, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S100000x5, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5x128, .f32⟩
  | .local _ .vmem, ⟨3, _⟩ => ⟨S1x5, .f32⟩
  | .local _ .vmem, ⟨4, _⟩ => ⟨S5x128, .f32⟩
  | .local _ .vmem, ⟨5, _⟩ => ⟨S5x128, .f32⟩
  | .local _ .vmem, ⟨6, _⟩ => ⟨S5x128, .f32⟩
  | .local _ .vmem, ⟨7, _⟩ => ⟨S5000x128, .f32⟩
  | .local _ .vmem, ⟨8, _⟩ => ⟨S5000x128, .f32⟩
  | .local _ .vmem, ⟨9, _⟩ => ⟨S5000x5, .f32⟩
  | .local _ .vmem, ⟨10, _⟩ => ⟨S5000x5, .f32⟩
  | .local _ .vmem, ⟨11, _⟩ => ⟨S5000x5, .f32⟩
  | .local _ .vmem, ⟨12, _⟩ => ⟨S5000x5, .f32⟩
  | .local _ .vmem, ⟨13, _⟩ => ⟨S6000x5, .f32⟩
  | .local _ .vmem, ⟨14, _⟩ => ⟨S6000x5, .f32⟩
  | .local _ .vmem, ⟨15, _⟩ => ⟨S6000x5, .f32⟩
  | .local _ .vmem, ⟨16, _⟩ => ⟨S6000x5, .f32⟩
  | .local _ .vmem, ⟨17, _⟩ => ⟨S1x5, .f32⟩
  | .local _ .vmem, ⟨18, _⟩ => ⟨S6000x5, .f32⟩
  | .local _ .vmem, ⟨19, _⟩ => ⟨S6000x5, .f32⟩
  | .local _ .vmem, ⟨20, _⟩ => ⟨S5000x128, .f32⟩
  | .local _ .vmem, ⟨21, _⟩ => ⟨S5000x128, .f32⟩
  | .local _ .vmem, ⟨22, _⟩ => ⟨S5000x5, .f32⟩
  | .local _ .vmem, ⟨23, _⟩ => ⟨S5000x5, .f32⟩
  | .local _ .vmem, ⟨24, _⟩ => ⟨S5x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S5_S1x5 : S5.ShapeCasts S1x5
  slices_S5x256_S5x128_0_0 : S5x256.Slices ![0, 0] S5x128
  slices_S5x256_S5x128_0_128 : S5x256.Slices ![0, 128] S5x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  transposes_S5x128_p1_0_S128x5 : S5x128.Transposes [1, 0] S128x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  shapeCasts_S5x128_S5x128 : S5x128.ShapeCasts S5x128
  inb_S5000x5_S5000x5_0_0 : ∀ a, (![0, 0] : Fin 2 → Nat) a + S5000x5.size a ≤ S5000x5.size a
  h_S5000x5 : 0 < S5000x5.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S6000x5_S6000x5_0_0 : ∀ a, (![0, 0] : Fin 2 → Nat) a + S6000x5.size a ≤ S6000x5.size a
  h_S6000x5 : 0 < S6000x5.numel
  shapeCasts_S6000x5_S6000x5 : S6000x5.ShapeCasts S6000x5
  broadcasts_S1x5_S6000x5 : S1x5.Broadcasts S6000x5
  reduces_S6000x5_S6000 : S6000x5.Reduces [1] S6000
  shapeCasts_S6000_S6000x1 : S6000.ShapeCasts S6000x1
  broadcasts_S6000x1_S6000x5 : S6000x1.Broadcasts S6000x5
  bcast_S_S100000x5 : S_.BroadcastsInDim S100000x5 (![] : Fin 0 → Fin S100000x5.rank)
  shapeCasts_S5000x128_S5000x128 : S5000x128.ShapeCasts S5000x128
  shapeCasts_S5000x5_S5000x5 : S5000x5.ShapeCasts S5000x5
  dot_S5000x128_S128x5_S5000x5_1_0_0_1_n_n_wf : DotDims.WF S5000x128 S128x5 S5000x5 [1] [0] [0] [1] [] []
  dot_S5000x5_S5x128_S5000x128_1_0_0_1_n_n_wf : DotDims.WF S5000x5 S5x128 S5000x128 [1] [0] [0] [1] [] []
  gather_S100000x5_S600000x1_S600000x5_1_0_n_n_0_1_15_wf : GatherDims.WF S100000x5 S600000x1 S600000x5 [1] [0] [] [0] [] 1 ![1, 5]
  scatter_S100000x5_S600000x1_S600000x5_1_0_0_1_wf : ScatterDims.WF S100000x5 S600000x1 S600000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .f32 = 32 ∨ (Rect.block (s := S5x128) S5x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x5.size a ≤ S100000x5.size a
  hwx0_7 : ∀ i : grid0.Coords, EltTy.bits .f32 = 32 ∨ (Rect.block (s := S100000x5) S5000x5.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x5.size a ≤ S100000x5.size a
  hwx0_8 : ∀ i : grid0.Coords, EltTy.bits .f32 = 32 ∨ (Rect.block (s := S100000x5) S5000x5.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x5.size a ≤ S600000x5.size a
  hwx1_0 : ∀ i : grid1.Coords, EltTy.bits .f32 = 32 ∨ (Rect.block (s := S600000x5) S6000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x5.size a ≤ S600000x5.size a
  hwx1_1 : ∀ i : grid1.Coords, EltTy.bits .f32 = 32 ∨ (Rect.block (s := S600000x5) S6000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x5.size a ≤ S600000x5.size a
  hwx1_3 : ∀ i : grid1.Coords, EltTy.bits .f32 = 32 ∨ (Rect.block (s := S600000x5) S6000x5.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x5.size a ≤ S100000x5.size a
  hwx2_1 : ∀ i : grid2.Coords, EltTy.bits .f32 = 32 ∨ (Rect.block (s := S100000x5) S5000x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x128.size a ≤ S5x128.size a
  hwx2_2 : ∀ i : grid2.Coords, EltTy.bits .f32 = 32 ∨ (Rect.block (s := S5x128) S5x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S100000x5_S600000x1_S600000x5_1_0_n_n_0_1_15 : GatherDims S100000x5 S600000x1 S600000x5 where
  offsetDims := [1]
  collapsedSliceDims := [0]
  operandBatchingDims := []
  startIndicesBatchingDims := []
  startIndexMap := [0]
  indexVectorDim := 1
  sliceSizes := ![1, 5]
  wf := gather_S100000x5_S600000x1_S600000x5_1_0_n_n_0_1_15_wf
def scatter_S100000x5_S600000x1_S600000x5_1_0_0_1 : ScatterDims S100000x5 S600000x1 S600000x5 where
  updateWindowDims := [1]
  insertedWindowDims := [0]
  scatterDimsToOperandDims := [0]
  indexVectorDim := 1
  wf := scatter_S100000x5_S600000x1_S600000x5_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S5000x5.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S5000x5.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v15) S6000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S6000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S6000x5.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S5x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S5x128 : Shape := ⟨2, ![5, 128]⟩
abbrev S5 : Shape := ⟨1, ![5]⟩
abbrev S5x256 : Shape := ⟨2, ![5, 256]⟩
abbrev S2x600000 : Shape := ⟨2, ![2, 600000]⟩
abbrev S128x5 : Shape := ⟨2, ![128, 5]⟩
abbrev S100000x5 : Shape := ⟨2, ![100000, 5]⟩
abbrev S1x5 : Shape := ⟨2, ![1, 5]⟩
abbrev S_ : Shape := ⟨0, ![]⟩
abbrev S100000 : Shape := ⟨1, ![100000]⟩
abbrev S100000x1 : Shape := ⟨2, ![100000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S600000x256 : Shape := ⟨2, ![600000, 256]⟩
abbrev S256x5 : Shape := ⟨2, ![256, 5]⟩
abbrev S600000x5 : Shape := ⟨2, ![600000, 5]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S5x128, .f32⟩
  | .hbm, ⟨2, _⟩ => ⟨S5x128, .f32⟩
  | .hbm, ⟨3, _⟩ => ⟨S5, .f32⟩
  | .hbm, ⟨4, _⟩ => ⟨S5x128, .f32⟩
  | .hbm, ⟨5, _⟩ => ⟨S5x256, .f32⟩
  | .hbm, ⟨6, _⟩ => ⟨S5, .f32⟩
  | .hbm, ⟨7, _⟩ => ⟨S2x600000, .i32⟩
  | .hbm, ⟨8, _⟩ => ⟨S128x5, .f32⟩
  | .hbm, ⟨9, _⟩ => ⟨S100000x5, .f32⟩
  | .hbm, ⟨10, _⟩ => ⟨S1x5, .f32⟩
  | .hbm, ⟨11, _⟩ => ⟨S100000x5, .f32⟩
  | .hbm, ⟨12, _⟩ => ⟨S100000x5, .f32⟩
  | .hbm, ⟨13, _⟩ => ⟨S_, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x5, .f32⟩
  | .hbm, ⟨20, _⟩ => ⟨S100000x5, .f32⟩
  | .hbm, ⟨21, _⟩ => ⟨S100000x5, .f32⟩
  | .hbm, ⟨22, _⟩ => ⟨S_, .f32⟩
  | .hbm, ⟨23, _⟩ => ⟨S100000, .f32⟩
  | .hbm, ⟨24, _⟩ => ⟨S100000x1, .f32⟩
  | .hbm, ⟨25, _⟩ => ⟨S100000x5, .f32⟩
  | .hbm, ⟨26, _⟩ => ⟨S100000x5, .f32⟩
  | .hbm, ⟨27, _⟩ => ⟨S100000x128, .f32⟩
  | .hbm, ⟨28, _⟩ => ⟨S100000x128, .f32⟩
  | .hbm, ⟨29, _⟩ => ⟨S1x600000, .i32⟩
  | .hbm, ⟨30, _⟩ => ⟨S600000, .i32⟩
  | .hbm, ⟨31, _⟩ => ⟨S1x600000, .i32⟩
  | .hbm, ⟨32, _⟩ => ⟨S600000, .i32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x256, .f32⟩
  | .hbm, ⟨52, _⟩ => ⟨S256x5, .f32⟩
  | .hbm, ⟨53, _⟩ => ⟨S600000x5, .f32⟩
  | .hbm, ⟨54, _⟩ => ⟨S1x5, .f32⟩
  | .hbm, ⟨55, _⟩ => ⟨S600000x5, .f32⟩
  | .hbm, ⟨56, _⟩ => ⟨S600000x5, .f32⟩
  | .hbm, ⟨57, _⟩ => ⟨S_, .f32⟩
  | .hbm, ⟨58, _⟩ => ⟨S_, .f32⟩
  | .hbm, ⟨59, _⟩ => ⟨S600000x5, .f32⟩
  | .hbm, ⟨60, _⟩ => ⟨S600000x5, .i1⟩
  | .hbm, ⟨61, _⟩ => ⟨S_, .f32⟩
  | .hbm, ⟨62, _⟩ => ⟨S600000x5, .f32⟩
  | .hbm, ⟨63, _⟩ => ⟨S600000x5, .f32⟩
  | .hbm, ⟨64, _⟩ => ⟨S600000x5, .f32⟩
  | .hbm, ⟨65, _⟩ => ⟨S_, .f32⟩
  | .hbm, ⟨66, _⟩ => ⟨S600000, .f32⟩
  | .hbm, ⟨67, _⟩ => ⟨S_, .f32⟩
  | .hbm, ⟨68, _⟩ => ⟨S600000, .f32⟩
  | .hbm, ⟨69, _⟩ => ⟨S600000, .f32⟩
  | .hbm, ⟨70, _⟩ => ⟨S600000x1, .f32⟩
  | .hbm, ⟨71, _⟩ => ⟨S600000x5, .f32⟩
  | .hbm, ⟨72, _⟩ => ⟨S600000x5, .f32⟩
  | .hbm, ⟨73, _⟩ => ⟨S600000x5, .f32⟩
  | .hbm, ⟨74, _⟩ => ⟨S_, .f32⟩
  | .hbm, ⟨75, _⟩ => ⟨S600000, .f32⟩
  | .hbm, ⟨76, _⟩ => ⟨S600000x1, .f32⟩
  | .hbm, ⟨77, _⟩ => ⟨S600000x5, .f32⟩
  | .hbm, ⟨78, _⟩ => ⟨S600000x5, .f32⟩
  | .hbm, ⟨79, _⟩ => ⟨S600000x128, .f32⟩
  | .hbm, ⟨80, _⟩ => ⟨S_, .f32⟩
  | .hbm, ⟨81, _⟩ => ⟨S100000x128, .f32⟩
  | .hbm, ⟨82, _⟩ => ⟨S_, .i32⟩
  | .hbm, ⟨83, _⟩ => ⟨S600000, .i32⟩
  | .hbm, ⟨84, _⟩ => ⟨S600000, .i1⟩
  | .hbm, ⟨85, _⟩ => ⟨S_, .i32⟩
  | .hbm, ⟨86, _⟩ => ⟨S600000, .i32⟩
  | .hbm, ⟨87, _⟩ => ⟨S600000, .i32⟩
  | .hbm, ⟨88, _⟩ => ⟨S600000, .i32⟩
  | .hbm, ⟨89, _⟩ => ⟨S600000x1, .i32⟩
  | .hbm, ⟨90, _⟩ => ⟨S100000x128, .f32⟩
  | .hbm, ⟨91, _⟩ => ⟨S_, .i32⟩
  | .hbm, ⟨92, _⟩ => ⟨S600000, .i32⟩
  | .hbm, ⟨93, _⟩ => ⟨S600000, .i1⟩
  | .hbm, ⟨94, _⟩ => ⟨S_, .i32⟩
  | .hbm, ⟨95, _⟩ => ⟨S600000, .i32⟩
  | .hbm, ⟨96, _⟩ => ⟨S600000, .i32⟩
  | .hbm, ⟨97, _⟩ => ⟨S600000, .i32⟩
  | .hbm, ⟨98, _⟩ => ⟨S600000x1, .i32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  transposes_S5x128_S128x5_1_0 : S5x128.Transposes [1, 0] S128x5
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S100000_d1 : S100000x5.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  transposes_S5x256_S256x5_1_0 : S5x256.Transposes [1, 0] S256x5
  bcast_S1x5_S600000x5_0_1 : S1x5.BroadcastsInDim S600000x5 (![0, 1] : Fin 2 → Fin S600000x5.rank)
  bcast_S_S600000x5 : S_.BroadcastsInDim S600000x5 (![] : Fin 0 → Fin S600000x5.rank)
  reducesTo_S600000x5_S600000_d1 : S600000x5.ReducesTo [1] S600000
  bcast_S600000x1_S600000x5_0_1 : S600000x1.BroadcastsInDim S600000x5 (![0, 1] : Fin 2 → Fin S600000x5.rank)
  bcast_S_S100000x128 : S_.BroadcastsInDim S100000x128 (![] : Fin 0 → Fin S100000x128.rank)
  dot_S100000x128_S128x5_S100000x5_1_0_0_1_n_n_wf : DotDims.WF S100000x128 S128x5 S100000x5 [1] [0] [0] [1] [] []
  dot_S100000x5_S5x128_S100000x128_1_0_0_1_n_n_wf : DotDims.WF S100000x5 S5x128 S100000x128 [1] [0] [0] [1] [] []
  gather_S100000x128_S600000x1_S600000x128_1_0_n_n_0_1_1128_wf : GatherDims.WF S100000x128 S600000x1 S600000x128 [1] [0] [] [0] [] 1 ![1, 128]
  dot_S600000x256_S256x5_S600000x5_1_0_0_1_n_n_wf : DotDims.WF S600000x256 S256x5 S600000x5 [1] [0] [0] [1] [] []
  dot_S600000x5_S5x128_S600000x128_1_0_0_1_n_n_wf : DotDims.WF S600000x5 S5x128 S600000x128 [1] [0] [0] [1] [] []
  scatter_S100000x128_S600000x1_S600000x128_1_0_0_1_wf : ScatterDims.WF S100000x128 S600000x1 S600000x128 [1] [0] [0] 1

variable [Facts₀]

def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x5_S600000x5_1_0_0_1_n_n : DotDims S600000x256 S256x5 S600000x5 where
  lhsContracting := [1]
  rhsContracting := [0]
  lhsNonContracting := [0]
  rhsNonContracting := [1]
  lhsBatch := []
  rhsBatch := []
  wf := dot_S600000x256_S256x5_S600000x5_1_0_0_1_n_n_wf
def dot_S600000x5_S5x128_S600000x128_1_0_0_1_n_n : DotDims S600000x5 S5x128 S600000x128 where
  lhsContracting := [1]
  rhsContracting := [0]
  lhsNonContracting := [0]
  rhsNonContracting := [1]
  lhsBatch := []
  rhsBatch := []
  wf := dot_S600000x5_S5x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The idealized kernel program's run with its result array named.

  The program is three pipelined kernel regions among stretches of host operations.  Every weakly fair execution
  terminates, and the final memory holds, at every buffer that outlives the regions, the contents obtained by folding
  the stretches and the regions' write-backs over the launch memory: in particular the result array is the last
  region's output array after its write-backs, and the eight arguments are as launched.
-/
import proofs.«116679_j34248069218341_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the contents the fold assigns it after the last region, the arguments as
    launched. -/
theorem run_named : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Hand

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibPoolForms.lean ====
/-
  Index forms of vector operations on the extended reals, at explicit coordinates and for any extents: the sum along
  the rows and the sum down the columns of a matrix started from the zero word, the maximum along the rows of a matrix
  started from the word of −∞, the broadcast of a one-entry matrix over a whole matrix, and the exponential read at an
  index.  The three reductions take the side condition on the starting word as the plain equation of two words of the format's width.
-/
import Idealize.ShloMosaic.Lib.ValueIdx
import Idealize.ShloMosaic.Lib.Pipeline.Value
import Idealize.ShloMosaic.PureOps.Ideal.Laws

noncomputable section

open scoped BigOperators

namespace Cert.Lib.PoolForms

open Idealize.ShloMosaic Idealize.ShloMosaic.ValueIdx

variable {α : Type}

/-- The sum down the columns of an a×b array, started from the zero word, read at column k: the sum over the a rows
    of the entries of that column. -/
theorem colSum_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = 0x00000000#32) (k : Fin b) :
    multiReduction (F := Ideal) .add [0] ⟨1, ![b]⟩ src 0x00000000#32 h hφ hacc (ix1 k) = ∑ r : Fin a, src (ix2 r k) := by
  refine (Ideal.multiReduction_add_single src _ h hφ hacc (ix1 k)).trans ?_
  refine Finset.sum_congr rfl fun r _ => congrArg src ?_
  funext ax; apply Fin.ext
  match ax with
  | ⟨0, _⟩ => rfl
  | ⟨1, _⟩ => rfl

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- The maximum along the rows of an a×b array started from the word of −∞, read at row r: the fold of max over the
    row's entries, from the value of that word. -/
theorem rowMax_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  refine Finset.fold_congr fun k _ => congrArg src ?_
  funext ax; apply Fin.ext
  match ax with
  | ⟨0, _⟩ => rfl
  | ⟨1, _⟩ => rfl

/-- A one-entry matrix [1, 1] broadcast to [a, b] reads its one entry everywhere. -/
theorem broadcastTo_11_ab_apply {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector reads, at an index, the exponential of the entry. -/
theorem exp_apply {s : Shape} {φ : FTy} (a : FVec Ideal s φ) (i : s.Idx) : exp a i = Ideal.exp (a i) := rfl

end Cert.Lib.PoolForms

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.LibLogSoftmax.lean ====
/-
  The log-softmax of the rows of an array, on the extended reals, for any extents: its value at an entry, and the two
  spellings of it that programs print.

  For a finite family z, `logSoftmaxAt z q = (z_q − M) − log Σ_p exp(z_p − M)` with M = `famMax z`, the maximum of the
  family taken from −∞ (the word 0xFF800000).

  * The tile spelling (a kernel body): the row maxima by a lane reduction from the word of −∞, made a column and spread
    over the columns; the shifted tile; the row sums of its exponentials by a lane reduction from the zero word, made a
    column; their logarithms spread over the columns; the difference — `tile_apply`.
  * The host spelling (what `jax.nn.log_softmax` along the last axis prints): the row maxima by a reduction with a
    maximum body from −∞, joined once more with a broadcast −∞ (which changes nothing); that vector made a column and
    spread over the columns; the shifted array; the row sums of the exponentials by an add-reduction from zero, made a
    column; their logarithms spread; the difference — `host_apply`, with `hostRowMax_apply` and `hostRowSum_apply`
    for the two reductions alone.

  Both read, at (r, q), `logSoftmaxAt` of row r at q.
-/
import proofs.«116679_j34248069218341_2_alg».proof.Proof.LibColumnForms
import proofs.«116679_j34248069218341_2_alg».proof.Proof.LibPoolForms
import proofs.«116679_j34248069218341_2_alg».proof.Proof.LibRowScalar
import Idealize.ShloMosaic.Lib.ValueIdx
import Idealize.ShloMosaic.Lib.Pipeline.Value
import Idealize.ShloMosaic.PureOps.Ideal.Laws

noncomputable section

open scoped BigOperators

namespace Cert.Lib.LogSoftmax

open Idealize.ShloMosaic Idealize.ShloMosaic.ValueIdx

/-- The maximum of a finite family, taken from −∞ (the word 0xFF800000). -/
def famMax {c : Nat} (z : Fin c → EReal) : EReal :=
  (Finset.univ : Finset (Fin c)).fold max (Ideal.ofBits .f32 0xFF800000#32) z

/-- The log-softmax of a finite family at q: shift by the maximum, then subtract the logarithm of the sum of the
    exponentials of the shifted family. -/
def logSoftmaxAt {c : Nat} (z : Fin c → EReal) (q : Fin c) : EReal :=
  (z q - famMax z) - Ideal.log (∑ p : Fin c, Ideal.exp (z p - famMax z))

/-! ## The tile spelling -/

/-- The log-softmax along the rows of an a×b array as a kernel body spells it — the row maxima from the word of −∞
    made a column and spread over the rows, the shifted array, the row sums of its exponentials from the zero word
    made a column, their logarithms spread over the rows — read at (p, q): the log-softmax of row p at q. -/
theorem tile_apply {a b : Nat} (z : FVec Ideal ⟨2, ![a, b]⟩ .f32)
    (hr : (⟨2, ![a, b]⟩ : Shape).Reduces [1] ⟨1, ![a]⟩) (hφ : FKind.Formats .f32)
    (hm : (0xFF800000#32 : BitVec FTy.f32.bits) = 0xFF800000#32)
    (hs : (0x00000000#32 : BitVec FTy.f32.bits) = 0x00000000#32)
    (hc : (⟨1, ![a]⟩ : Shape).ShapeCasts ⟨2, ![a, 1]⟩) (hb : (⟨2, ![a, 1]⟩ : Shape).Broadcasts ⟨2, ![a, b]⟩)
    (p : Fin a) (q : Fin b) :
    subf (subf z (broadcastTo ⟨2, ![a, b]⟩ (shapeCast ⟨2, ![a, 1]⟩
              (multiReduction (F := Ideal) .maximumf [1] ⟨1, ![a]⟩ z 0xFF800000#32 hr hφ hm) hc) hb))
        (broadcastTo ⟨2, ![a, b]⟩ (log (shapeCast ⟨2, ![a, 1]⟩
            (multiReduction (F := Ideal) .add [1] ⟨1, ![a]⟩
              (exp (subf z (broadcastTo ⟨2, ![a, b]⟩ (shapeCast ⟨2, ![a, 1]⟩
                (multiReduction (F := Ideal) .maximumf [1] ⟨1, ![a]⟩ z 0xFF800000#32 hr hφ hm) hc) hb)))
              0x00000000#32 hr hφ hs) hc)) hb) (ix2 p q)
      = logSoftmaxAt (fun k => z (ix2 p k)) q := by
  have hM : ∀ k : Fin b, (broadcastTo ⟨2, ![a, b]⟩ (shapeCast ⟨2, ![a, 1]⟩
        (multiReduction (F := Ideal) .maximumf [1] ⟨1, ![a]⟩ z 0xFF800000#32 hr hφ hm) hc) hb) (ix2 p k)
      = famMax (fun k => z (ix2 p k)) := fun k =>
    (Cert.Lib.ColumnForms.broadcastTo_a1_ab_apply _ hb p k).trans
      ((Cert.Lib.ColumnForms.shapeCast_a_a1_apply _ hc p (0 : Fin 1)).trans (Cert.Lib.PoolForms.rowMax_apply z hr hφ hm p))
  unfold logSoftmaxAt
  refine congrArg₂ (fun s t : EReal => s - t) (congrArg (fun t : EReal => z (ix2 p q) - t) (hM q)) ?_
  refine (Cert.Lib.ColumnForms.broadcastTo_a1_ab_apply _ hb p q).trans ?_
  refine congrArg Ideal.log ?_
  refine (Cert.Lib.ColumnForms.shapeCast_a_a1_apply _ hc p (0 : Fin 1)).trans ?_
  refine (Cert.Lib.PoolForms.rowSum_apply _ hr hφ hs p).trans ?_
  refine Finset.sum_congr rfl fun k _ => ?_
  exact congrArg (fun t : EReal => Ideal.exp (z (ix2 p k) - t)) (hM k)

/-! ## The host spelling -/

/-- −∞ is neutral for the maximum. -/
theorem max_negInf (y : EReal) : max (Ideal.ofBits .f32 0xFF800000#32) y = y := by
  simp [Ideal.ofBits, Ideal.ieee]

/-- The reduced index r with column k put back is (r, k). -/
theorem lift_ix2 {a b : Nat} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  match c with
  | ⟨0, _⟩ => rfl
  | ⟨1, _⟩ => rfl

/-- A host reduction with a maximum body along the rows of an a×b array from the word of −∞, read at row r: the
    maximum of the row taken from −∞. -/
theorem hostRowMax_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf z (constant (F := Ideal) (⟨0, ![]⟩ : Shape) .f32 0xFF800000#32) h' hu (ix1 r)
      = famMax (fun k : Fin b => z (ix2 r k)) := by
  rw [Host.reduce_eq_fold_single FloatOps.maximumf z _ h' h hu]
  unfold famMax
  have hf : (z ∘ h.lift (ix1 r)) = fun k : Fin b => z (ix2 r k) := funext fun k => congrArg z (lift_ix2 h r k)
  exact congrArg (fun f => Finset.fold max (Ideal.ofBits .f32 0xFF800000#32) f (Finset.univ : Finset (Fin b))) hf

/-- A host add-reduction along the rows of an a×b array from the zero word, read at row r: the sum of the row. -/
theorem hostRowSum_apply {a b : Nat} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduceAdd x (constant (F := Ideal) (⟨0, ![]⟩ : Shape) .f32 0x00000000#32) h' hu (ix1 r) = ∑ k : Fin b, x (ix2 r k) := by
  simp only [Host.reduceAdd, Ideal.hostReduceAdd_def]
  rw [Ideal.hostReduceAdd_single h' h]
  have h0 : (constant (F := Ideal) (⟨0, ![]⟩ : Shape) .f32 0x00000000#32) (Shape.Idx.first hu) = (0 : EReal) := Ideal.ofBits_zero_f32
  rw [h0, zero_add]
  exact Finset.sum_congr rfl fun k _ => congrArg x (lift_ix2 h r k)

/-- The host log-softmax along the rows, read at (r, q). -/
theorem host_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (q : Fin b) :
    subf (subf z (broadcastInDim ⟨2, ![a, b]⟩ (![0, 1] : Fin 2 → Fin 2) g2 (broadcastInDim ⟨2, ![a, 1]⟩ (![0] : Fin 1 → Fin 2) g1
            (maximumf (broadcastInDim ⟨1, ![a]⟩ (![] : Fin 0 → Fin 1) g0 (constant (F := Ideal) (⟨0, ![]⟩ : Shape) .f32 0xFF800000#32))
              (Host.reduce FloatOps.maximumf z (constant (F := Ideal) (⟨0, ![]⟩ : Shape) .f32 0xFF800000#32) h' hu)))))
        (broadcastInDim ⟨2, ![a, b]⟩ (![0, 1] : Fin 2 → Fin 2) g2 (Host.log (broadcastInDim ⟨2, ![a, 1]⟩ (![0] : Fin 1 → Fin 2) g1
          (Host.reduceAdd (Host.exp (subf z (broadcastInDim ⟨2, ![a, b]⟩ (![0, 1] : Fin 2 → Fin 2) g2
              (broadcastInDim ⟨2, ![a, 1]⟩ (![0] : Fin 1 → Fin 2) g1
                (maximumf (broadcastInDim ⟨1, ![a]⟩ (![] : Fin 0 → Fin 1) g0 (constant (F := Ideal) (⟨0, ![]⟩ : Shape) .f32 0xFF800000#32))
                  (Host.reduce FloatOps.maximumf z (constant (F := Ideal) (⟨0, ![]⟩ : Shape) .f32 0xFF800000#32) h' hu))))))
            (constant (F := Ideal) (⟨0, ![]⟩ : Shape) .f32 0x00000000#32) h' hu)))) (ix2 r q)
      = logSoftmaxAt (fun k : Fin b => z (ix2 r k)) q := by
  have hM : ∀ k : Fin b, (broadcastInDim ⟨2, ![a, b]⟩ (![0, 1] : Fin 2 → Fin 2) g2 (broadcastInDim ⟨2, ![a, 1]⟩ (![0] : Fin 1 → Fin 2) g1
        (maximumf (broadcastInDim ⟨1, ![a]⟩ (![] : Fin 0 → Fin 1) g0 (constant (F := Ideal) (⟨0, ![]⟩ : Shape) .f32 0xFF800000#32))
          (Host.reduce FloatOps.maximumf z (constant (F := Ideal) (⟨0, ![]⟩ : Shape) .f32 0xFF800000#32) h' hu)))) (ix2 r k)
      = famMax (fun k : Fin b => z (ix2 r k)) := fun k => by
    refine (Cert.LibRowScalar.col_apply _ g1 g2 r k).trans ?_
    show max ((broadcastInDim ⟨1, ![a]⟩ (![] : Fin 0 → Fin 1) g0 (constant (F := Ideal) (⟨0, ![]⟩ : Shape) .f32 0xFF800000#32)) (ix1 r))
      (Host.reduce FloatOps.maximumf z (constant (F := Ideal) (⟨0, ![]⟩ : Shape) .f32 0xFF800000#32) h' hu (ix1 r)) = _
    rw [hostRowMax_apply z h' h hu r,
      broadcastInDim_apply (![] : Fin 0 → Fin 1) g0 _ (ix1 r) ix0 (fun d => d.elim0)]
    exact max_negInf _
  unfold logSoftmaxAt
  refine congrArg₂ (fun s t : EReal => s - t) (congrArg (fun t : EReal => z (ix2 r q) - t) (hM q)) ?_
  refine (broadcastInDim_apply (![0, 1] : Fin 2 → Fin 2) g2 _ (ix2 r q) (ix2 r (0 : Fin 1)) (fun ax => by
    match ax with
    | ⟨0, _⟩ =>
      show r.val = if a = 1 then 0 else r.val
      split
      · have := r.isLt; omega
      · rfl
    | ⟨1, _⟩ => rfl)).trans ?_
  refine congrArg Ideal.log ?_
  refine (broadcastInDim_apply (![0] : Fin 1 → Fin 2) g1 _ (ix2 r (0 : Fin 1)) (ix1 r) (fun ax => by
    match ax with
    | ⟨0, _⟩ =>
      show r.val = if a = 1 then 0 else r.val
      split
      · have := r.isLt; omega
      · rfl)).trans ?_
  refine (hostRowSum_apply _ h' h hu r).trans ?_
  refine Finset.sum_congr rfl fun k _ => ?_
  exact congrArg (fun t : EReal => Ideal.exp (z (ix2 r k) - t)) (hM k)

end Cert.Lib.LogSoftmax

end
-- ==== Proof.LibSoftmax.lean ====
/-
  The softmax along the rows of a matrix, read at an entry, at the ideal instance.

  softmax z q = exp (z q − M) / Σ_p exp (z p − M), with M the maximum of the family taken from −∞.  Two spellings of
  the row-wise softmax of an a×b array are read at the entry (p, q) as the softmax of row p at q: the one a kernel
  body prints (row maxima from the word of −∞ made a column and spread over the rows, the exponentials of the shifted
  array, their row sums from the zero word made a column and spread, the quotient) and the one the host prints (a
  reduction with a maximum body, the maximum with a broadcast −∞, two broadcasts, the exponentials, an add-reduction,
  two broadcasts, the quotient).  Any extents; imports the log-softmax forms for the family maximum and the two host
  reductions read at a row.
-/
import proofs.«116679_j34248069218341_2_alg».proof.Proof.LibLogSoftmax

noncomputable section

open scoped BigOperators

namespace Cert.Lib.Softmax

open Idealize.ShloMosaic Idealize.ShloMosaic.ValueIdx Cert.Lib.LogSoftmax

/-- The softmax of a finite family at q: the exponential of the entry shifted by the family's maximum, over the sum of
    all such exponentials. -/
def softmaxAt {c : Nat} (z : Fin c → EReal) (q : Fin c) : EReal :=
  Ideal.div (Ideal.exp (z q - famMax z)) (∑ p : Fin c, Ideal.exp (z p - famMax z))

/-- The kernel-body spelling, read at (p, q). -/
theorem tile_apply {a b : Nat} (z : FVec Ideal ⟨2, ![a, b]⟩ .f32)
    (hr : (⟨2, ![a, b]⟩ : Shape).Reduces [1] ⟨1, ![a]⟩) (hφ : FKind.Formats .f32)
    (hm : (0xFF800000#32 : BitVec FTy.f32.bits) = 0xFF800000#32)
    (hs : (0x00000000#32 : BitVec FTy.f32.bits) = 0x00000000#32)
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf z (broadcastTo ⟨2, ![a, b]⟩ (shapeCast ⟨2, ![a, 1]⟩
              (multiReduction (F := Ideal) .maximumf [1] ⟨1, ![a]⟩ z 0xFF800000#32 hr hφ hm) hc) hb)))
        (broadcastTo ⟨2, ![a, b]⟩ (shapeCast ⟨2, ![a, 1]⟩
            (multiReduction (F := Ideal) .add [1] ⟨1, ![a]⟩
              (exp (subf z (broadcastTo ⟨2, ![a, b]⟩ (shapeCast ⟨2, ![a, 1]⟩
                (multiReduction (F := Ideal) .maximumf [1] ⟨1, ![a]⟩ z 0xFF800000#32 hr hφ hm) hc) hb)))
              0x00000000#32 hr hφ hs) hc) hb) (ix2 p q)
      = softmaxAt (fun k => z (ix2 p k)) q := by
  have hM : ∀ k : Fin b, (broadcastTo ⟨2, ![a, b]⟩ (shapeCast ⟨2, ![a, 1]⟩
        (multiReduction (F := Ideal) .maximumf [1] ⟨1, ![a]⟩ z 0xFF800000#32 hr hφ hm) hc) hb) (ix2 p k)
      = famMax (fun k => z (ix2 p k)) := fun k =>
    (Cert.Lib.ColumnForms.broadcastTo_a1_ab_apply _ hb p k).trans
      ((Cert.Lib.ColumnForms.shapeCast_a_a1_apply _ hc p (0 : Fin 1)).trans (Cert.Lib.PoolForms.rowMax_apply z hr hφ hm p))
  unfold softmaxAt
  refine congrArg₂ Ideal.div (congrArg (fun t : EReal => Ideal.exp (z (ix2 p q) - t)) (hM q)) ?_
  refine (Cert.Lib.ColumnForms.broadcastTo_a1_ab_apply _ hb p q).trans ?_
  refine (Cert.Lib.ColumnForms.shapeCast_a_a1_apply _ hc p (0 : Fin 1)).trans ?_
  refine (Cert.Lib.PoolForms.rowSum_apply _ hr hφ hs p).trans ?_
  refine Finset.sum_congr rfl fun k _ => ?_
  exact congrArg (fun t : EReal => Ideal.exp (z (ix2 p k) - t)) (hM k)

/-- The host spelling, read at (r, q). -/
theorem host_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (q : Fin b) :
    Host.divf (Host.exp (subf z (broadcastInDim ⟨2, ![a, b]⟩ (![0, 1] : Fin 2 → Fin 2) g2 (broadcastInDim ⟨2, ![a, 1]⟩ (![0] : Fin 1 → Fin 2) g1
            (maximumf (broadcastInDim ⟨1, ![a]⟩ (![] : Fin 0 → Fin 1) g0 (constant (F := Ideal) (⟨0, ![]⟩ : Shape) .f32 0xFF800000#32))
              (Host.reduce FloatOps.maximumf z (constant (F := Ideal) (⟨0, ![]⟩ : Shape) .f32 0xFF800000#32) h' hu))))))
        (broadcastInDim ⟨2, ![a, b]⟩ (![0, 1] : Fin 2 → Fin 2) g2 (broadcastInDim ⟨2, ![a, 1]⟩ (![0] : Fin 1 → Fin 2) g1
          (Host.reduceAdd (Host.exp (subf z (broadcastInDim ⟨2, ![a, b]⟩ (![0, 1] : Fin 2 → Fin 2) g2
              (broadcastInDim ⟨2, ![a, 1]⟩ (![0] : Fin 1 → Fin 2) g1
                (maximumf (broadcastInDim ⟨1, ![a]⟩ (![] : Fin 0 → Fin 1) g0 (constant (F := Ideal) (⟨0, ![]⟩ : Shape) .f32 0xFF800000#32))
                  (Host.reduce FloatOps.maximumf z (constant (F := Ideal) (⟨0, ![]⟩ : Shape) .f32 0xFF800000#32) h' hu))))))
            (constant (F := Ideal) (⟨0, ![]⟩ : Shape) .f32 0x00000000#32) h' hu))) (ix2 r q)
      = softmaxAt (fun k : Fin b => z (ix2 r k)) q := by
  have hM : ∀ k : Fin b, (broadcastInDim ⟨2, ![a, b]⟩ (![0, 1] : Fin 2 → Fin 2) g2 (broadcastInDim ⟨2, ![a, 1]⟩ (![0] : Fin 1 → Fin 2) g1
        (maximumf (broadcastInDim ⟨1, ![a]⟩ (![] : Fin 0 → Fin 1) g0 (constant (F := Ideal) (⟨0, ![]⟩ : Shape) .f32 0xFF800000#32))
          (Host.reduce FloatOps.maximumf z (constant (F := Ideal) (⟨0, ![]⟩ : Shape) .f32 0xFF800000#32) h' hu)))) (ix2 r k)
      = famMax (fun k : Fin b => z (ix2 r k)) := fun k => by
    refine (Cert.LibRowScalar.col_apply _ g1 g2 r k).trans ?_
    show max ((broadcastInDim ⟨1, ![a]⟩ (![] : Fin 0 → Fin 1) g0 (constant (F := Ideal) (⟨0, ![]⟩ : Shape) .f32 0xFF800000#32)) (ix1 r))
      (Host.reduce FloatOps.maximumf z (constant (F := Ideal) (⟨0, ![]⟩ : Shape) .f32 0xFF800000#32) h' hu (ix1 r)) = _
    rw [hostRowMax_apply z h' h hu r,
      broadcastInDim_apply (![] : Fin 0 → Fin 1) g0 _ (ix1 r) ix0 (fun d => d.elim0)]
    exact max_negInf _
  unfold softmaxAt
  refine congrArg₂ Ideal.div (congrArg (fun t : EReal => Ideal.exp (z (ix2 r q) - t)) (hM q)) ?_
  refine (Cert.LibRowScalar.col_apply _ g1 g2 r q).trans ?_
  refine (hostRowSum_apply _ h' h hu r).trans ?_
  refine Finset.sum_congr rfl fun k _ => ?_
  exact congrArg (fun t : EReal => Ideal.exp (z (ix2 r k) - t)) (hM k)

end Cert.Lib.Softmax

end
-- ==== Proof.Spec.lean ====
/-
  The mathematics both programs compute, on the extended reals.

  A node array x (100000 rows of 128 features) is first shifted by a mixture of five node anchors, the mixture weights
  being the softmax over the anchors of an affine score of the row.  Every edge e joins a source row and a
  destination row; its five edge scores are an affine function of the two rows laid side by side (256 numbers), passed
  through a leaky rectifier and a softmax.  Each edge then sends the mixture of five edge anchors with those weights
  to both of its endpoints, and a node's result is its shifted row plus one half of everything it received.

  One program forms the edge mixture first and adds the 128-wide mixtures up per node (`outR`); the other adds the
  five weights up per node first and mixes once per node (`outK`), and it scores an edge by adding a per-node score
  of the source to a per-node score of the destination.  The two agree whenever the edge weights are not negative,
  which they are as soon as the edge scores are real numbers.
-/
import proofs.«116679_j34248069218341_2_alg».proof.Proof.LibSoftmax

noncomputable section

open scoped BigOperators

namespace Cert.Prompt

open Idealize.ShloMosaic Idealize.ShloMosaic.ValueIdx Cert.Lib.LogSoftmax

/-- An array of two axes given by its entries. -/
def ofCoords2 {a b : Nat} {α : Type} (f : Fin a → Fin b → α) : (⟨2, ![a, b]⟩ : Shape).Idx → α := fun i => f (i 0) (i 1)

theorem ofCoords2_ix2 {a b : Nat} {α : Type} (f : Fin a → Fin b → α) (p : Fin a) (q : Fin b) :
    ofCoords2 f (ix2 p q) = f p q := rfl

/-- Two arrays of two axes with the same entries are equal. -/
theorem eq_ofCoords2 {a b : Nat} {α : Type} (A : (⟨2, ![a, b]⟩ : Shape).Idx → α) (f : Fin a → Fin b → α)
    (h : ∀ p q, A (ix2 p q) = f p q) : A = ofCoords2 f := by
  funext i
  obtain ⟨p, q, rfl⟩ : ∃ (p : Fin a) (q : Fin b), i = ix2 p q := ⟨i 0, i 1, eq_ix2 i⟩
  exact h p q

export Cert.Lib.Softmax (softmaxAt)

/-- The row a gather of whole rows reads for a signed 32-bit start index: the index clamped into the array. -/
def rowOf (N : Nat) (hN : 0 < N) (v : BitVec 32) : Fin N := ⟨min v.toInt.toNat (N - 1), by omega⟩

/-- The leaky rectifier as the test `0 < t` spells it. -/
def leakyGt (t : EReal) : EReal :=
  Scalar.select (Ideal.cmp .ogt t (Ideal.ofBits .f32 0x00000000#32)) t (Ideal.ofBits .f32 0x3C23D70A#32 * t)

/-- The leaky rectifier as the test `0 ≤ t` spells it. -/
def leakyGe (t : EReal) : EReal :=
  Scalar.select (Ideal.cmp .oge t (Ideal.ofBits .f32 0x00000000#32)) t (Ideal.ofBits .f32 0x3C23D70A#32 * t)

/-- One row of the edge list (sources at offset (0,0), destinations at (1,0)) as a column of signed start indices, a
    negative index counted from the end of the 100000 rows. -/
def endpointCol (ei : IVec ⟨2, ![2, 600000]⟩ 32) (off : Fin 2 → Nat)
    (hs : (⟨2, ![2, 600000]⟩ : Shape).Slices off ⟨2, ![1, 600000]⟩)
    (hc : (⟨2, ![1, 600000]⟩ : Shape).ShapeCasts ⟨1, ![600000]⟩)
    (h0 : (⟨0, ![]⟩ : Shape).BroadcastsInDim ⟨1, ![600000]⟩ (![] : Fin 0 → Fin 1))
    (h1 : (⟨1, ![600000]⟩ : Shape).BroadcastsInDim ⟨2, ![600000, 1]⟩ (![0] : Fin 1 → Fin 2)) :
    IVec ⟨2, ![600000, 1]⟩ 32 :=
  broadcastInDim ⟨2, ![600000, 1]⟩ (![0] : Fin 1 → Fin 2) h1
    (select
      (cmpi .slt (shapeCast ⟨1, ![600000]⟩ (extractStridedSlice ⟨2, ![1, 600000]⟩ off ei hs) hc)
        (broadcastInDim ⟨1, ![600000]⟩ (![] : Fin 0 → Fin 1) h0 (constantI ⟨0, ![]⟩ 32 0#32)))
      (addi (shapeCast ⟨1, ![600000]⟩ (extractStridedSlice ⟨2, ![1, 600000]⟩ off ei hs) hc)
        (broadcastInDim ⟨1, ![600000]⟩ (![] : Fin 0 → Fin 1) h0 (constantI ⟨0, ![]⟩ 32 100000#32)))
      (shapeCast ⟨1, ![600000]⟩ (extractStridedSlice ⟨2, ![1, 600000]⟩ off ei hs) hc))

section
variable (x : (⟨2, ![100000, 128]⟩ : Shape).Idx → EReal)
  (anN attW anE : (⟨2, ![5, 128]⟩ : Shape).Idx → EReal) (attB eB : Fin 5 → EReal)
  (eW : (⟨2, ![5, 256]⟩ : Shape).Idx → EReal) (sI dI : IVec ⟨2, ![600000, 1]⟩ 32)

/-- The score of node n against node anchor a. -/
def nodeScore (n : Fin 100000) (a : Fin 5) : EReal := (∑ k : Fin 128, x (ix2 n k) * attW (ix2 a k)) + attB a

/-- The shifted node array: the row plus the softmax mixture of the node anchors. -/
def shifted (n : Fin 100000) (d : Fin 128) : EReal :=
  x (ix2 n d) + ∑ a : Fin 5, softmaxAt (nodeScore x attW attB n) a * anN (ix2 a d)

/-- The per-node score against the first half of the edge weights' columns. -/
def halfScore (w : (⟨2, ![5, 128]⟩ : Shape).Idx → EReal) (n : Fin 100000) (a : Fin 5) : EReal :=
  ∑ k : Fin 128, x (ix2 n k) * w (ix2 a k)

/-- The source row of edge e. -/
def srow (e : Fin 600000) : Fin 100000 := rowOf 100000 (by decide) (sI (ix2 e ⟨0, Nat.one_pos⟩))
/-- The destination row of edge e. -/
def drow (e : Fin 600000) : Fin 100000 := rowOf 100000 (by decide) (dI (ix2 e ⟨0, Nat.one_pos⟩))

/-- The two halves of the edge weights' columns. -/
def eWl : (⟨2, ![5, 128]⟩ : Shape).Idx → EReal := ofCoords2 fun a k => eW (ix2 a ⟨k.val, by omega⟩)
def eWr : (⟨2, ![5, 128]⟩ : Shape).Idx → EReal := ofCoords2 fun a k => eW (ix2 a ⟨128 + k.val, by omega⟩)

/-- The edge scores as a sum of two per-node scores. -/
def edgeScoreK (e : Fin 600000) (a : Fin 5) : EReal :=
  (halfScore x (eWl eW) (srow sI e) a + halfScore x (eWr eW) (drow dI e) a) + eB a

/-- The two endpoint rows of an edge laid side by side. -/
def sideBySide (e : Fin 600000) (k : Fin 256) : EReal :=
  if h : k.val < 128 then x (ix2 (srow sI e) ⟨k.val, h⟩) else x (ix2 (drow dI e) ⟨k.val - 128, by omega⟩)

/-- The edge scores as one product over 256 columns. -/
def edgeScoreR (e : Fin 600000) (a : Fin 5) : EReal :=
  (∑ k : Fin 256, sideBySide x sI dI e k * eW (ix2 a k)) + eB a

/-- The edge weights, either way. -/
def edgeWeightK (e : Fin 600000) (a : Fin 5) : EReal := softmaxAt (fun a' => leakyGt (edgeScoreK x eB eW sI dI e a')) a
def edgeWeightR (e : Fin 600000) (a : Fin 5) : EReal := softmaxAt (fun a' => leakyGe (edgeScoreR x eB eW sI dI e a')) a

/-- What node n receives of a per-edge quantity u: from the zero word, the sum over the edges whose source is n, then
    the sum over those whose destination is n. -/
def received {C : Nat} (u : Fin 600000 → Fin C → EReal) (n : Fin 100000) (c : Fin C) : EReal :=
  (Ideal.ofBits .f32 0x00000000#32
      + ∑ e : Fin 600000, if (sI (ix2 e ⟨0, Nat.one_pos⟩)).toInt = (n.val : Int) then u e c else 0)
    + ∑ e : Fin 600000, if (dI (ix2 e ⟨0, Nat.one_pos⟩)).toInt = (n.val : Int) then u e c else 0

/-- The result with the weights added up per node first. -/
def outK (n : Fin 100000) (d : Fin 128) : EReal :=
  shifted x anN attW attB n d
    + Ideal.ofBits .f32 0x3F000000#32
      * ∑ a : Fin 5, received sI dI (edgeWeightK x eB eW sI dI) n a * anE (ix2 a d)

/-- The result with the edge mixtures added up per node. -/
def outR (n : Fin 100000) (d : Fin 128) : EReal :=
  shifted x anN attW attB n d
    + Ideal.ofBits .f32 0x3F000000#32
      * received sI dI (fun e d' => ∑ a : Fin 5, edgeWeightR x eB eW sI dI e a * anE (ix2 a d')) n d

end

end Cert.Prompt

end
-- ==== Proof.Stretches.lean ====
/-
  The host operations between the kernel regions of the idealized kernel program, read from the contents W the
  stretch starts from.

  Before the first region: the two bias vectors re-laid as one row each, and the two halves of the edge weights'
  columns sliced off.  Between the first and the second region: the two rows of the edge list re-laid as vectors, each
  turned into a column of start indices (a negative index counted from the end), and the per-node source and
  destination scores gathered along them.  Between the second and the third region: the same two columns again, and
  the edge weights added up per node over the sources and then over the destinations, starting from zeros.
-/
import proofs.«116679_j34248069218341_2_alg».proof.Proof.Gen.KernelIdeal.Launch
import proofs.«116679_j34248069218341_2_alg».proof.Proof.Spec
import Idealize.ShloMosaic.Lib.StableHlo.Run

noncomputable section

namespace Cert.KernelIdeal.Stretch

open Cert.KernelIdeal Cert.KernelIdeal.Gen Cert.Prompt
open Idealize.ShloMosaic Idealize.ShloMosaic.TcCoe Idealize.ShloMosaic.StableHlo Idealize.SL.Sem

/-- The column of source start indices. -/
def srcCol (ei : IVec S2x600000 32) : IVec S600000x1 32 :=
  endpointCol ei ![0, 0] slices_S2x600000_S1x600000_0_0 shapeCasts_S1x600000_S600000 bcast_S_S600000 bcast_S600000_S600000x1_0
/-- The column of destination start indices. -/
def dstCol (ei : IVec S2x600000 32) : IVec S600000x1 32 :=
  endpointCol ei ![1, 0] slices_S2x600000_S1x600000_1_0 shapeCasts_S1x600000_S600000 bcast_S_S600000 bcast_S600000_S600000x1_0

/-- A row of the edge list, re-laid as a vector. -/
def rowVec (ei : IVec S2x600000 32) (off : Fin 2 → Nat) (hs : S2x600000.Slices off S1x600000) : IVec S600000 32 :=
  shapeCast S600000 (extractStridedSlice S1x600000 off ei hs) shapeCasts_S1x600000_S600000

/-- The column of start indices of a row vector. -/
def colOf (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

theorem colOf_src (ei : IVec S2x600000 32) : colOf (rowVec ei ![0, 0] slices_S2x600000_S1x600000_0_0) = srcCol ei := rfl
theorem colOf_dst (ei : IVec S2x600000 32) : colOf (rowVec ei ![1, 0] slices_S2x600000_S1x600000_1_0) = dstCol ei := rfl

/-- A buffer no operation of the stretch writes keeps its contents. -/
macro "untouched" : tactic =>
  `(tactic| (refine StableHlo.after_of_forall_not_mem _ _ (List.forall_iff_forall_mem.mp ?_)
             simp only [hostOps0, hostOps1, hostOps2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

variable (W : Valuation τ sig (Elt Ideal))

/-! ## Before the first region -/

theorem s0_v0 : after (hostOps0 (F := Ideal)) W (Proc.devRef .tc main_v0)
    = shapeCast S1x5 (W (Proc.devRef .tc main_arg3)) shapeCasts_S5_S1x5 := by after_results; rfl
theorem s0_v1 : after (hostOps0 (F := Ideal)) W (Proc.devRef .tc main_v1)
    = shapeCast S1x5 (W (Proc.devRef .tc main_arg6)) shapeCasts_S5_S1x5 := by after_results; rfl
theorem s0_v2 : after (hostOps0 (F := Ideal)) W (Proc.devRef .tc main_v2)
    = extractStridedSlice S5x128 ![0, 0] (W (Proc.devRef .tc main_arg5)) slices_S5x256_S5x128_0_0 := by after_results
theorem s0_v3 : after (hostOps0 (F := Ideal)) W (Proc.devRef .tc main_v3)
    = extractStridedSlice S5x128 ![0, 128] (W (Proc.devRef .tc main_arg5)) slices_S5x256_S5x128_0_128 := by after_results
theorem s0_arg0 : after (hostOps0 (F := Ideal)) W (Proc.devRef .tc main_arg0) = W (Proc.devRef .tc main_arg0) := by untouched
theorem s0_arg1 : after (hostOps0 (F := Ideal)) W (Proc.devRef .tc main_arg1) = W (Proc.devRef .tc main_arg1) := by untouched
theorem s0_arg2 : after (hostOps0 (F := Ideal)) W (Proc.devRef .tc main_arg2) = W (Proc.devRef .tc main_arg2) := by untouched
theorem s0_arg4 : after (hostOps0 (F := Ideal)) W (Proc.devRef .tc main_arg4) = W (Proc.devRef .tc main_arg4) := by untouched
theorem s0_arg7 : after (hostOps0 (F := Ideal)) W (Proc.devRef .tc main_arg7) = W (Proc.devRef .tc main_arg7) := by untouched

/-! ## Between the first and the second region -/

theorem s1_v6 : after (hostOps1 (F := Ideal)) W (Proc.devRef .tc main_v6)
    = rowVec (W (Proc.devRef .tc main_arg7)) ![0, 0] slices_S2x600000_S1x600000_0_0 := by after_results; rfl
theorem s1_v8 : after (hostOps1 (F := Ideal)) W (Proc.devRef .tc main_v8)
    = rowVec (W (Proc.devRef .tc main_arg7)) ![1, 0] slices_S2x600000_S1x600000_1_0 := by after_results; rfl
theorem s1_v15 : after (hostOps1 (F := Ideal)) W (Proc.devRef .tc main_v15)
    = Host.gather gather_S100000x5_S600000x1_S600000x5_1_0_n_n_0_1_15 (W (Proc.devRef .tc main_v4_1))
        (srcCol (W (Proc.devRef .tc main_arg7))) := by after_results; rfl
set_option maxHeartbeats 2000000 in
theorem s1_v22 : after (hostOps1 (F := Ideal)) W (Proc.devRef .tc main_v22)
    = Host.gather gather_S100000x5_S600000x1_S600000x5_1_0_n_n_0_1_15 (W (Proc.devRef .tc main_v4_2))
        (dstCol (W (Proc.devRef .tc main_arg7))) := by after_results_simp; rfl
theorem s1_v4_0 : after (hostOps1 (F := Ideal)) W (Proc.devRef .tc main_v4_0) = W (Proc.devRef .tc main_v4_0) := by untouched
theorem s1_arg4 : after (hostOps1 (F := Ideal)) W (Proc.devRef .tc main_arg4) = W (Proc.devRef .tc main_arg4) := by untouched
theorem s1_v1 : after (hostOps1 (F := Ideal)) W (Proc.devRef .tc main_v1) = W (Proc.devRef .tc main_v1) := by untouched

/-! ## Between the second and the third region -/

set_option maxHeartbeats 2000000 in
theorem s2_v38 : after (hostOps2 (F := Ideal)) W (Proc.devRef .tc main_v38)
    = Host.scatterAdd scatter_S100000x5_S600000x1_S600000x5_1_0_0_1
        (Host.scatterAdd scatter_S100000x5_S600000x1_S600000x5_1_0_0_1
          (broadcastInDim S100000x5 ![] bcast_S_S100000x5 (constant (F := Ideal) S_ .f32 0x00000000#32))
          (colOf (W (Proc.devRef .tc main_v6))) (W (Proc.devRef .tc main_v23)))
        (colOf (W (Proc.devRef .tc main_v8))) (W (Proc.devRef .tc main_v23)) := by after_results_simp; rfl
theorem s2_v4_0 : after (hostOps2 (F := Ideal)) W (Proc.devRef .tc main_v4_0) = W (Proc.devRef .tc main_v4_0) := by untouched
theorem s2_arg4 : after (hostOps2 (F := Ideal)) W (Proc.devRef .tc main_arg4) = W (Proc.devRef .tc main_arg4) := by untouched

end Cert.KernelIdeal.Stretch

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«116679_j34248069218341_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.RegionNodeBody.lean ====
/-
  The node-side kernel body's arithmetic, read at an entry, at the ideal instance.

  Each of the body's three results is a pure function of the blocks it loads.  Read at row p and a column, the two
  per-node scores are the sum over the 128 features of the row's entry times the weight matrix's entry, and the shifted
  block is the row's entry plus the mixture of the five node anchors whose weights are the softmax over the anchors of
  the row's affine score.  Rounding to the narrower format is the identity on the extended reals.
-/
import proofs.«116679_j34248069218341_2_alg».proof.Proof.Gen.KernelIdeal.Skeleton
import proofs.«116679_j34248069218341_2_alg».proof.Proof.Spec
import proofs.«116679_j34248069218341_2_alg».proof.Proof.LibSoftmax
import proofs.«116679_j34248069218341_2_alg».proof.Proof.LibMatmulNN
import proofs.«116679_j34248069218341_2_alg».proof.Proof.LibAffineBlock
import Idealize.ShloMosaic.Lib.Pipeline.Value
import Idealize.ShloMosaic.Lib.ValueIdx
import Idealize.ShloMosaic.Lib.ValueLayout

noncomputable section

open scoped BigOperators

namespace Cert.KernelIdeal.NodeRegion

open Cert.KernelIdeal Cert.KernelIdeal.Gen Idealize.ShloMosaic Idealize.ShloMosaic.ValueIdx Cert.Prompt

/-- The product of a block with the transpose of a 5×128 weight matrix, at row p and column a: the sum over the features
    of the row's entry times the weight's entry. -/
theorem scoreProduct_apply (x0 : Vec Ideal S5000x128 .f32) (w : FVec Ideal S5x128 .bf16) (p : Fin 5000) (a : Fin 5) :
    matmul dot_S5000x128_S128x5_S5000x5_1_0_0_1_n_n none (k0_pay1 x0)
        (transpose S128x5 [1, 0] w transposes_S5x128_p1_0_S128x5) (constant (F := Ideal) S5000x5 .f32 0x00000000#32) (ix2 p a)
      = ∑ k : Fin 128, x0 (ix2 p k) * w (ix2 a k) := by
  refine (Cert.LibMatmulNN.matmul_zero_apply' (M := 5000) (K := 128) (N := 5) dot_S5000x128_S128x5_S5000x5_1_0_0_1_n_n
    rfl rfl rfl rfl rfl rfl none (k0_pay1 x0) _ p a).trans ?_
  refine Finset.sum_congr rfl fun k _ => ?_
  rw [transpose_ix2_apply]
  rfl

/-- The source-side per-node score of the block. -/
theorem pay3_apply (x0 : Vec Ideal S5000x128 .f32) (w : Vec Ideal S5x128 .f32) (p : Fin 5000) (a : Fin 5) :
    k0_pay3 x0 w (ix2 p a) = ∑ k : Fin 128, x0 (ix2 p k) * w (ix2 a k) := by
  unfold k0_pay3
  rw [shapeCast_self]
  exact scoreProduct_apply x0 _ p a

/-- The destination-side per-node score of the block. -/
theorem pay4_apply (x0 : Vec Ideal S5000x128 .f32) (w : Vec Ideal S5x128 .f32) (p : Fin 5000) (a : Fin 5) :
    k0_pay4 x0 w (ix2 p a) = ∑ k : Fin 128, x0 (ix2 p k) * w (ix2 a k) := by
  unfold k0_pay4
  rw [shapeCast_self]
  exact scoreProduct_apply x0 _ p a

/-- The shifted block: the row's entry plus the softmax mixture of the node anchors. -/
theorem pay2_apply (x0 : Vec Ideal S5000x128 .f32) (aw : Vec Ideal S5x128 .f32) (b : Vec Ideal S1x5 .f32)
    (an : Vec Ideal S5x128 .f32) (p : Fin 5000) (q : Fin 128) :
    k0_pay2 x0 aw b an (ix2 p q)
      = x0 (ix2 p q) + ∑ a : Fin 5,
          softmaxAt (fun a' : Fin 5 => (∑ k : Fin 128, x0 (ix2 p k) * aw (ix2 a' k)) + b (ix2 (0 : Fin 1) a')) a * an (ix2 a q) := by
  unfold k0_pay2
  rw [shapeCast_self]
  refine (addf_apply _ _ _).trans ?_
  refine congrArg (fun t : EReal => x0 (ix2 p q) + t) ?_
  refine (Cert.LibMatmulNN.matmul_zero_apply' (M := 5000) (K := 5) (N := 128) dot_S5000x5_S5x128_S5000x128_1_0_0_1_n_n
    rfl rfl rfl rfl rfl rfl none _ _ p q).trans ?_
  refine Finset.sum_congr rfl fun a _ => ?_
  refine congrArg (fun t : EReal => t * an (ix2 a q)) ?_
  refine (Cert.Lib.Softmax.tile_apply (a := 5000) (b := 5) _ reduces_S5000x5_S5000 (.inl rfl) rfl rfl
    shapeCasts_S5000_S5000x1 broadcasts_S5000x1_S5000x5 p a).trans ?_
  refine congrArg (fun f : Fin 5 → EReal => softmaxAt f a) (funext fun a' => ?_)
  refine (Cert.LibAffineBlock.affine_apply (M := 5000) (K := 128) (N := 5) dot_S5000x128_S128x5_S5000x5_1_0_0_1_n_n
    rfl rfl rfl rfl rfl rfl none (k0_pay1 x0) _ b broadcasts_S1x5_S5000x5 p a').trans ?_
  refine congrArg (fun t : EReal => t + b (ix2 (0 : Fin 1) a')) ?_
  refine Finset.sum_congr rfl fun k _ => ?_
  rw [transpose_ix2_apply]
  rfl

end Cert.KernelIdeal.NodeRegion

end
-- ==== Proof.RegionNode.lean ====
/-
  The node-side kernel region as three whole-array facts.

  The region runs its body at 20 points; point t reads rows 5000·t … 5000·t + 4999 of the node array and the five small
  arrays whole, and writes back the same rows of its three results.  What a point writes back is its block of one
  function of the region-entry arrays — the shifted node array, and the two per-node scores —, and the 20 blocks tile
  the 100000 rows, so after the region each result array is that function.
-/
import proofs.«116679_j34248069218341_2_alg».proof.Proof.Gen.KernelIdeal.Frame
import proofs.«116679_j34248069218341_2_alg».proof.Proof.Spec
import proofs.«116679_j34248069218341_2_alg».proof.Proof.RegionNodeBody
import Idealize.ShloMosaic.Lib.Pipeline.Value
import Idealize.ShloMosaic.Lib.ValueIdx
import Idealize.ShloMosaic.Lib.ValueLayout

set_option maxRecDepth 16384

noncomputable section

open scoped BigOperators

namespace Cert.KernelIdeal.NodeRegion

open Cert.KernelIdeal Cert.KernelIdeal.Gen Idealize.ShloMosaic Idealize.ShloMosaic.TcCoe Idealize.SL.Sem
open Idealize.ShloMosaic.ValueIdx Cert.Prompt
open Idealize.ShloMosaic.Pipeline (Dat)

variable (V : (c : Dev nD) → (b : Ref sig .tc) → Buf (Elt Ideal) ((c : Thread nD τ).loc b))

/-- The zero offsets of a whole-buffer access, as a constant function. -/
theorem zeroOffsets : (![0, 0] : Fin 2 → Nat) = fun _ => 0 := funext fun a => by fin_cases a <;> rfl

/-- The printed index maps, decided over the 20 points: the row-block windows (the node array and the three results) are
    at block (t, 0), the five small arrays at block (0, 0). -/
theorem blockIndex : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The input blocks, read -/

/-- The node array's block at point t is rows 5000·t … of the array. -/
theorem nodeBlock_apply (c : Dev nD) (t : Fin cfg0.N) (p : Fin 5000) (k : Fin 128) (n : Fin 100000)
    (hn : n.val = t.val * 5000 + p.val) :
    (iblk0 V c 0 t : S5000x128.Idx → EReal) (ix2 p k) = (V c main_arg0 : S100000x128.Idx → EReal) (ix2 n k) := by
  obtain ⟨⟨e0, e1⟩, -⟩ := blockIndex t
  unfold iblk0
  rw [View.read_apply]
  show V c main_arg0 _ = V c main_arg0 _
  congr 1
  funext a
  apply Fin.ext
  match a with
  | ⟨0, _⟩ => show win0_0.index t (0 : Fin 2) * 5000 + 1 * p.val = n.val; omega
  | ⟨1, _⟩ => show win0_0.index t (1 : Fin 2) * 128 + 1 * k.val = k.val; omega

/-- The first half of the edge weights is read whole at every point. -/
theorem srcWeights_apply (c : Dev nD) (t : Fin cfg0.N) (a : Fin 5) (k : Fin 128) :
    (iblk0 V c 4 t : S5x128.Idx → EReal) (ix2 a k) = (V c main_v2 : S5x128.Idx → EReal) (ix2 a k) := by
  obtain ⟨-, -, -, -, ⟨e0, e1⟩, -⟩ := blockIndex t
  unfold iblk0
  rw [View.read_apply]
  show V c main_v2 _ = V c main_v2 _
  congr 1
  funext b
  apply Fin.ext
  match b with
  | ⟨0, _⟩ => show win0_4.index t (0 : Fin 2) * 5 + 1 * a.val = a.val; omega
  | ⟨1, _⟩ => show win0_4.index t (1 : Fin 2) * 128 + 1 * k.val = k.val; omega

/-- The second half of the edge weights is read whole at every point. -/
theorem dstWeights_apply (c : Dev nD) (t : Fin cfg0.N) (a : Fin 5) (k : Fin 128) :
    (iblk0 V c 5 t : S5x128.Idx → EReal) (ix2 a k) = (V c main_v3 : S5x128.Idx → EReal) (ix2 a k) := by
  obtain ⟨-, -, -, -, -, ⟨e0, e1⟩, -⟩ := blockIndex t
  unfold iblk0
  rw [View.read_apply]
  show V c main_v3 _ = V c main_v3 _
  congr 1
  funext b
  apply Fin.ext
  match b with
  | ⟨0, _⟩ => show win0_5.index t (0 : Fin 2) * 5 + 1 * a.val = a.val; omega
  | ⟨1, _⟩ => show win0_5.index t (1 : Fin 2) * 128 + 1 * k.val = k.val; omega

/-- The attention weights are read whole at every point. -/
theorem attWeights_apply (c : Dev nD) (t : Fin cfg0.N) (a : Fin 5) (k : Fin 128) :
    (iblk0 V c 1 t : S5x128.Idx → EReal) (ix2 a k) = (V c main_arg2 : S5x128.Idx → EReal) (ix2 a k) := by
  obtain ⟨-, ⟨e0, e1⟩, -⟩ := blockIndex t
  unfold iblk0
  rw [View.read_apply]
  show V c main_arg2 _ = V c main_arg2 _
  congr 1
  funext b
  apply Fin.ext
  match b with
  | ⟨0, _⟩ => show win0_1.index t (0 : Fin 2) * 5 + 1 * a.val = a.val; omega
  | ⟨1, _⟩ => show win0_1.index t (1 : Fin 2) * 128 + 1 * k.val = k.val; omega

/-- The attention bias row is read whole at every point. -/
theorem attBias_apply (c : Dev nD) (t : Fin cfg0.N) (a : Fin 5) :
    (iblk0 V c 2 t : S1x5.Idx → EReal) (ix2 (0 : Fin 1) a) = (V c main_v0 : S1x5.Idx → EReal) (ix2 (0 : Fin 1) a) := by
  obtain ⟨-, -, ⟨e0, e1⟩, -⟩ := blockIndex t
  unfold iblk0
  rw [View.read_apply]
  show V c main_v0 _ = V c main_v0 _
  congr 1
  funext b
  apply Fin.ext
  match b with
  | ⟨0, _⟩ => show win0_2.index t (0 : Fin 2) * 1 + 1 * 0 = 0; omega
  | ⟨1, _⟩ => show win0_2.index t (1 : Fin 2) * 5 + 1 * a.val = a.val; omega

/-- The node anchors are read whole at every point. -/
theorem nodeAnchors_apply (c : Dev nD) (t : Fin cfg0.N) (a : Fin 5) (k : Fin 128) :
    (iblk0 V c 3 t : S5x128.Idx → EReal) (ix2 a k) = (V c main_arg1 : S5x128.Idx → EReal) (ix2 a k) := by
  obtain ⟨-, -, -, ⟨e0, e1⟩, -⟩ := blockIndex t
  unfold iblk0
  rw [View.read_apply]
  show V c main_arg1 _ = V c main_arg1 _
  congr 1
  funext b
  apply Fin.ext
  match b with
  | ⟨0, _⟩ => show win0_3.index t (0 : Fin 2) * 5 + 1 * a.val = a.val; omega
  | ⟨1, _⟩ => show win0_3.index t (1 : Fin 2) * 128 + 1 * k.val = k.val; omega

/-- The shifted block over blocks that agree with the arrays: the body's result at row p is the shifted row n. -/
theorem shifted_of_blocks (x : S100000x128.Idx → EReal) (anN attW : S5x128.Idx → EReal) (attB : Fin 5 → EReal)
    (x0 : Vec Ideal S5000x128 .f32) (aw : Vec Ideal S5x128 .f32) (b : Vec Ideal S1x5 .f32) (an : Vec Ideal S5x128 .f32)
    (n : Fin 100000) (p : Fin 5000) (hx : ∀ k, x0 (ix2 p k) = x (ix2 n k)) (haw : ∀ a k, aw (ix2 a k) = attW (ix2 a k))
    (hb : ∀ a, b (ix2 (0 : Fin 1) a) = attB a) (han : ∀ a k, an (ix2 a k) = anN (ix2 a k)) (q : Fin 128) :
    k0_pay2 x0 aw b an (ix2 p q) = shifted x anN attW attB n q := by
  rw [pay2_apply]
  unfold shifted
  rw [hx q]
  refine congrArg (fun s : EReal => x (ix2 n q) + s) ?_
  refine Finset.sum_congr rfl fun a _ => ?_
  rw [han a q]
  refine congrArg (fun s : EReal => s * anN (ix2 a q)) ?_
  refine congrArg (fun f : Fin 5 → EReal => softmaxAt f a) (funext fun a' => ?_)
  show _ = (∑ k : Fin 128, x (ix2 n k) * attW (ix2 a' k)) + attB a'
  rw [hb a']
  refine congrArg (fun s : EReal => s + attB a') ?_
  refine Finset.sum_congr rfl fun k _ => ?_
  rw [hx k, haw a' k]

/-! ## What a point writes back -/

/-- A row of point t's block is a row of the array. -/
theorem rowOfBlock_lt (t : Fin cfg0.N) (p : Fin 5000) : t.val * 5000 + p.val < 100000 := by
  have hN : cfg0.N = 20 := N_0
  have ht := t.isLt
  have hp := p.isLt
  omega

/-! ## The source-side score -/

/-- The source-side score array: the per-node score against the first half of the edge weights. -/
abbrev srcScoreArr (c : Dev nD) : S100000x5.Idx → EReal :=
  ofCoords2 (fun n a => halfScore (V c main_arg0) (V c main_v2) n a)

/-- Where the element (p, a) of the source-score window's block at point t sits in the array. -/
theorem srcScoreBlock_emb (t : Fin cfg0.N) (p : Fin 5000) (a : Fin 5) :
    ((cfg0.win 7).blk t).view.emb (ix2 p a) = (ix2 ⟨t.val * 5000 + p.val, rowOfBlock_lt t p⟩ a : S100000x5.Idx) := by
  obtain ⟨-, -, -, -, -, -, -, ⟨e0, e1⟩, -⟩ := blockIndex t
  funext b
  apply Fin.ext
  match b with
  | ⟨0, _⟩ => show win0_7.index t (0 : Fin 2) * 5000 + 1 * p.val = t.val * 5000 + p.val; omega
  | ⟨1, _⟩ => show win0_7.index t (1 : Fin 2) * 5 + 1 * a.val = a.val; omega

/-- Point t writes back block t of the source-score array. -/
theorem flushed_srcScore (c : Dev nD) (t : Fin cfg0.N) :
    (dat0 (F := Ideal) V c).flushed 7 t = ((cfg0.win 7).blk t).view.read (Elt Ideal) (srcScoreArr V c) := by
  show (cfg0.win 7).cut (grid0.coords t) ((dat0 (F := Ideal) V c).after 7 t) = _
  rw [after0_7]
  unfold out0_7
  rw [View.canon_unit_zero zeroOffsets]
  simp only [View.ld_unit_zero (S := S5000x128) zeroOffsets, View.ld_unit_zero (S := S5x128) zeroOffsets]
  refine funext fun (j : S5000x5.Idx) => ?_
  obtain ⟨p, a, rfl⟩ : ∃ (p : Fin 5000) (a : Fin 5), j = ix2 p a := ⟨j 0, j 1, eq_ix2 j⟩
  refine (pay3_apply (iblk0 V c 0 t) (iblk0 V c 4 t) p a).trans ?_
  rw [View.read_apply, srcScoreBlock_emb t p a]
  show _ = halfScore (V c main_arg0) (V c main_v2) ⟨t.val * 5000 + p.val, rowOfBlock_lt t p⟩ a
  unfold halfScore
  refine Finset.sum_congr rfl fun k _ => ?_
  rw [nodeBlock_apply V c t p k ⟨t.val * 5000 + p.val, rowOfBlock_lt t p⟩ rfl, srcWeights_apply V c t a k]

/-! ## The blocks tile the rows -/

/-- An index of the source-score array is in point t's block iff each coordinate is in the block's range on its axis. -/
theorem mem_srcScoreBlock (t : Fin cfg0.N) (i : S100000x5.Idx) :
    i ∈ ((cfg0.win 7).blk t).view.set ↔ ∀ a : Fin 2, win0_7.index t a * S5000x5.size a ≤ (i a).val
      ∧ (i a).val < win0_7.index t a * S5000x5.size a + S5000x5.size a := by
  show i ∈ ((View.whole main_v4_1).slice (win0_7.rect t)).set ↔ _
  rw [View.set_slice_whole, Rect.mem_set_unit]
  exact Iff.rfl

/-- Row r of the source-score array is in the block of point r / 5000. -/
theorem cover_srcScore (i : S100000x5.Idx) :
    ∃ t : Fin cfg0.N, (cfg0.win 7).flush t = true ∧ i ∈ ((cfg0.win 7).blk t).view.set := by
  have hN : cfg0.N = 20 := N_0
  have hi0 : (i 0).val < 100000 := (i 0).isLt
  have hi1 : (i 1).val < 5 := (i 1).isLt
  have hlt : (i 0).val / 5000 < cfg0.N := lt_of_lt_of_eq (by omega : (i 0).val / 5000 < 20) hN.symm
  refine ⟨⟨(i 0).val / 5000, hlt⟩, flush0_7 _, ?_⟩
  rw [mem_srcScoreBlock]
  obtain ⟨-, -, -, -, -, -, -, ⟨e0, e1⟩, -⟩ := blockIndex ⟨(i 0).val / 5000, hlt⟩
  have e0' : win0_7.index ⟨(i 0).val / 5000, hlt⟩ (0 : Fin 2) = (i 0).val / 5000 := e0
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    omega
  | ⟨1, _⟩ =>
    show win0_7.index ⟨(i 0).val / 5000, hlt⟩ (1 : Fin 2) * 5 ≤ (i 1).val
      ∧ (i 1).val < win0_7.index ⟨(i 0).val / 5000, hlt⟩ (1 : Fin 2) * 5 + 5
    omega

/-- After the region the source-score array holds every node's score against the first half of the edge weights. -/
theorem final_srcScore (c : Dev nD) :
    (dat0 (F := Ideal) V c).arrAt 7 cfg0.N
      = ofCoords2 (fun n a => halfScore (V c main_arg0) (V c main_v2) n a) :=
  (dat0 (F := Ideal) V c).arrAt_eq_of_cover 7 (srcScoreArr V c) (fun t _ => flushed_srcScore V c t) cover_srcScore

/-! ## The destination-side score -/

/-- The destination-side score array: the per-node score against the second half of the edge weights. -/
abbrev dstScoreArr (c : Dev nD) : S100000x5.Idx → EReal :=
  ofCoords2 (fun n a => halfScore (V c main_arg0) (V c main_v3) n a)

/-- Where the element (p, a) of the destination-score window's block at point t sits in the array. -/
theorem dstScoreBlock_emb (t : Fin cfg0.N) (p : Fin 5000) (a : Fin 5) :
    ((cfg0.win 8).blk t).view.emb (ix2 p a) = (ix2 ⟨t.val * 5000 + p.val, rowOfBlock_lt t p⟩ a : S100000x5.Idx) := by
  obtain ⟨-, -, -, -, -, -, -, -, e0, e1⟩ := blockIndex t
  funext b
  apply Fin.ext
  match b with
  | ⟨0, _⟩ => show win0_8.index t (0 : Fin 2) * 5000 + 1 * p.val = t.val * 5000 + p.val; omega
  | ⟨1, _⟩ => show win0_8.index t (1 : Fin 2) * 5 + 1 * a.val = a.val; omega

/-- Point t writes back block t of the destination-score array. -/
theorem flushed_dstScore (c : Dev nD) (t : Fin cfg0.N) :
    (dat0 (F := Ideal) V c).flushed 8 t = ((cfg0.win 8).blk t).view.read (Elt Ideal) (dstScoreArr V c) := by
  show (cfg0.win 8).cut (grid0.coords t) ((dat0 (F := Ideal) V c).after 8 t) = _
  rw [after0_8]
  unfold out0_8
  rw [View.canon_unit_zero zeroOffsets]
  simp only [View.ld_unit_zero (S := S5000x128) zeroOffsets, View.ld_unit_zero (S := S5x128) zeroOffsets]
  refine funext fun (j : S5000x5.Idx) => ?_
  obtain ⟨p, a, rfl⟩ : ∃ (p : Fin 5000) (a : Fin 5), j = ix2 p a := ⟨j 0, j 1, eq_ix2 j⟩
  refine (pay4_apply (iblk0 V c 0 t) (iblk0 V c 5 t) p a).trans ?_
  rw [View.read_apply, dstScoreBlock_emb t p a]
  show _ = halfScore (V c main_arg0) (V c main_v3) ⟨t.val * 5000 + p.val, rowOfBlock_lt t p⟩ a
  unfold halfScore
  refine Finset.sum_congr rfl fun k _ => ?_
  rw [nodeBlock_apply V c t p k ⟨t.val * 5000 + p.val, rowOfBlock_lt t p⟩ rfl, dstWeights_apply V c t a k]

/-- An index of the destination-score array is in point t's block iff each coordinate is in the block's range on its axis. -/
theorem mem_dstScoreBlock (t : Fin cfg0.N) (i : S100000x5.Idx) :
    i ∈ ((cfg0.win 8).blk t).view.set ↔ ∀ a : Fin 2, win0_8.index t a * S5000x5.size a ≤ (i a).val
      ∧ (i a).val < win0_8.index t a * S5000x5.size a + S5000x5.size a := by
  show i ∈ ((View.whole main_v4_2).slice (win0_8.rect t)).set ↔ _
  rw [View.set_slice_whole, Rect.mem_set_unit]
  exact Iff.rfl

/-- Row r of the destination-score array is in the block of point r / 5000. -/
theorem cover_dstScore (i : S100000x5.Idx) :
    ∃ t : Fin cfg0.N, (cfg0.win 8).flush t = true ∧ i ∈ ((cfg0.win 8).blk t).view.set := by
  have hN : cfg0.N = 20 := N_0
  have hi0 : (i 0).val < 100000 := (i 0).isLt
  have hi1 : (i 1).val < 5 := (i 1).isLt
  have hlt : (i 0).val / 5000 < cfg0.N := lt_of_lt_of_eq (by omega : (i 0).val / 5000 < 20) hN.symm
  refine ⟨⟨(i 0).val / 5000, hlt⟩, flush0_8 _, ?_⟩
  rw [mem_dstScoreBlock]
  obtain ⟨-, -, -, -, -, -, -, -, e0, e1⟩ := blockIndex ⟨(i 0).val / 5000, hlt⟩
  have e0' : win0_8.index ⟨(i 0).val / 5000, hlt⟩ (0 : Fin 2) = (i 0).val / 5000 := e0
  intro a
  match a with
  | ⟨0, _⟩ =>
    show win0_8.index ⟨(i 0).val / 5000, hlt⟩ (0 : Fin 2) * 5000 ≤ (i 0).val
      ∧ (i 0).val < win0_8.index ⟨(i 0).val / 5000, hlt⟩ (0 : Fin 2) * 5000 + 5000
    omega
  | ⟨1, _⟩ =>
    show win0_8.index ⟨(i 0).val / 5000, hlt⟩ (1 : Fin 2) * 5 ≤ (i 1).val
      ∧ (i 1).val < win0_8.index ⟨(i 0).val / 5000, hlt⟩ (1 : Fin 2) * 5 + 5
    omega

/-- After the region the destination-score array holds every node's score against the second half of the edge weights. -/
theorem final_dstScore (c : Dev nD) :
    (dat0 (F := Ideal) V c).arrAt 8 cfg0.N
      = ofCoords2 (fun n a => halfScore (V c main_arg0) (V c main_v3) n a) :=
  (dat0 (F := Ideal) V c).arrAt_eq_of_cover 8 (dstScoreArr V c) (fun t _ => flushed_dstScore V c t) cover_dstScore

/-! ## The shifted node array -/

/-- The shifted node array: each row plus the softmax mixture of the node anchors. -/
abbrev shiftedArr (c : Dev nD) : S100000x128.Idx → EReal :=
  ofCoords2 (fun n d => shifted (V c main_arg0) (V c main_arg1) (V c main_arg2)
    (fun a => (V c main_v0 : S1x5.Idx → EReal) (ix2 (0 : Fin 1) a)) n d)

/-- Where the element (p, q) of the shifted window's block at point t sits in the array. -/
theorem shiftedBlock_emb (t : Fin cfg0.N) (p : Fin 5000) (q : Fin 128) :
    ((cfg0.win 6).blk t).view.emb (ix2 p q) = (ix2 ⟨t.val * 5000 + p.val, rowOfBlock_lt t p⟩ q : S100000x128.Idx) := by
  obtain ⟨-, -, -, -, -, -, ⟨e0, e1⟩, -⟩ := blockIndex t
  funext b
  apply Fin.ext
  match b with
  | ⟨0, _⟩ => show win0_6.index t (0 : Fin 2) * 5000 + 1 * p.val = t.val * 5000 + p.val; omega
  | ⟨1, _⟩ => show win0_6.index t (1 : Fin 2) * 128 + 1 * q.val = q.val; omega

/-- Point t writes back block t of the shifted node array. -/
theorem flushed_shifted (c : Dev nD) (t : Fin cfg0.N) :
    (dat0 (F := Ideal) V c).flushed 6 t = ((cfg0.win 6).blk t).view.read (Elt Ideal) (shiftedArr V c) := by
  show (cfg0.win 6).cut (grid0.coords t) ((dat0 (F := Ideal) V c).after 6 t) = _
  rw [after0_6]
  unfold out0_6
  rw [View.canon_unit_zero zeroOffsets]
  simp only [View.ld_unit_zero (S := S5000x128) zeroOffsets, View.ld_unit_zero (S := S5x128) zeroOffsets,
    View.ld_unit_zero (S := S1x5) zeroOffsets]
  refine funext fun (j : S5000x128.Idx) => ?_
  obtain ⟨p, q, rfl⟩ : ∃ (p : Fin 5000) (q : Fin 128), j = ix2 p q := ⟨j 0, j 1, eq_ix2 j⟩
  rw [View.read_apply, shiftedBlock_emb t p q]
  exact shifted_of_blocks (V c main_arg0) (V c main_arg1) (V c main_arg2)
    (fun a => (V c main_v0 : S1x5.Idx → EReal) (ix2 (0 : Fin 1) a))
    (iblk0 V c 0 t) (iblk0 V c 1 t) (iblk0 V c 2 t) (iblk0 V c 3 t) ⟨t.val * 5000 + p.val, rowOfBlock_lt t p⟩ p
    (fun k => nodeBlock_apply V c t p k ⟨t.val * 5000 + p.val, rowOfBlock_lt t p⟩ rfl)
    (fun a k => attWeights_apply V c t a k) (fun a => attBias_apply V c t a) (fun a k => nodeAnchors_apply V c t a k) q

/-- An index of the shifted array is in point t's block iff each coordinate is in the block's range on its axis. -/
theorem mem_shiftedBlock (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v4_0).slice (win0_6.rect t)).set ↔ _
  rw [View.set_slice_whole, Rect.mem_set_unit]
  exact Iff.rfl

/-- Row r of the shifted array is in the block of point r / 5000. -/
theorem cover_shifted (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  have hlt : (i 0).val / 5000 < cfg0.N := lt_of_lt_of_eq (by omega : (i 0).val / 5000 < 20) hN.symm
  refine ⟨⟨(i 0).val / 5000, hlt⟩, flush0_6 _, ?_⟩
  rw [mem_shiftedBlock]
  obtain ⟨-, -, -, -, -, -, ⟨e0, e1⟩, -⟩ := blockIndex ⟨(i 0).val / 5000, hlt⟩
  have e0' : win0_6.index ⟨(i 0).val / 5000, hlt⟩ (0 : Fin 2) = (i 0).val / 5000 := e0
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- After the region the shifted array holds every node's row plus its softmax mixture of the node anchors. -/
theorem final_shifted (c : Dev nD) :
    (dat0 (F := Ideal) V c).arrAt 6 cfg0.N
      = ofCoords2 (fun n d => shifted (V c main_arg0) (V c main_arg1) (V c main_arg2)
          (fun a => V c main_v0 (ix2 (0 : Fin 1) a)) n d) :=
  (dat0 (F := Ideal) V c).arrAt_eq_of_cover 6 (shiftedArr V c) (fun t _ => flushed_shifted V c t) cover_shifted

end Cert.KernelIdeal.NodeRegion

end
-- ==== Proof.RegionEdge.lean ====
/-
  The edge-side kernel region: the mixture weights of every edge.

  The region walks the 600000 edges in a hundred blocks of 6000.  At a block it reads the block of the gathered source
  scores and the block of the gathered destination scores (five numbers an edge) and the bias row, adds the three,
  passes the sum through the leaky rectifier and takes the softmax over the five anchors of each row.  Row r of block
  t is edge 6000·t + r, the blocks cover the array, so after the region the output array holds, at (e, a), the
  softmax at a of the rectified scores of edge e.
-/
import proofs.«116679_j34248069218341_2_alg».proof.Proof.Gen.KernelIdeal.Frame
import proofs.«116679_j34248069218341_2_alg».proof.Proof.Spec
import proofs.«116679_j34248069218341_2_alg».proof.Proof.LibSoftmax
import Idealize.ShloMosaic.Lib.Pipeline.Value
import Idealize.ShloMosaic.Lib.ValueIdx
import Idealize.ShloMosaic.Lib.ValueLayout

noncomputable section

open scoped BigOperators

namespace Cert.KernelIdeal.EdgeRegion

open Cert.KernelIdeal Cert.KernelIdeal.Gen Cert.Prompt
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at row p, anchor q of the block: the softmax at q of the row's rectified scores. -/
theorem pay_apply (x0 x1 : Vec Ideal S6000x5 .f32) (x2 : Vec Ideal S1x5 .f32) (p : Fin 6000) (q : Fin 5) :
    k1_pay1 (F := Ideal) x0 x1 x2 (ix2 p q)
      = softmaxAt (fun a => leakyGt ((x0 (ix2 p a) + x1 (ix2 p a)) + x2 (ix2 (0 : Fin 1) a))) q := by
  unfold k1_pay1
  simp only [shapeCast_self]
  refine (Cert.Lib.Softmax.tile_apply _ reduces_S6000x5_S6000 (.inl rfl) rfl rfl shapeCasts_S6000_S6000x1
    broadcasts_S6000x1_S6000x5 p q).trans ?_
  refine congrArg (fun z => softmaxAt z q) (funext fun a => ?_)
  have hb : broadcastTo S6000x5 x2 broadcasts_S1x5_S6000x5 (ix2 p a) = x2 (ix2 (0 : Fin 1) a) :=
    broadcastTo_1b_ab_apply x2 _ p a
  show leakyGt ((x0 (ix2 p a) + x1 (ix2 p a)) + broadcastTo S6000x5 x2 broadcasts_S1x5_S6000x5 (ix2 p a)) = _
  rw [hb]

variable (V : (c : Dev nD) → (b : Ref sig .tc) → Buf (Elt Ideal) ((c : Thread nD τ).loc b))

/-- The printed index maps over the hundred points: the row-block windows sit at block (t, 0), the bias row at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 100 :=
  (by decide +kernel : ∀ t : Fin grid1.N, _)

/-- Row p of block t is edge 6000·t + p. -/
def rowAt (t : Fin cfg1.N) (p : Fin 6000) : Fin 600000 := ⟨6000 * t.val + p.val, by
  have := (idx_facts t).2.2.2.2.2.2.2.2; omega⟩

/-- What the region leaves in its output array, entry by entry. -/
def G (a0 a1 : S600000x5.Idx → EReal) (a2 : S1x5.Idx → EReal) : S600000x5.Idx → EReal :=
  ofCoords2 fun e a => softmaxAt (fun a' => leakyGt ((a0 (ix2 e a') + a1 (ix2 e a')) + a2 (ix2 (0 : Fin 1) a'))) a

theorem emb0 (t : Fin cfg1.N) (p : Fin 6000) (q : Fin 5) :
    ((cfg1.win 0).blk t).view.emb (ix2 p q) = ix2 (rowAt t p) q := by
  obtain ⟨e0, e1, -⟩ := idx_facts t
  funext a; apply Fin.ext
  match a with
  | ⟨0, _⟩ => show win1_0.index t (0 : Fin 2) * 6000 + 1 * p.val = 6000 * t.val + p.val; rw [e0]; omega
  | ⟨1, _⟩ => show win1_0.index t (1 : Fin 2) * 5 + 1 * q.val = q.val; rw [e1]; omega

theorem emb1 (t : Fin cfg1.N) (p : Fin 6000) (q : Fin 5) :
    ((cfg1.win 1).blk t).view.emb (ix2 p q) = ix2 (rowAt t p) q := by
  obtain ⟨-, -, e0, e1, -⟩ := idx_facts t
  funext a; apply Fin.ext
  match a with
  | ⟨0, _⟩ => show win1_1.index t (0 : Fin 2) * 6000 + 1 * p.val = 6000 * t.val + p.val; rw [e0]; omega
  | ⟨1, _⟩ => show win1_1.index t (1 : Fin 2) * 5 + 1 * q.val = q.val; rw [e1]; omega

theorem emb2 (t : Fin cfg1.N) (z : Fin 1) (q : Fin 5) :
    ((cfg1.win 2).blk t).view.emb (ix2 z q) = ix2 z q := by
  obtain ⟨-, -, -, -, e0, e1, -⟩ := idx_facts t
  funext a; apply Fin.ext
  match a with
  | ⟨0, _⟩ => show win1_2.index t (0 : Fin 2) * 1 + 1 * z.val = z.val; rw [e0]; omega
  | ⟨1, _⟩ => show win1_2.index t (1 : Fin 2) * 5 + 1 * q.val = q.val; rw [e1]; omega

theorem emb3 (t : Fin cfg1.N) (p : Fin 6000) (q : Fin 5) :
    ((cfg1.win 3).blk t).view.emb (ix2 p q) = ix2 (rowAt t p) q := by
  obtain ⟨-, -, -, -, -, -, e0, e1, -⟩ := idx_facts t
  funext a; apply Fin.ext
  match a with
  | ⟨0, _⟩ => show win1_3.index t (0 : Fin 2) * 6000 + 1 * p.val = 6000 * t.val + p.val; rw [e0]; omega
  | ⟨1, _⟩ => show win1_3.index t (1 : Fin 2) * 5 + 1 * q.val = q.val; rw [e1]; omega

/-- The blocks the body reads at point t, entry by entry. -/
theorem iblk_0 (c : Dev nD) (t : Fin cfg1.N) (p : Fin 6000) (q : Fin 5) :
    (iblk1 V c 0 t : Vec Ideal S6000x5 .f32) (ix2 p q) = (V c main_v15 : S600000x5.Idx → EReal) (ix2 (rowAt t p) q) := by
  unfold iblk1; rw [View.read_apply, emb0]; rfl
theorem iblk_1 (c : Dev nD) (t : Fin cfg1.N) (p : Fin 6000) (q : Fin 5) :
    (iblk1 V c 1 t : Vec Ideal S6000x5 .f32) (ix2 p q) = (V c main_v22 : S600000x5.Idx → EReal) (ix2 (rowAt t p) q) := by
  unfold iblk1; rw [View.read_apply, emb1]; rfl
theorem iblk_2 (c : Dev nD) (t : Fin cfg1.N) (z : Fin 1) (q : Fin 5) :
    (iblk1 V c 2 t : Vec Ideal S1x5 .f32) (ix2 z q) = (V c main_v1 : S1x5.Idx → EReal) (ix2 z q) := by
  unfold iblk1; rw [View.read_apply, emb2]; rfl

/-- What point t writes back is block t of `G` of the arrays as the region finds them. -/
theorem flushed_eq (c : Dev nD) (t : Fin cfg1.N) :
    (dat1 (F := Ideal) V c).flushed 3 t
      = ((cfg1.win 3).blk t).view.read (Elt Ideal) (G (V c main_v15) (V c main_v22) (V c main_v1)) := by
  show (cfg1.win 3).cut (grid1.coords t) ((dat1 V c).after 3 t) = _
  rw [after1_3]
  unfold out1_3
  rw [View.canon_unit_zero hz]
  simp only [View.ld_unit_zero (S := S6000x5) hz, View.ld_unit_zero (S := S1x5) hz]
  funext j
  obtain ⟨p, q, rfl⟩ : ∃ (p : Fin 6000) (q : Fin 5), j = ix2 p q := ⟨j 0, j 1, eq_ix2 j⟩
  rw [View.read_apply, emb3]
  refine (pay_apply _ _ _ p q).trans ?_
  unfold G
  rw [ofCoords2_ix2]
  refine congrArg (fun z => softmaxAt z q) (funext fun a => ?_)
  rw [iblk_0, iblk_1, iblk_2]

/-- An index of the array is in point t's block iff each coordinate is in the block's range. -/
theorem mem_blk (t : Fin cfg1.N) (i : S600000x5.Idx) :
    i ∈ ((cfg1.win 3).blk t).view.set ↔ ∀ a : Fin 2, win1_3.index t a * S6000x5.size a ≤ (i a).val ∧ (i a).val < win1_3.index t a * S6000x5.size a + S6000x5.size a := by
  show i ∈ ((View.whole main_v23).slice (win1_3.rect t)).set ↔ _
  rw [View.set_slice_whole, Rect.mem_set_unit]
  exact Iff.rfl

/-- The hundred blocks cover the array: edge e is in block e / 6000. -/
theorem cover (i : S600000x5.Idx) :
    ∃ t : Fin cfg1.N, (cfg1.win 3).flush t = true ∧ i ∈ ((cfg1.win 3).blk t).view.set := by
  have hi0 : (i 0).val < 600000 := (i 0).isLt
  have hi1 : (i 1).val < 5 := (i 1).isLt
  have hN : cfg1.N = 100 := N_1
  let t : Fin cfg1.N := ⟨(i 0).val / 6000, by rw [hN]; omega⟩
  obtain ⟨-, -, -, -, -, -, e0, e1, -⟩ := idx_facts t
  refine ⟨t, flush1_3 t, ?_⟩
  rw [mem_blk]
  intro a
  match a with
  | ⟨0, _⟩ =>
    show win1_3.index t (0 : Fin 2) * 6000 ≤ (i 0).val ∧ (i 0).val < win1_3.index t (0 : Fin 2) * 6000 + 6000
    rw [e0]; show (i 0).val / 6000 * 6000 ≤ (i 0).val ∧ (i 0).val < (i 0).val / 6000 * 6000 + 6000; omega
  | ⟨1, _⟩ =>
    show win1_3.index t (1 : Fin 2) * 5 ≤ (i 1).val ∧ (i 1).val < win1_3.index t (1 : Fin 2) * 5 + 5
    rw [e1]; omega

/-- After the region its output array is `G` of the arrays it was entered with. -/
theorem final (c : Dev nD) :
    (dat1 (F := Ideal) V c).arrAt 3 cfg1.N = G (V c main_v15) (V c main_v22) (V c main_v1) :=
  (dat1 V c).arrAt_eq_of_cover 3 (G (V c main_v15) (V c main_v22) (V c main_v1)) (fun t _ => flushed_eq V c t) cover

end Cert.KernelIdeal.EdgeRegion

end
-- ==== Proof.RegionFinal.lean ====
/-
  The last kernel region: the node array after the edge contributions are mixed in.

  The region walks the 100000 rows in twenty blocks of 5000.  At a block it reads the block of the shifted node array,
  the block of the per-node sums of edge weights (five numbers a row) and the five edge anchors, and writes the block
  of  shifted + ½ · (weights · anchors).  Row r of block t is row 5000·t + r of the arrays, the blocks cover the
  array, so after the region the output array holds, at (n, d),  shifted(n, d) + ½ · Σ_a weights(n, a) · anchor(a, d).
-/
import proofs.«116679_j34248069218341_2_alg».proof.Proof.Gen.KernelIdeal.Frame
import proofs.«116679_j34248069218341_2_alg».proof.Proof.Spec
import proofs.«116679_j34248069218341_2_alg».proof.Proof.LibMatmulNN
import Idealize.ShloMosaic.Lib.Pipeline.Value
import Idealize.ShloMosaic.Lib.ValueIdx

noncomputable section

open scoped BigOperators

namespace Cert.KernelIdeal.FinalRegion

open Cert.KernelIdeal Cert.KernelIdeal.Gen Cert.Prompt
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at row p, column q of the block: the shifted entry plus one half of the product row. -/
theorem pay_apply (x0 : Vec Ideal S5000x128 .f32) (x1 : Vec Ideal S5000x5 .f32) (x2 : Vec Ideal S5x128 .f32)
    (p : Fin 5000) (q : Fin 128) :
    k2_pay1 (F := Ideal) x0 x1 x2 (ix2 p q)
      = x0 (ix2 p q) + Ideal.ofBits .f32 0x3F000000#32 * ∑ a : Fin 5, x1 (ix2 p a) * x2 (ix2 a q) := by
  unfold k2_pay1
  simp only [shapeCast_self]
  refine congrArg₂ (fun s t : EReal => s + t) rfl ?_
  refine congrArg (fun t : EReal => Ideal.ofBits .f32 0x3F000000#32 * t) ?_
  exact Cert.LibMatmulNN.matmul_zero_apply' dot_S5000x5_S5x128_S5000x128_1_0_0_1_n_n rfl rfl rfl rfl rfl rfl none _ _ p q

variable (V : (c : Dev nD) → (b : Ref sig .tc) → Buf (Elt Ideal) ((c : Thread nD τ).loc b))

/-- The printed index maps over the twenty points: the row-block windows sit at block (t, 0), the anchors at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 20 :=
  (by decide +kernel : ∀ t : Fin grid2.N, _)

/-- Row p of block t is row 5000·t + p of the array. -/
def rowAt (t : Fin cfg2.N) (p : Fin 5000) : Fin 100000 := ⟨5000 * t.val + p.val, by
  have := (idx_facts t).2.2.2.2.2.2.2.2; omega⟩

/-- What the region leaves in its output array, entry by entry. -/
def G (a0 : S100000x128.Idx → EReal) (a1 : S100000x5.Idx → EReal) (a2 : S5x128.Idx → EReal) : S100000x128.Idx → EReal :=
  ofCoords2 fun n d => a0 (ix2 n d) + Ideal.ofBits .f32 0x3F000000#32 * ∑ a : Fin 5, a1 (ix2 n a) * a2 (ix2 a d)

theorem emb0 (t : Fin cfg2.N) (p : Fin 5000) (q : Fin 128) :
    ((cfg2.win 0).blk t).view.emb (ix2 p q) = ix2 (rowAt t p) q := by
  obtain ⟨e0, e1, -⟩ := idx_facts t
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * q.val = q.val; rw [e1]; omega

theorem emb1 (t : Fin cfg2.N) (p : Fin 5000) (a' : Fin 5) :
    ((cfg2.win 1).blk t).view.emb (ix2 p a') = ix2 (rowAt t p) a' := by
  obtain ⟨-, -, e0, e1, -⟩ := idx_facts t
  funext a; apply Fin.ext
  match a with
  | ⟨0, _⟩ => show win2_1.index t (0 : Fin 2) * 5000 + 1 * p.val = 5000 * t.val + p.val; rw [e0]; omega
  | ⟨1, _⟩ => show win2_1.index t (1 : Fin 2) * 5 + 1 * a'.val = a'.val; rw [e1]; omega

theorem emb2 (t : Fin cfg2.N) (a' : Fin 5) (q : Fin 128) :
    ((cfg2.win 2).blk t).view.emb (ix2 a' q) = ix2 a' q := by
  obtain ⟨-, -, -, -, e0, e1, -⟩ := idx_facts t
  funext a; apply Fin.ext
  match a with
  | ⟨0, _⟩ => show win2_2.index t (0 : Fin 2) * 5 + 1 * a'.val = a'.val; rw [e0]; omega
  | ⟨1, _⟩ => show win2_2.index t (1 : Fin 2) * 128 + 1 * q.val = q.val; rw [e1]; omega

theorem emb3 (t : Fin cfg2.N) (p : Fin 5000) (q : Fin 128) :
    ((cfg2.win 3).blk t).view.emb (ix2 p q) = ix2 (rowAt t p) q := by
  obtain ⟨-, -, -, -, -, -, e0, e1, -⟩ := idx_facts t
  funext a; apply Fin.ext
  match a with
  | ⟨0, _⟩ => show win2_3.index t (0 : Fin 2) * 5000 + 1 * p.val = 5000 * t.val + p.val; rw [e0]; omega
  | ⟨1, _⟩ => show win2_3.index t (1 : Fin 2) * 128 + 1 * q.val = q.val; rw [e1]; omega

/-- The blocks the body reads at point t, entry by entry. -/
theorem iblk_0 (c : Dev nD) (t : Fin cfg2.N) (p : Fin 5000) (q : Fin 128) :
    (iblk2 V c 0 t : Vec Ideal S5000x128 .f32) (ix2 p q) = (V c main_v4_0 : S100000x128.Idx → EReal) (ix2 (rowAt t p) q) := by
  unfold iblk2; rw [View.read_apply, emb0]; rfl
theorem iblk_1 (c : Dev nD) (t : Fin cfg2.N) (p : Fin 5000) (a : Fin 5) :
    (iblk2 V c 1 t : Vec Ideal S5000x5 .f32) (ix2 p a) = (V c main_v38 : S100000x5.Idx → EReal) (ix2 (rowAt t p) a) := by
  unfold iblk2; rw [View.read_apply, emb1]; rfl
theorem iblk_2 (c : Dev nD) (t : Fin cfg2.N) (a : Fin 5) (q : Fin 128) :
    (iblk2 V c 2 t : Vec Ideal S5x128 .f32) (ix2 a q) = (V c main_arg4 : S5x128.Idx → EReal) (ix2 a q) := by
  unfold iblk2; rw [View.read_apply, emb2]; rfl

/-- What point t writes back is block t of `G` of the arrays as the region finds them. -/
theorem flushed_eq (c : Dev nD) (t : Fin cfg2.N) :
    (dat2 (F := Ideal) V c).flushed 3 t
      = ((cfg2.win 3).blk t).view.read (Elt Ideal) (G (V c main_v4_0) (V c main_v38) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x5) hz, View.ld_unit_zero (S := S5x128) hz]
  funext j
  obtain ⟨p, q, rfl⟩ : ∃ (p : Fin 5000) (q : Fin 128), j = ix2 p q := ⟨j 0, j 1, eq_ix2 j⟩
  rw [View.read_apply, emb3]
  refine (pay_apply _ _ _ p q).trans ?_
  unfold G
  rw [ofCoords2_ix2, iblk_0]
  refine congrArg (fun s : EReal => _ + Ideal.ofBits .f32 0x3F000000#32 * s) ?_
  refine Finset.sum_congr rfl fun a _ => ?_
  rw [iblk_1, iblk_2]

/-- An index of the array is in point t's block iff each coordinate is in the block's range. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v39).slice (win2_3.rect t)).set ↔ _
  rw [View.set_slice_whole, Rect.mem_set_unit]
  exact Iff.rfl

/-- The twenty blocks cover the array: row r is in block r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, e0, e1, -⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e0]; show (i 0).val / 5000 * 5000 ≤ (i 0).val ∧ (i 0).val < (i 0).val / 5000 * 5000 + 5000; omega
  | ⟨1, _⟩ =>
    show win2_3.index t (1 : Fin 2) * 128 ≤ (i 1).val ∧ (i 1).val < win2_3.index t (1 : Fin 2) * 128 + 128
    rw [e1]; omega

/-- After the region its output array is `G` of the arrays it was entered with. -/
theorem final (c : Dev nD) :
    (dat2 (F := Ideal) V c).arrAt 3 cfg2.N = G (V c main_v4_0) (V c main_v38) (V c main_arg4) :=
  (dat2 V c).arrAt_eq_of_cover 3 (G (V c main_v4_0) (V c main_v38) (V c main_arg4)) (fun t _ => flushed_eq V c t) cover

end Cert.KernelIdeal.FinalRegion

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.KernelValue.lean ====
/-
  The idealized kernel program's result array as one function of the argument arrays.

  The contents of every buffer are followed from the launch memory through the three stretches of host operations
  and the three kernel regions: the first region leaves the shifted node array and the two per-node score arrays; the
  gathers pick, for every edge, the source's and the destination's score rows; the second region turns them into the
  edge weights; the two scatter-adds add the weights up per node; the last region mixes them with the edge anchors and
  adds one half of the mixture to the shifted array.  Entry by entry this is `outK` of the arguments.
-/
import proofs.«116679_j34248069218341_2_alg».proof.Proof.Gen.KernelIdeal.Frame
import proofs.«116679_j34248069218341_2_alg».proof.Proof.Spec
import proofs.«116679_j34248069218341_2_alg».proof.Proof.Stretches
import proofs.«116679_j34248069218341_2_alg».proof.Proof.RegionNode
import proofs.«116679_j34248069218341_2_alg».proof.Proof.RegionEdge
import proofs.«116679_j34248069218341_2_alg».proof.Proof.RegionFinal
import proofs.«116679_j34248069218341_2_alg».proof.Proof.LibRowOps
import Idealize.ShloMosaic.Lib.Pipeline.Value
import Idealize.ShloMosaic.Lib.ValueIdx
import Idealize.ShloMosaic.Lib.ValueLayout

noncomputable section

open scoped BigOperators

namespace Cert.KernelIdeal.Whole

open Cert.KernelIdeal Cert.KernelIdeal.Gen Cert.Prompt Cert.KernelIdeal.Stretch Cert.KernelIdeal.NodeRegion
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## At the first region's entry -/

theorem V1_arg0 (c : Dev nD) : V1 m ρ c main_arg0 = m ((c : Thread nD τ).loc main_arg0) := s0_arg0 (W0 m ρ c)
theorem V1_arg1 (c : Dev nD) : V1 m ρ c main_arg1 = m ((c : Thread nD τ).loc main_arg1) := s0_arg1 (W0 m ρ c)
theorem V1_arg2 (c : Dev nD) : V1 m ρ c main_arg2 = m ((c : Thread nD τ).loc main_arg2) := s0_arg2 (W0 m ρ c)

/-- The attention bias as the first region finds it, read along its one row. -/
theorem V1_v0 (c : Dev nD) : (fun a : Fin 5 => (V1 m ρ c main_v0 : S1x5.Idx → EReal) (ix2 (0 : Fin 1) a))
    = fun a : Fin 5 => (m ((c : Thread nD τ).loc main_arg3) : S5.Idx → EReal) (ix1 a) := by
  funext a
  refine (congrFun (s0_v0 (W0 m ρ c)) (ix2 (0 : Fin 1) a)).trans ?_
  exact shapeCast_a_1a_apply _ _ (0 : Fin 1) a

/-- The two halves of the edge weights' columns as the first region finds them. -/
theorem V1_v2 (c : Dev nD) : V1 m ρ c main_v2 = eWl (m ((c : Thread nD τ).loc main_arg5)) :=
  (s0_v2 (W0 m ρ c)).trans (eq_ofCoords2 _ _ fun a k =>
    slice2_axis1_apply 0 _ _ a k ⟨k.val, by omega⟩ (by show k.val = 0 + k.val; omega))
theorem V1_v3 (c : Dev nD) : V1 m ρ c main_v3 = eWr (m ((c : Thread nD τ).loc main_arg5)) :=
  (s0_v3 (W0 m ρ c)).trans (eq_ofCoords2 _ _ fun a k =>
    slice2_axis1_apply 128 _ _ a k ⟨128 + k.val, by omega⟩ rfl)

/-! ## After the first region -/

theorem W2_v4_0 (c : Dev nD) : W2 m ρ c (Proc.devRef .tc main_v4_0)
    = ofCoords2 (fun n d => shifted (m ((c : Thread nD τ).loc main_arg0)) (m ((c : Thread nD τ).loc main_arg1))
        (m ((c : Thread nD τ).loc main_arg2)) (fun a => (m ((c : Thread nD τ).loc main_arg3) : S5.Idx → EReal) (ix1 a)) n d) := by
  refine (W2_arr m ρ c 6).trans ((final_shifted (V1 m ρ) c).trans ?_)
  rw [V1_arg0, V1_arg1, V1_arg2, V1_v0]

theorem W2_v4_1 (c : Dev nD) : W2 m ρ c (Proc.devRef .tc main_v4_1)
    = ofCoords2 (fun n a => halfScore (m ((c : Thread nD τ).loc main_arg0)) (eWl (m ((c : Thread nD τ).loc main_arg5))) n a) := by
  refine (W2_arr m ρ c 7).trans ((final_srcScore (V1 m ρ) c).trans ?_)
  rw [V1_arg0, V1_v2]

theorem W2_v4_2 (c : Dev nD) : W2 m ρ c (Proc.devRef .tc main_v4_2)
    = ofCoords2 (fun n a => halfScore (m ((c : Thread nD τ).loc main_arg0)) (eWr (m ((c : Thread nD τ).loc main_arg5))) n a) := by
  refine (W2_arr m ρ c 8).trans ((final_dstScore (V1 m ρ) c).trans ?_)
  rw [V1_arg0, V1_v3]

theorem W2_arg7 (c : Dev nD) : W2 m ρ c (Proc.devRef .tc main_arg7) = m ((c : Thread nD τ).loc main_arg7) :=
  (W2_of_ne m ρ c main_arg7 (by decide)).trans (s0_arg7 (W0 m ρ c))
theorem W2_arg4 (c : Dev nD) : W2 m ρ c (Proc.devRef .tc main_arg4) = m ((c : Thread nD τ).loc main_arg4) :=
  (W2_of_ne m ρ c main_arg4 (by decide)).trans (s0_arg4 (W0 m ρ c))
theorem W2_v1 (c : Dev nD) : W2 m ρ c (Proc.devRef .tc main_v1)
    = shapeCast S1x5 (m ((c : Thread nD τ).loc main_arg6)) shapeCasts_S5_S1x5 :=
  (W2_of_ne m ρ c main_v1 (by decide)).trans (s0_v1 (W0 m ρ c))

/-! ## At the second region's entry -/

/-- The gathered source scores: edge e carries its source row's score against the first half of the columns. -/
theorem V3_v15 (c : Dev nD) (e : Fin 600000) (a : Fin 5) :
    (V3 m ρ c main_v15 : S600000x5.Idx → EReal) (ix2 e a)
      = halfScore (m ((c : Thread nD τ).loc main_arg0)) (eWl (m ((c : Thread nD τ).loc main_arg5)))
          (srow (srcCol (m ((c : Thread nD τ).loc main_arg7))) e) a := by
  refine (congrFun (s1_v15 (W2 m ρ c)) (ix2 e a)).trans ?_
  rw [W2_arg7]
  refine (Cert.LibRowOps.gather_rows_apply_of_eq (by decide) gather_S100000x5_S600000x1_S600000x5_1_0_n_n_0_1_15
    rfl rfl rfl rfl rfl rfl rfl _ _ e a).trans ?_
  rw [W2_v4_1]
  rfl

/-- The gathered destination scores. -/
theorem V3_v22 (c : Dev nD) (e : Fin 600000) (a : Fin 5) :
    (V3 m ρ c main_v22 : S600000x5.Idx → EReal) (ix2 e a)
      = halfScore (m ((c : Thread nD τ).loc main_arg0)) (eWr (m ((c : Thread nD τ).loc main_arg5)))
          (drow (dstCol (m ((c : Thread nD τ).loc main_arg7))) e) a := by
  refine (congrFun (s1_v22 (W2 m ρ c)) (ix2 e a)).trans ?_
  rw [W2_arg7]
  refine (Cert.LibRowOps.gather_rows_apply_of_eq (by decide) gather_S100000x5_S600000x1_S600000x5_1_0_n_n_0_1_15
    rfl rfl rfl rfl rfl rfl rfl _ _ e a).trans ?_
  rw [W2_v4_2]
  rfl

/-- The edge bias as the second region finds it, read along its one row. -/
theorem V3_v1 (c : Dev nD) (a : Fin 5) : (V3 m ρ c main_v1 : S1x5.Idx → EReal) (ix2 (0 : Fin 1) a)
    = (m ((c : Thread nD τ).loc main_arg6) : S5.Idx → EReal) (ix1 a) := by
  refine (congrFun ((s1_v1 (W2 m ρ c)).trans (W2_v1 m ρ c)) (ix2 (0 : Fin 1) a)).trans ?_
  exact shapeCast_a_1a_apply _ _ (0 : Fin 1) a

/-! ## After the second region -/

/-- The edge weights. -/
theorem W4_v23 (c : Dev nD) : W4 m ρ c (Proc.devRef .tc main_v23)
    = ofCoords2 (fun e a => edgeWeightK (m ((c : Thread nD τ).loc main_arg0))
        (fun a => (m ((c : Thread nD τ).loc main_arg6) : S5.Idx → EReal) (ix1 a)) (m ((c : Thread nD τ).loc main_arg5))
        (srcCol (m ((c : Thread nD τ).loc main_arg7))) (dstCol (m ((c : Thread nD τ).loc main_arg7))) e a) := by
  refine (W4_arr m ρ c 3).trans ((Cert.KernelIdeal.EdgeRegion.final (V3 m ρ) c).trans ?_)
  unfold Cert.KernelIdeal.EdgeRegion.G
  refine congrArg ofCoords2 (funext fun e => funext fun a => ?_)
  unfold edgeWeightK edgeScoreK
  refine congrArg (fun z => softmaxAt z a) (funext fun a' => ?_)
  rw [V3_v15, V3_v22, V3_v1]

theorem W4_v6 (c : Dev nD) : W4 m ρ c (Proc.devRef .tc main_v6)
    = rowVec (m ((c : Thread nD τ).loc main_arg7)) ![0, 0] slices_S2x600000_S1x600000_0_0 :=
  (W4_of_ne m ρ c main_v6 (by decide)).trans ((s1_v6 (W2 m ρ c)).trans (by rw [W2_arg7]))
theorem W4_v8 (c : Dev nD) : W4 m ρ c (Proc.devRef .tc main_v8)
    = rowVec (m ((c : Thread nD τ).loc main_arg7)) ![1, 0] slices_S2x600000_S1x600000_1_0 :=
  (W4_of_ne m ρ c main_v8 (by decide)).trans ((s1_v8 (W2 m ρ c)).trans (by rw [W2_arg7]))
theorem W4_v4_0 (c : Dev nD) : W4 m ρ c (Proc.devRef .tc main_v4_0) = W2 m ρ c (Proc.devRef .tc main_v4_0) :=
  (W4_of_ne m ρ c main_v4_0 (by decide)).trans (s1_v4_0 (W2 m ρ c))
theorem W4_arg4 (c : Dev nD) : W4 m ρ c (Proc.devRef .tc main_arg4) = m ((c : Thread nD τ).loc main_arg4) :=
  (W4_of_ne m ρ c main_arg4 (by decide)).trans ((s1_arg4 (W2 m ρ c)).trans (W2_arg4 m ρ c))

/-! ## At the last region's entry -/

/-- The edge weights added up per node. -/
theorem V5_v38 (c : Dev nD) (n : Fin 100000) (a : Fin 5) :
    (V5 m ρ c main_v38 : S100000x5.Idx → EReal) (ix2 n a)
      = received (srcCol (m ((c : Thread nD τ).loc main_arg7))) (dstCol (m ((c : Thread nD τ).loc main_arg7)))
          (edgeWeightK (m ((c : Thread nD τ).loc main_arg0))
            (fun a => (m ((c : Thread nD τ).loc main_arg6) : S5.Idx → EReal) (ix1 a)) (m ((c : Thread nD τ).loc main_arg5))
            (srcCol (m ((c : Thread nD τ).loc main_arg7))) (dstCol (m ((c : Thread nD τ).loc main_arg7)))) n a := by
  refine (congrFun (s2_v38 (W4 m ρ c)) (ix2 n a)).trans ?_
  rw [W4_v6, W4_v8, colOf_src, colOf_dst, W4_v23]
  refine (Cert.LibRowOps.scatterAdd_rows_apply_of_eq scatter_S100000x5_S600000x1_S600000x5_1_0_0_1 rfl rfl rfl rfl
    _ _ _ n a).trans ?_
  rw [Cert.LibRowOps.scatterAdd_rows_apply_of_eq scatter_S100000x5_S600000x1_S600000x5_1_0_0_1 rfl rfl rfl rfl
    _ _ _ n a]
  have hz : (broadcastInDim S100000x5 ![] bcast_S_S100000x5 (constant (F := Ideal) S_ .f32 0x00000000#32)) (ix2 n a)
      = Ideal.ofBits .f32 0x00000000#32 :=
    (broadcastInDim_apply _ bcast_S_S100000x5 _ (ix2 n a) ValueIdx.ix0 (fun d => d.elim0)).trans rfl
  rw [hz]
  rfl

theorem V5_v4_0 (c : Dev nD) : V5 m ρ c main_v4_0 = W2 m ρ c (Proc.devRef .tc main_v4_0) :=
  (s2_v4_0 (W4 m ρ c)).trans (W4_v4_0 m ρ c)
theorem V5_arg4 (c : Dev nD) : V5 m ρ c main_arg4 = m ((c : Thread nD τ).loc main_arg4) :=
  (s2_arg4 (W4 m ρ c)).trans (W4_arg4 m ρ c)

/-! ## The result -/

/-- After the last region the result array holds `outK` of the arguments, entry by entry. -/
theorem result_eq (c : Dev nD) : W6 m ρ c (Proc.devRef .tc main_v39)
    = ofCoords2 (fun n d => outK (m ((c : Thread nD τ).loc main_arg0)) (m ((c : Thread nD τ).loc main_arg1))
        (m ((c : Thread nD τ).loc main_arg2)) (m ((c : Thread nD τ).loc main_arg4))
        (fun a => (m ((c : Thread nD τ).loc main_arg3) : S5.Idx → EReal) (ix1 a))
        (fun a => (m ((c : Thread nD τ).loc main_arg6) : S5.Idx → EReal) (ix1 a)) (m ((c : Thread nD τ).loc main_arg5))
        (srcCol (m ((c : Thread nD τ).loc main_arg7))) (dstCol (m ((c : Thread nD τ).loc main_arg7))) n d) := by
  refine (W6_arr m ρ c 3).trans ((Cert.KernelIdeal.FinalRegion.final (V5 m ρ) c).trans ?_)
  unfold Cert.KernelIdeal.FinalRegion.G
  refine congrArg ofCoords2 (funext fun n => funext fun d => ?_)
  unfold outK
  refine congrArg₂ (fun s t : EReal => s + Ideal.ofBits .f32 0x3F000000#32 * t) ?_ (Finset.sum_congr rfl fun a _ => ?_)
  · rw [V5_v4_0, W2_v4_0]; rfl
  · rw [V5_v38, V5_arg4]

end Cert.KernelIdeal.Whole

end
-- ==== Proof.RefRun.lean ====
import proofs.«116679_j34248069218341_2_alg».proof.Proof.Gen.ReferenceIdeal
import Idealize.ShloMosaic.Lib.StableHlo.Run
import Idealize.ShloMosaic.Lib.Pipeline.Frame

/-!
The reference program as one straight line of host operations, and its run.

The program's @main is a sequence of array operations; one of them is a call of the leaky rectifier, itself
calling the three-way choice.  Unfolding the two bodies at the call gives ninety-six operations in order (`ops`),
and the program is their sequence (`main_eq`).  Every weakly fair execution then terminates with each buffer at
the fold of the operations' results over the contents at launch (`run_all`).

The list is also cut into four consecutive stretches (`opsA … opsD`): the shifted node array; the edge scores; the
edge weights and edge mixtures; the two additions per node and the result.  The fold over the whole list is the
four folds one after the other (`after_ops`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call of the leaky rectifier unfolded at its place into the call's own buffers:
    the zero and its broadcast, the comparison, the slope converted and broadcast, the product, and the choice. -/
@[reducible] def ops : List (HloOp τ sig (Elt F)) :=
  [ StableHlo.unary main_arg2 main_v0 ((transpose S128x5 [1, 0] · transposes_S5x128_S128x5_1_0) : (⟨S5x128, .f32⟩ : BufTy).Contents (Elt F) → (⟨S128x5, .f32⟩ : BufTy).Contents (Elt F)),
    StableHlo.binary main_arg0 main_v0 main_v1 ((fun l r => Host.dotGeneral dot_S100000x128_S128x5_S100000x5_1_0_0_1_n_n none l r) : (⟨S100000x128, .f32⟩ : BufTy).Contents (Elt F) → (⟨S128x5, .f32⟩ : BufTy).Contents (Elt F) → (⟨S100000x5, .f32⟩ : BufTy).Contents (Elt F)),
    StableHlo.unary main_arg3 main_v2 (broadcastInDim S1x5 ![1] bcast_S5_S1x5_1 : (⟨S5, .f32⟩ : BufTy).Contents (Elt F) → (⟨S1x5, .f32⟩ : BufTy).Contents (Elt F)),
    StableHlo.unary main_v2 main_v3 (broadcastInDim S100000x5 ![0, 1] bcast_S1x5_S100000x5_0_1 : (⟨S1x5, .f32⟩ : BufTy).Contents (Elt F) → (⟨S100000x5, .f32⟩ : BufTy).Contents (Elt F)),
    StableHlo.binary main_v1 main_v3 main_v4 (addf : (⟨S100000x5, .f32⟩ : BufTy).Contents (Elt F) → (⟨S100000x5, .f32⟩ : BufTy).Contents (Elt F) → (⟨S100000x5, .f32⟩ : BufTy).Contents (Elt F)),
    StableHlo.nullary main_cst (constant S_ .f32 0xFF800000#32),
    StableHlo.binary main_v4 main_cst main_v5 ((fun x v => Host.reduce FloatOps.maximumf x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.nullary main_cst_0 (constant S_ .f32 0xFF800000#32),
    StableHlo.unary main_cst_0 main_v6 (broadcastInDim S100000 ![] bcast_S_S100000 : (⟨S_, .f32⟩ : BufTy).Contents (Elt F) → (⟨S100000, .f32⟩ : BufTy).Contents (Elt F)),
    StableHlo.binary main_v6 main_v5 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (broadcastInDim S100000x1 ![0] bcast_S100000_S100000x1_0 : (⟨S100000, .f32⟩ : BufTy).Contents (Elt F) → (⟨S100000x1, .f32⟩ : BufTy).Contents (Elt F)),
    StableHlo.unary main_v8 main_v9 (broadcastInDim S100000x5 ![0, 1] bcast_S100000x1_S100000x5_0_1 : (⟨S100000x1, .f32⟩ : BufTy).Contents (Elt F) → (⟨S100000x5, .f32⟩ : BufTy).Contents (Elt F)),
    StableHlo.binary main_v4 main_v9 main_v10 (subf : (⟨S100000x5, .f32⟩ : BufTy).Contents (Elt F) → (⟨S100000x5, .f32⟩ : BufTy).Contents (Elt F) → (⟨S100000x5, .f32⟩ : BufTy).Contents (Elt F)),
    StableHlo.unary main_v10 main_v11 (Host.exp : (⟨S100000x5, .f32⟩ : BufTy).Contents (Elt F) → (⟨S100000x5, .f32⟩ : BufTy).Contents (Elt F)),
    StableHlo.nullary main_cst_1 (constant S_ .f32 0x00000000#32),
    StableHlo.binary main_v11 main_cst_1 main_v12 ((fun x v => Host.reduceAdd x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x5 ![0, 1] bcast_S100000x1_S100000x5_0_1 : (⟨S100000x1, .f32⟩ : BufTy).Contents (Elt F) → (⟨S100000x5, .f32⟩ : BufTy).Contents (Elt F)),
    StableHlo.binary main_v11 main_v14 main_v15 (Host.divf : (⟨S100000x5, .f32⟩ : BufTy).Contents (Elt F) → (⟨S100000x5, .f32⟩ : BufTy).Contents (Elt F) → (⟨S100000x5, .f32⟩ : BufTy).Contents (Elt F)),
    StableHlo.binary main_v15 main_arg1 main_v16 ((fun l r => Host.dotGeneral dot_S100000x5_S5x128_S100000x128_1_0_0_1_n_n none l r) : (⟨S100000x5, .f32⟩ : BufTy).Contents (Elt F) → (⟨S5x128, .f32⟩ : BufTy).Contents (Elt F) → (⟨S100000x128, .f32⟩ : BufTy).Contents (Elt F)),
    StableHlo.binary main_arg0 main_v16 main_v17 (addf : (⟨S100000x128, .f32⟩ : BufTy).Contents (Elt F) → (⟨S100000x128, .f32⟩ : BufTy).Contents (Elt F) → (⟨S100000x128, .f32⟩ : BufTy).Contents (Elt F)),
    StableHlo.unary main_arg7 main_v18 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v18 main_v19 rfl shapeCasts_S1x600000_S600000,
    StableHlo.unary main_arg7 main_v20 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v20 main_v21 rfl shapeCasts_S1x600000_S600000,
    StableHlo.nullary main_c (constantI S_ 32 0#32),
    StableHlo.unary main_c main_v22 (broadcastInDim S600000 ![] bcast_S_S600000 : (⟨S_, .i32⟩ : BufTy).Contents (Elt F) → (⟨S600000, .i32⟩ : BufTy).Contents (Elt F)),
    StableHlo.binary main_v19 main_v22 main_v23 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v24 (broadcastInDim S600000 ![] bcast_S_S600000 : (⟨S_, .i32⟩ : BufTy).Contents (Elt F) → (⟨S600000, .i32⟩ : BufTy).Contents (Elt F)),
    StableHlo.binary main_v19 main_v24 main_v25 (addi : (⟨S600000, .i32⟩ : BufTy).Contents (Elt F) → (⟨S600000, .i32⟩ : BufTy).Contents (Elt F) → (⟨S600000, .i32⟩ : BufTy).Contents (Elt F)),
    StableHlo.ternary main_v23 main_v25 main_v19 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v26 main_v27 (broadcastInDim S600000x1 ![0] bcast_S600000_S600000x1_0 : (⟨S600000, .i32⟩ : BufTy).Contents (Elt F) → (⟨S600000x1, .i32⟩ : BufTy).Contents (Elt F)),
    StableHlo.binary main_arg0 main_v27 main_v28 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_3 (constantI S_ 32 0#32),
    StableHlo.unary main_c_3 main_v29 (broadcastInDim S600000 ![] bcast_S_S600000 : (⟨S_, .i32⟩ : BufTy).Contents (Elt F) → (⟨S600000, .i32⟩ : BufTy).Contents (Elt F)),
    StableHlo.binary main_v21 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v31 (broadcastInDim S600000 ![] bcast_S_S600000 : (⟨S_, .i32⟩ : BufTy).Contents (Elt F) → (⟨S600000, .i32⟩ : BufTy).Contents (Elt F)),
    StableHlo.binary main_v21 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v21 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_arg0 main_v34 main_v35 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v28 main_v35 main_v36 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.unary main_arg5 main_v37 ((transpose S256x5 [1, 0] · transposes_S5x256_S256x5_1_0) : (⟨S5x256, .f32⟩ : BufTy).Contents (Elt F) → (⟨S256x5, .f32⟩ : BufTy).Contents (Elt F)),
    StableHlo.binary main_v36 main_v37 main_v38 ((fun l r => Host.dotGeneral dot_S600000x256_S256x5_S600000x5_1_0_0_1_n_n none l r) : (⟨S600000x256, .f32⟩ : BufTy).Contents (Elt F) → (⟨S256x5, .f32⟩ : BufTy).Contents (Elt F) → (⟨S600000x5, .f32⟩ : BufTy).Contents (Elt F)),
    StableHlo.unary main_arg6 main_v39 (broadcastInDim S1x5 ![1] bcast_S5_S1x5_1 : (⟨S5, .f32⟩ : BufTy).Contents (Elt F) → (⟨S1x5, .f32⟩ : BufTy).Contents (Elt F)),
    StableHlo.unary main_v39 main_v40 (broadcastInDim S600000x5 ![0, 1] bcast_S1x5_S600000x5_0_1 : (⟨S1x5, .f32⟩ : BufTy).Contents (Elt F) → (⟨S600000x5, .f32⟩ : BufTy).Contents (Elt F)),
    StableHlo.binary main_v38 main_v40 main_v41 (addf : (⟨S600000x5, .f32⟩ : BufTy).Contents (Elt F) → (⟨S600000x5, .f32⟩ : BufTy).Contents (Elt F) → (⟨S600000x5, .f32⟩ : BufTy).Contents (Elt F)),
    StableHlo.nullary main_cst_5 (constant S_ .f32 0x3C23D70A#32),
    StableHlo.TRef.nullary main_call0.cst (constant S_ .f32 0x00000000#32),
    StableHlo.TRef.unary main_call0.cst main_call0.v0 (broadcastInDim S600000x5 ![] bcast_S_S600000x5),
    StableHlo.TRef.binary (.of main_v41) main_call0.v0 main_call0.v1 (cmpf .oge),
    StableHlo.TRef.unary (.of main_cst_5) main_call0.v2 id,
    StableHlo.TRef.unary main_call0.v2 main_call0.v3 (broadcastInDim S600000x5 ![] bcast_S_S600000x5),
    StableHlo.TRef.binary main_call0.v3 (.of main_v41) main_call0.v4 mulf,
    StableHlo.TRef.ternary main_call0.v1 (.of main_v41) main_call0.v4 main_call0.call0.v0 select,
    StableHlo.nullary main_cst_6 (constant S_ .f32 0xFF800000#32),
    StableHlo.binary main_v42 main_cst_6 main_v43 ((fun x v => Host.reduce FloatOps.maximumf x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.nullary main_cst_7 (constant S_ .f32 0xFF800000#32),
    StableHlo.unary main_cst_7 main_v44 (broadcastInDim S600000 ![] bcast_S_S600000 : (⟨S_, .f32⟩ : BufTy).Contents (Elt F) → (⟨S600000, .f32⟩ : BufTy).Contents (Elt F)),
    StableHlo.binary main_v44 main_v43 main_v45 (maximumf : (⟨S600000, .f32⟩ : BufTy).Contents (Elt F) → (⟨S600000, .f32⟩ : BufTy).Contents (Elt F) → (⟨S600000, .f32⟩ : BufTy).Contents (Elt F)),
    StableHlo.unary main_v45 main_v46 (broadcastInDim S600000x1 ![0] bcast_S600000_S600000x1_0 : (⟨S600000, .f32⟩ : BufTy).Contents (Elt F) → (⟨S600000x1, .f32⟩ : BufTy).Contents (Elt F)),
    StableHlo.unary main_v46 main_v47 (broadcastInDim S600000x5 ![0, 1] bcast_S600000x1_S600000x5_0_1 : (⟨S600000x1, .f32⟩ : BufTy).Contents (Elt F) → (⟨S600000x5, .f32⟩ : BufTy).Contents (Elt F)),
    StableHlo.binary main_v42 main_v47 main_v48 (subf : (⟨S600000x5, .f32⟩ : BufTy).Contents (Elt F) → (⟨S600000x5, .f32⟩ : BufTy).Contents (Elt F) → (⟨S600000x5, .f32⟩ : BufTy).Contents (Elt F)),
    StableHlo.unary main_v48 main_v49 (Host.exp : (⟨S600000x5, .f32⟩ : BufTy).Contents (Elt F) → (⟨S600000x5, .f32⟩ : BufTy).Contents (Elt F)),
    StableHlo.nullary main_cst_8 (constant S_ .f32 0x00000000#32),
    StableHlo.binary main_v49 main_cst_8 main_v50 ((fun x v => Host.reduceAdd x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.unary main_v50 main_v51 (broadcastInDim S600000x1 ![0] bcast_S600000_S600000x1_0 : (⟨S600000, .f32⟩ : BufTy).Contents (Elt F) → (⟨S600000x1, .f32⟩ : BufTy).Contents (Elt F)),
    StableHlo.unary main_v51 main_v52 (broadcastInDim S600000x5 ![0, 1] bcast_S600000x1_S600000x5_0_1 : (⟨S600000x1, .f32⟩ : BufTy).Contents (Elt F) → (⟨S600000x5, .f32⟩ : BufTy).Contents (Elt F)),
    StableHlo.binary main_v49 main_v52 main_v53 (Host.divf : (⟨S600000x5, .f32⟩ : BufTy).Contents (Elt F) → (⟨S600000x5, .f32⟩ : BufTy).Contents (Elt F) → (⟨S600000x5, .f32⟩ : BufTy).Contents (Elt F)),
    StableHlo.binary main_v53 main_arg4 main_v54 ((fun l r => Host.dotGeneral dot_S600000x5_S5x128_S600000x128_1_0_0_1_n_n none l r) : (⟨S600000x5, .f32⟩ : BufTy).Contents (Elt F) → (⟨S5x128, .f32⟩ : BufTy).Contents (Elt F) → (⟨S600000x128, .f32⟩ : BufTy).Contents (Elt F)),
    StableHlo.nullary main_cst_9 (constant S_ .f32 0x00000000#32),
    StableHlo.unary main_cst_9 main_v55 (broadcastInDim S100000x128 ![] bcast_S_S100000x128 : (⟨S_, .f32⟩ : BufTy).Contents (Elt F) → (⟨S100000x128, .f32⟩ : BufTy).Contents (Elt F)),
    StableHlo.nullary main_c_10 (constantI S_ 32 0#32),
    StableHlo.unary main_c_10 main_v56 (broadcastInDim S600000 ![] bcast_S_S600000 : (⟨S_, .i32⟩ : BufTy).Contents (Elt F) → (⟨S600000, .i32⟩ : BufTy).Contents (Elt F)),
    StableHlo.binary main_v19 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v58 (broadcastInDim S600000 ![] bcast_S_S600000 : (⟨S_, .i32⟩ : BufTy).Contents (Elt F) → (⟨S600000, .i32⟩ : BufTy).Contents (Elt F)),
    StableHlo.binary main_v19 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v19 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.ternary main_v55 main_v61 main_v54 main_v62 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_c_12 (constantI S_ 32 0#32),
    StableHlo.unary main_c_12 main_v63 (broadcastInDim S600000 ![] bcast_S_S600000 : (⟨S_, .i32⟩ : BufTy).Contents (Elt F) → (⟨S600000, .i32⟩ : BufTy).Contents (Elt F)),
    StableHlo.binary main_v21 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v65 (broadcastInDim S600000 ![] bcast_S_S600000 : (⟨S_, .i32⟩ : BufTy).Contents (Elt F) → (⟨S600000, .i32⟩ : BufTy).Contents (Elt F)),
    StableHlo.binary main_v21 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_v21 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.ternary main_v62 main_v68 main_v54 main_v69 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_14 (constant S_ .f32 0x3F000000#32),
    StableHlo.unary main_cst_14 main_v70 (broadcastInDim S100000x128 ![] bcast_S_S100000x128 : (⟨S_, .f32⟩ : BufTy).Contents (Elt F) → (⟨S100000x128, .f32⟩ : BufTy).Contents (Elt F)),
    StableHlo.binary main_v70 main_v69 main_v71 (mulf : (⟨S100000x128, .f32⟩ : BufTy).Contents (Elt F) → (⟨S100000x128, .f32⟩ : BufTy).Contents (Elt F) → (⟨S100000x128, .f32⟩ : BufTy).Contents (Elt F)),
    StableHlo.binary main_v17 main_v71 main_v72 (addf : (⟨S100000x128, .f32⟩ : BufTy).Contents (Elt F) → (⟨S100000x128, .f32⟩ : BufTy).Contents (Elt F) → (⟨S100000x128, .f32⟩ : BufTy).Contents (Elt F)) ]

/-- The operations of @main's first window (the call unfolded). -/
@[reducible] def opsP0 : List (HloOp τ sig (Elt F)) :=
  [ StableHlo.unary main_arg2 main_v0 ((transpose S128x5 [1, 0] · transposes_S5x128_S128x5_1_0) : (⟨S5x128, .f32⟩ : BufTy).Contents (Elt F) → (⟨S128x5, .f32⟩ : BufTy).Contents (Elt F)),
    StableHlo.binary main_arg0 main_v0 main_v1 ((fun l r => Host.dotGeneral dot_S100000x128_S128x5_S100000x5_1_0_0_1_n_n none l r) : (⟨S100000x128, .f32⟩ : BufTy).Contents (Elt F) → (⟨S128x5, .f32⟩ : BufTy).Contents (Elt F) → (⟨S100000x5, .f32⟩ : BufTy).Contents (Elt F)),
    StableHlo.unary main_arg3 main_v2 (broadcastInDim S1x5 ![1] bcast_S5_S1x5_1 : (⟨S5, .f32⟩ : BufTy).Contents (Elt F) → (⟨S1x5, .f32⟩ : BufTy).Contents (Elt F)),
    StableHlo.unary main_v2 main_v3 (broadcastInDim S100000x5 ![0, 1] bcast_S1x5_S100000x5_0_1 : (⟨S1x5, .f32⟩ : BufTy).Contents (Elt F) → (⟨S100000x5, .f32⟩ : BufTy).Contents (Elt F)),
    StableHlo.binary main_v1 main_v3 main_v4 (addf : (⟨S100000x5, .f32⟩ : BufTy).Contents (Elt F) → (⟨S100000x5, .f32⟩ : BufTy).Contents (Elt F) → (⟨S100000x5, .f32⟩ : BufTy).Contents (Elt F)),
    StableHlo.nullary main_cst (constant S_ .f32 0xFF800000#32),
    StableHlo.binary main_v4 main_cst main_v5 ((fun x v => Host.reduce FloatOps.maximumf x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.nullary main_cst_0 (constant S_ .f32 0xFF800000#32),
    StableHlo.unary main_cst_0 main_v6 (broadcastInDim S100000 ![] bcast_S_S100000 : (⟨S_, .f32⟩ : BufTy).Contents (Elt F) → (⟨S100000, .f32⟩ : BufTy).Contents (Elt F)),
    StableHlo.binary main_v6 main_v5 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (broadcastInDim S100000x1 ![0] bcast_S100000_S100000x1_0 : (⟨S100000, .f32⟩ : BufTy).Contents (Elt F) → (⟨S100000x1, .f32⟩ : BufTy).Contents (Elt F)),
    StableHlo.unary main_v8 main_v9 (broadcastInDim S100000x5 ![0, 1] bcast_S100000x1_S100000x5_0_1 : (⟨S100000x1, .f32⟩ : BufTy).Contents (Elt F) → (⟨S100000x5, .f32⟩ : BufTy).Contents (Elt F)),
    StableHlo.binary main_v4 main_v9 main_v10 (subf : (⟨S100000x5, .f32⟩ : BufTy).Contents (Elt F) → (⟨S100000x5, .f32⟩ : BufTy).Contents (Elt F) → (⟨S100000x5, .f32⟩ : BufTy).Contents (Elt F)),
    StableHlo.unary main_v10 main_v11 (Host.exp : (⟨S100000x5, .f32⟩ : BufTy).Contents (Elt F) → (⟨S100000x5, .f32⟩ : BufTy).Contents (Elt F)),
    StableHlo.nullary main_cst_1 (constant S_ .f32 0x00000000#32),
    StableHlo.binary main_v11 main_cst_1 main_v12 ((fun x v => Host.reduceAdd x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x5 ![0, 1] bcast_S100000x1_S100000x5_0_1 : (⟨S100000x1, .f32⟩ : BufTy).Contents (Elt F) → (⟨S100000x5, .f32⟩ : BufTy).Contents (Elt F)),
    StableHlo.binary main_v11 main_v14 main_v15 (Host.divf : (⟨S100000x5, .f32⟩ : BufTy).Contents (Elt F) → (⟨S100000x5, .f32⟩ : BufTy).Contents (Elt F) → (⟨S100000x5, .f32⟩ : BufTy).Contents (Elt F)),
    StableHlo.binary main_v15 main_arg1 main_v16 ((fun l r => Host.dotGeneral dot_S100000x5_S5x128_S100000x128_1_0_0_1_n_n none l r) : (⟨S100000x5, .f32⟩ : BufTy).Contents (Elt F) → (⟨S5x128, .f32⟩ : BufTy).Contents (Elt F) → (⟨S100000x128, .f32⟩ : BufTy).Contents (Elt F)),
    StableHlo.binary main_arg0 main_v16 main_v17 (addf : (⟨S100000x128, .f32⟩ : BufTy).Contents (Elt F) → (⟨S100000x128, .f32⟩ : BufTy).Contents (Elt F) → (⟨S100000x128, .f32⟩ : BufTy).Contents (Elt F)),
    StableHlo.unary main_arg7 main_v18 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v18 main_v19 rfl shapeCasts_S1x600000_S600000,
    StableHlo.unary main_arg7 main_v20 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v20 main_v21 rfl shapeCasts_S1x600000_S600000,
    StableHlo.nullary main_c (constantI S_ 32 0#32),
    StableHlo.unary main_c main_v22 (broadcastInDim S600000 ![] bcast_S_S600000 : (⟨S_, .i32⟩ : BufTy).Contents (Elt F) → (⟨S600000, .i32⟩ : BufTy).Contents (Elt F)),
    StableHlo.binary main_v19 main_v22 main_v23 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v24 (broadcastInDim S600000 ![] bcast_S_S600000 : (⟨S_, .i32⟩ : BufTy).Contents (Elt F) → (⟨S600000, .i32⟩ : BufTy).Contents (Elt F)),
    StableHlo.binary main_v19 main_v24 main_v25 (addi : (⟨S600000, .i32⟩ : BufTy).Contents (Elt F) → (⟨S600000, .i32⟩ : BufTy).Contents (Elt F) → (⟨S600000, .i32⟩ : BufTy).Contents (Elt F)),
    StableHlo.ternary main_v23 main_v25 main_v19 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v26 main_v27 (broadcastInDim S600000x1 ![0] bcast_S600000_S600000x1_0 : (⟨S600000, .i32⟩ : BufTy).Contents (Elt F) → (⟨S600000x1, .i32⟩ : BufTy).Contents (Elt F)),
    StableHlo.binary main_arg0 main_v27 main_v28 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_3 (constantI S_ 32 0#32),
    StableHlo.unary main_c_3 main_v29 (broadcastInDim S600000 ![] bcast_S_S600000 : (⟨S_, .i32⟩ : BufTy).Contents (Elt F) → (⟨S600000, .i32⟩ : BufTy).Contents (Elt F)),
    StableHlo.binary main_v21 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v31 (broadcastInDim S600000 ![] bcast_S_S600000 : (⟨S_, .i32⟩ : BufTy).Contents (Elt F) → (⟨S600000, .i32⟩ : BufTy).Contents (Elt F)),
    StableHlo.binary main_v21 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v21 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_arg0 main_v34 main_v35 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v28 main_v35 main_v36 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.unary main_arg5 main_v37 ((transpose S256x5 [1, 0] · transposes_S5x256_S256x5_1_0) : (⟨S5x256, .f32⟩ : BufTy).Contents (Elt F) → (⟨S256x5, .f32⟩ : BufTy).Contents (Elt F)),
    StableHlo.binary main_v36 main_v37 main_v38 ((fun l r => Host.dotGeneral dot_S600000x256_S256x5_S600000x5_1_0_0_1_n_n none l r) : (⟨S600000x256, .f32⟩ : BufTy).Contents (Elt F) → (⟨S256x5, .f32⟩ : BufTy).Contents (Elt F) → (⟨S600000x5, .f32⟩ : BufTy).Contents (Elt F)),
    StableHlo.unary main_arg6 main_v39 (broadcastInDim S1x5 ![1] bcast_S5_S1x5_1 : (⟨S5, .f32⟩ : BufTy).Contents (Elt F) → (⟨S1x5, .f32⟩ : BufTy).Contents (Elt F)),
    StableHlo.unary main_v39 main_v40 (broadcastInDim S600000x5 ![0, 1] bcast_S1x5_S600000x5_0_1 : (⟨S1x5, .f32⟩ : BufTy).Contents (Elt F) → (⟨S600000x5, .f32⟩ : BufTy).Contents (Elt F)),
    StableHlo.binary main_v38 main_v40 main_v41 (addf : (⟨S600000x5, .f32⟩ : BufTy).Contents (Elt F) → (⟨S600000x5, .f32⟩ : BufTy).Contents (Elt F) → (⟨S600000x5, .f32⟩ : BufTy).Contents (Elt F)),
    StableHlo.nullary main_cst_5 (constant S_ .f32 0x3C23D70A#32),
    StableHlo.TRef.nullary main_call0.cst (constant S_ .f32 0x00000000#32),
    StableHlo.TRef.unary main_call0.cst main_call0.v0 (broadcastInDim S600000x5 ![] bcast_S_S600000x5),
    StableHlo.TRef.binary (.of main_v41) main_call0.v0 main_call0.v1 (cmpf .oge),
    StableHlo.TRef.unary (.of main_cst_5) main_call0.v2 id,
    StableHlo.TRef.unary main_call0.v2 main_call0.v3 (broadcastInDim S600000x5 ![] bcast_S_S600000x5),
    StableHlo.TRef.binary main_call0.v3 (.of main_v41) main_call0.v4 mulf,
    StableHlo.TRef.ternary main_call0.v1 (.of main_v41) main_call0.v4 main_call0.call0.v0 select,
    StableHlo.nullary main_cst_6 (constant S_ .f32 0xFF800000#32),
    StableHlo.binary main_v42 main_cst_6 main_v43 ((fun x v => Host.reduce FloatOps.maximumf x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.nullary main_cst_7 (constant S_ .f32 0xFF800000#32),
    StableHlo.unary main_cst_7 main_v44 (broadcastInDim S600000 ![] bcast_S_S600000 : (⟨S_, .f32⟩ : BufTy).Contents (Elt F) → (⟨S600000, .f32⟩ : BufTy).Contents (Elt F)),
    StableHlo.binary main_v44 main_v43 main_v45 (maximumf : (⟨S600000, .f32⟩ : BufTy).Contents (Elt F) → (⟨S600000, .f32⟩ : BufTy).Contents (Elt F) → (⟨S600000, .f32⟩ : BufTy).Contents (Elt F)),
    StableHlo.unary main_v45 main_v46 (broadcastInDim S600000x1 ![0] bcast_S600000_S600000x1_0 : (⟨S600000, .f32⟩ : BufTy).Contents (Elt F) → (⟨S600000x1, .f32⟩ : BufTy).Contents (Elt F)),
    StableHlo.unary main_v46 main_v47 (broadcastInDim S600000x5 ![0, 1] bcast_S600000x1_S600000x5_0_1 : (⟨S600000x1, .f32⟩ : BufTy).Contents (Elt F) → (⟨S600000x5, .f32⟩ : BufTy).Contents (Elt F)),
    StableHlo.binary main_v42 main_v47 main_v48 (subf : (⟨S600000x5, .f32⟩ : BufTy).Contents (Elt F) → (⟨S600000x5, .f32⟩ : BufTy).Contents (Elt F) → (⟨S600000x5, .f32⟩ : BufTy).Contents (Elt F)),
    StableHlo.unary main_v48 main_v49 (Host.exp : (⟨S600000x5, .f32⟩ : BufTy).Contents (Elt F) → (⟨S600000x5, .f32⟩ : BufTy).Contents (Elt F)) ]

/-- The operations of @main's second window. -/
@[reducible] def opsP1 : List (HloOp τ sig (Elt F)) :=
  [ StableHlo.nullary main_cst_8 (constant S_ .f32 0x00000000#32),
    StableHlo.binary main_v49 main_cst_8 main_v50 ((fun x v => Host.reduceAdd x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.unary main_v50 main_v51 (broadcastInDim S600000x1 ![0] bcast_S600000_S600000x1_0 : (⟨S600000, .f32⟩ : BufTy).Contents (Elt F) → (⟨S600000x1, .f32⟩ : BufTy).Contents (Elt F)),
    StableHlo.unary main_v51 main_v52 (broadcastInDim S600000x5 ![0, 1] bcast_S600000x1_S600000x5_0_1 : (⟨S600000x1, .f32⟩ : BufTy).Contents (Elt F) → (⟨S600000x5, .f32⟩ : BufTy).Contents (Elt F)),
    StableHlo.binary main_v49 main_v52 main_v53 (Host.divf : (⟨S600000x5, .f32⟩ : BufTy).Contents (Elt F) → (⟨S600000x5, .f32⟩ : BufTy).Contents (Elt F) → (⟨S600000x5, .f32⟩ : BufTy).Contents (Elt F)),
    StableHlo.binary main_v53 main_arg4 main_v54 ((fun l r => Host.dotGeneral dot_S600000x5_S5x128_S600000x128_1_0_0_1_n_n none l r) : (⟨S600000x5, .f32⟩ : BufTy).Contents (Elt F) → (⟨S5x128, .f32⟩ : BufTy).Contents (Elt F) → (⟨S600000x128, .f32⟩ : BufTy).Contents (Elt F)),
    StableHlo.nullary main_cst_9 (constant S_ .f32 0x00000000#32),
    StableHlo.unary main_cst_9 main_v55 (broadcastInDim S100000x128 ![] bcast_S_S100000x128 : (⟨S_, .f32⟩ : BufTy).Contents (Elt F) → (⟨S100000x128, .f32⟩ : BufTy).Contents (Elt F)),
    StableHlo.nullary main_c_10 (constantI S_ 32 0#32),
    StableHlo.unary main_c_10 main_v56 (broadcastInDim S600000 ![] bcast_S_S600000 : (⟨S_, .i32⟩ : BufTy).Contents (Elt F) → (⟨S600000, .i32⟩ : BufTy).Contents (Elt F)),
    StableHlo.binary main_v19 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v58 (broadcastInDim S600000 ![] bcast_S_S600000 : (⟨S_, .i32⟩ : BufTy).Contents (Elt F) → (⟨S600000, .i32⟩ : BufTy).Contents (Elt F)),
    StableHlo.binary main_v19 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v19 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.ternary main_v55 main_v61 main_v54 main_v62 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_c_12 (constantI S_ 32 0#32),
    StableHlo.unary main_c_12 main_v63 (broadcastInDim S600000 ![] bcast_S_S600000 : (⟨S_, .i32⟩ : BufTy).Contents (Elt F) → (⟨S600000, .i32⟩ : BufTy).Contents (Elt F)),
    StableHlo.binary main_v21 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v65 (broadcastInDim S600000 ![] bcast_S_S600000 : (⟨S_, .i32⟩ : BufTy).Contents (Elt F) → (⟨S600000, .i32⟩ : BufTy).Contents (Elt F)),
    StableHlo.binary main_v21 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_v21 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.ternary main_v62 main_v68 main_v54 main_v69 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_14 (constant S_ .f32 0x3F000000#32),
    StableHlo.unary main_cst_14 main_v70 (broadcastInDim S100000x128 ![] bcast_S_S100000x128 : (⟨S_, .f32⟩ : BufTy).Contents (Elt F) → (⟨S100000x128, .f32⟩ : BufTy).Contents (Elt F)),
    StableHlo.binary main_v70 main_v69 main_v71 (mulf : (⟨S100000x128, .f32⟩ : BufTy).Contents (Elt F) → (⟨S100000x128, .f32⟩ : BufTy).Contents (Elt F) → (⟨S100000x128, .f32⟩ : BufTy).Contents (Elt F)),
    StableHlo.binary main_v17 main_v71 main_v72 (addf : (⟨S100000x128, .f32⟩ : BufTy).Contents (Elt F) → (⟨S100000x128, .f32⟩ : BufTy).Contents (Elt F) → (⟨S100000x128, .f32⟩ : BufTy).Contents (Elt F)) ]

/-- The first twenty-one: the node scores, their softmax, the mixture of node anchors, the shifted array. -/
@[reducible] def opsA : List (HloOp τ sig (Elt F)) :=
  [ StableHlo.unary main_arg2 main_v0 ((transpose S128x5 [1, 0] · transposes_S5x128_S128x5_1_0) : (⟨S5x128, .f32⟩ : BufTy).Contents (Elt F) → (⟨S128x5, .f32⟩ : BufTy).Contents (Elt F)),
    StableHlo.binary main_arg0 main_v0 main_v1 ((fun l r => Host.dotGeneral dot_S100000x128_S128x5_S100000x5_1_0_0_1_n_n none l r) : (⟨S100000x128, .f32⟩ : BufTy).Contents (Elt F) → (⟨S128x5, .f32⟩ : BufTy).Contents (Elt F) → (⟨S100000x5, .f32⟩ : BufTy).Contents (Elt F)),
    StableHlo.unary main_arg3 main_v2 (broadcastInDim S1x5 ![1] bcast_S5_S1x5_1 : (⟨S5, .f32⟩ : BufTy).Contents (Elt F) → (⟨S1x5, .f32⟩ : BufTy).Contents (Elt F)),
    StableHlo.unary main_v2 main_v3 (broadcastInDim S100000x5 ![0, 1] bcast_S1x5_S100000x5_0_1 : (⟨S1x5, .f32⟩ : BufTy).Contents (Elt F) → (⟨S100000x5, .f32⟩ : BufTy).Contents (Elt F)),
    StableHlo.binary main_v1 main_v3 main_v4 (addf : (⟨S100000x5, .f32⟩ : BufTy).Contents (Elt F) → (⟨S100000x5, .f32⟩ : BufTy).Contents (Elt F) → (⟨S100000x5, .f32⟩ : BufTy).Contents (Elt F)),
    StableHlo.nullary main_cst (constant S_ .f32 0xFF800000#32),
    StableHlo.binary main_v4 main_cst main_v5 ((fun x v => Host.reduce FloatOps.maximumf x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.nullary main_cst_0 (constant S_ .f32 0xFF800000#32),
    StableHlo.unary main_cst_0 main_v6 (broadcastInDim S100000 ![] bcast_S_S100000 : (⟨S_, .f32⟩ : BufTy).Contents (Elt F) → (⟨S100000, .f32⟩ : BufTy).Contents (Elt F)),
    StableHlo.binary main_v6 main_v5 main_v7 (maximumf : (⟨S100000, .f32⟩ : BufTy).Contents (Elt F) → (⟨S100000, .f32⟩ : BufTy).Contents (Elt F) → (⟨S100000, .f32⟩ : BufTy).Contents (Elt F)),
    StableHlo.unary main_v7 main_v8 (broadcastInDim S100000x1 ![0] bcast_S100000_S100000x1_0 : (⟨S100000, .f32⟩ : BufTy).Contents (Elt F) → (⟨S100000x1, .f32⟩ : BufTy).Contents (Elt F)),
    StableHlo.unary main_v8 main_v9 (broadcastInDim S100000x5 ![0, 1] bcast_S100000x1_S100000x5_0_1 : (⟨S100000x1, .f32⟩ : BufTy).Contents (Elt F) → (⟨S100000x5, .f32⟩ : BufTy).Contents (Elt F)),
    StableHlo.binary main_v4 main_v9 main_v10 (subf : (⟨S100000x5, .f32⟩ : BufTy).Contents (Elt F) → (⟨S100000x5, .f32⟩ : BufTy).Contents (Elt F) → (⟨S100000x5, .f32⟩ : BufTy).Contents (Elt F)),
    StableHlo.unary main_v10 main_v11 (Host.exp : (⟨S100000x5, .f32⟩ : BufTy).Contents (Elt F) → (⟨S100000x5, .f32⟩ : BufTy).Contents (Elt F)),
    StableHlo.nullary main_cst_1 (constant S_ .f32 0x00000000#32),
    StableHlo.binary main_v11 main_cst_1 main_v12 ((fun x v => Host.reduceAdd x v reducesTo_S100000x5_S100000_d1 h_S_) : (⟨S100000x5, .f32⟩ : BufTy).Contents (Elt F) → (⟨S_, .f32⟩ : BufTy).Contents (Elt F) → (⟨S100000, .f32⟩ : BufTy).Contents (Elt F)),
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x5 ![0, 1] bcast_S100000x1_S100000x5_0_1 : (⟨S100000x1, .f32⟩ : BufTy).Contents (Elt F) → (⟨S100000x5, .f32⟩ : BufTy).Contents (Elt F)),
    StableHlo.binary main_v11 main_v14 main_v15 (Host.divf : (⟨S100000x5, .f32⟩ : BufTy).Contents (Elt F) → (⟨S100000x5, .f32⟩ : BufTy).Contents (Elt F) → (⟨S100000x5, .f32⟩ : BufTy).Contents (Elt F)),
    StableHlo.binary main_v15 main_arg1 main_v16 ((fun l r => Host.dotGeneral dot_S100000x5_S5x128_S100000x128_1_0_0_1_n_n none l r) : (⟨S100000x5, .f32⟩ : BufTy).Contents (Elt F) → (⟨S5x128, .f32⟩ : BufTy).Contents (Elt F) → (⟨S100000x128, .f32⟩ : BufTy).Contents (Elt F)),
    StableHlo.binary main_arg0 main_v16 main_v17 (addf : (⟨S100000x128, .f32⟩ : BufTy).Contents (Elt F) → (⟨S100000x128, .f32⟩ : BufTy).Contents (Elt F) → (⟨S100000x128, .f32⟩ : BufTy).Contents (Elt F)) ]

/-- The next twenty-eight: the two endpoint columns, the two gathers, the side-by-side rows and the edge scores. -/
@[reducible] def opsB : List (HloOp τ sig (Elt F)) :=
  [ StableHlo.unary main_arg7 main_v18 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v18 main_v19 rfl shapeCasts_S1x600000_S600000,
    StableHlo.unary main_arg7 main_v20 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v20 main_v21 rfl shapeCasts_S1x600000_S600000,
    StableHlo.nullary main_c (constantI S_ 32 0#32),
    StableHlo.unary main_c main_v22 (broadcastInDim S600000 ![] bcast_S_S600000 : (⟨S_, .i32⟩ : BufTy).Contents (Elt F) → (⟨S600000, .i32⟩ : BufTy).Contents (Elt F)),
    StableHlo.binary main_v19 main_v22 main_v23 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v24 (broadcastInDim S600000 ![] bcast_S_S600000 : (⟨S_, .i32⟩ : BufTy).Contents (Elt F) → (⟨S600000, .i32⟩ : BufTy).Contents (Elt F)),
    StableHlo.binary main_v19 main_v24 main_v25 (addi : (⟨S600000, .i32⟩ : BufTy).Contents (Elt F) → (⟨S600000, .i32⟩ : BufTy).Contents (Elt F) → (⟨S600000, .i32⟩ : BufTy).Contents (Elt F)),
    StableHlo.ternary main_v23 main_v25 main_v19 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v26 main_v27 (broadcastInDim S600000x1 ![0] bcast_S600000_S600000x1_0 : (⟨S600000, .i32⟩ : BufTy).Contents (Elt F) → (⟨S600000x1, .i32⟩ : BufTy).Contents (Elt F)),
    StableHlo.binary main_arg0 main_v27 main_v28 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_3 (constantI S_ 32 0#32),
    StableHlo.unary main_c_3 main_v29 (broadcastInDim S600000 ![] bcast_S_S600000 : (⟨S_, .i32⟩ : BufTy).Contents (Elt F) → (⟨S600000, .i32⟩ : BufTy).Contents (Elt F)),
    StableHlo.binary main_v21 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v31 (broadcastInDim S600000 ![] bcast_S_S600000 : (⟨S_, .i32⟩ : BufTy).Contents (Elt F) → (⟨S600000, .i32⟩ : BufTy).Contents (Elt F)),
    StableHlo.binary main_v21 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_v21 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_arg0 main_v34 main_v35 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v28 main_v35 main_v36 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.unary main_arg5 main_v37 ((transpose S256x5 [1, 0] · transposes_S5x256_S256x5_1_0) : (⟨S5x256, .f32⟩ : BufTy).Contents (Elt F) → (⟨S256x5, .f32⟩ : BufTy).Contents (Elt F)),
    StableHlo.binary main_v36 main_v37 main_v38 ((fun l r => Host.dotGeneral dot_S600000x256_S256x5_S600000x5_1_0_0_1_n_n none l r) : (⟨S600000x256, .f32⟩ : BufTy).Contents (Elt F) → (⟨S256x5, .f32⟩ : BufTy).Contents (Elt F) → (⟨S600000x5, .f32⟩ : BufTy).Contents (Elt F)),
    StableHlo.unary main_arg6 main_v39 (broadcastInDim S1x5 ![1] bcast_S5_S1x5_1 : (⟨S5, .f32⟩ : BufTy).Contents (Elt F) → (⟨S1x5, .f32⟩ : BufTy).Contents (Elt F)),
    StableHlo.unary main_v39 main_v40 (broadcastInDim S600000x5 ![0, 1] bcast_S1x5_S600000x5_0_1 : (⟨S1x5, .f32⟩ : BufTy).Contents (Elt F) → (⟨S600000x5, .f32⟩ : BufTy).Contents (Elt F)),
    StableHlo.binary main_v38 main_v40 main_v41 (addf : (⟨S600000x5, .f32⟩ : BufTy).Contents (Elt F) → (⟨S600000x5, .f32⟩ : BufTy).Contents (Elt F) → (⟨S600000x5, .f32⟩ : BufTy).Contents (Elt F)) ]

/-- The next twenty-three: the slope, the leaky rectifier, the softmax of its values and the mixture of edge anchors. -/
@[reducible] def opsC : List (HloOp τ sig (Elt F)) :=
  [ StableHlo.nullary main_cst_5 (constant S_ .f32 0x3C23D70A#32),
    StableHlo.TRef.nullary main_call0.cst (constant S_ .f32 0x00000000#32),
    StableHlo.TRef.unary main_call0.cst main_call0.v0 (broadcastInDim S600000x5 ![] bcast_S_S600000x5),
    StableHlo.TRef.binary (.of main_v41) main_call0.v0 main_call0.v1 (cmpf .oge),
    StableHlo.TRef.unary (.of main_cst_5) main_call0.v2 id,
    StableHlo.TRef.unary main_call0.v2 main_call0.v3 (broadcastInDim S600000x5 ![] bcast_S_S600000x5),
    StableHlo.TRef.binary main_call0.v3 (.of main_v41) main_call0.v4 mulf,
    StableHlo.TRef.ternary main_call0.v1 (.of main_v41) main_call0.v4 main_call0.call0.v0 select,
    StableHlo.nullary main_cst_6 (constant S_ .f32 0xFF800000#32),
    StableHlo.binary main_v42 main_cst_6 main_v43 ((fun x v => Host.reduce FloatOps.maximumf x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.nullary main_cst_7 (constant S_ .f32 0xFF800000#32),
    StableHlo.unary main_cst_7 main_v44 (broadcastInDim S600000 ![] bcast_S_S600000 : (⟨S_, .f32⟩ : BufTy).Contents (Elt F) → (⟨S600000, .f32⟩ : BufTy).Contents (Elt F)),
    StableHlo.binary main_v44 main_v43 main_v45 (maximumf : (⟨S600000, .f32⟩ : BufTy).Contents (Elt F) → (⟨S600000, .f32⟩ : BufTy).Contents (Elt F) → (⟨S600000, .f32⟩ : BufTy).Contents (Elt F)),
    StableHlo.unary main_v45 main_v46 (broadcastInDim S600000x1 ![0] bcast_S600000_S600000x1_0 : (⟨S600000, .f32⟩ : BufTy).Contents (Elt F) → (⟨S600000x1, .f32⟩ : BufTy).Contents (Elt F)),
    StableHlo.unary main_v46 main_v47 (broadcastInDim S600000x5 ![0, 1] bcast_S600000x1_S600000x5_0_1 : (⟨S600000x1, .f32⟩ : BufTy).Contents (Elt F) → (⟨S600000x5, .f32⟩ : BufTy).Contents (Elt F)),
    StableHlo.binary main_v42 main_v47 main_v48 (subf : (⟨S600000x5, .f32⟩ : BufTy).Contents (Elt F) → (⟨S600000x5, .f32⟩ : BufTy).Contents (Elt F) → (⟨S600000x5, .f32⟩ : BufTy).Contents (Elt F)),
    StableHlo.unary main_v48 main_v49 (Host.exp : (⟨S600000x5, .f32⟩ : BufTy).Contents (Elt F) → (⟨S600000x5, .f32⟩ : BufTy).Contents (Elt F)),
    StableHlo.nullary main_cst_8 (constant S_ .f32 0x00000000#32),
    StableHlo.binary main_v49 main_cst_8 main_v50 ((fun x v => Host.reduceAdd x v reducesTo_S600000x5_S600000_d1 h_S_) : (⟨S600000x5, .f32⟩ : BufTy).Contents (Elt F) → (⟨S_, .f32⟩ : BufTy).Contents (Elt F) → (⟨S600000, .f32⟩ : BufTy).Contents (Elt F)),
    StableHlo.unary main_v50 main_v51 (broadcastInDim S600000x1 ![0] bcast_S600000_S600000x1_0 : (⟨S600000, .f32⟩ : BufTy).Contents (Elt F) → (⟨S600000x1, .f32⟩ : BufTy).Contents (Elt F)),
    StableHlo.unary main_v51 main_v52 (broadcastInDim S600000x5 ![0, 1] bcast_S600000x1_S600000x5_0_1 : (⟨S600000x1, .f32⟩ : BufTy).Contents (Elt F) → (⟨S600000x5, .f32⟩ : BufTy).Contents (Elt F)),
    StableHlo.binary main_v49 main_v52 main_v53 (Host.divf : (⟨S600000x5, .f32⟩ : BufTy).Contents (Elt F) → (⟨S600000x5, .f32⟩ : BufTy).Contents (Elt F) → (⟨S600000x5, .f32⟩ : BufTy).Contents (Elt F)),
    StableHlo.binary main_v53 main_arg4 main_v54 ((fun l r => Host.dotGeneral dot_S600000x5_S5x128_S600000x128_1_0_0_1_n_n none l r) : (⟨S600000x5, .f32⟩ : BufTy).Contents (Elt F) → (⟨S5x128, .f32⟩ : BufTy).Contents (Elt F) → (⟨S600000x128, .f32⟩ : BufTy).Contents (Elt F)) ]

/-- The last twenty-four: the zero array, the two additions per node, the halving and the final sum. -/
@[reducible] def opsD : List (HloOp τ sig (Elt F)) :=
  [ StableHlo.nullary main_cst_9 (constant S_ .f32 0x00000000#32),
    StableHlo.unary main_cst_9 main_v55 (broadcastInDim S100000x128 ![] bcast_S_S100000x128 : (⟨S_, .f32⟩ : BufTy).Contents (Elt F) → (⟨S100000x128, .f32⟩ : BufTy).Contents (Elt F)),
    StableHlo.nullary main_c_10 (constantI S_ 32 0#32),
    StableHlo.unary main_c_10 main_v56 (broadcastInDim S600000 ![] bcast_S_S600000 : (⟨S_, .i32⟩ : BufTy).Contents (Elt F) → (⟨S600000, .i32⟩ : BufTy).Contents (Elt F)),
    StableHlo.binary main_v19 main_v56 main_v57 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 100000#32),
    StableHlo.unary main_c_11 main_v58 (broadcastInDim S600000 ![] bcast_S_S600000 : (⟨S_, .i32⟩ : BufTy).Contents (Elt F) → (⟨S600000, .i32⟩ : BufTy).Contents (Elt F)),
    StableHlo.binary main_v19 main_v58 main_v59 (addi : (⟨S600000, .i32⟩ : BufTy).Contents (Elt F) → (⟨S600000, .i32⟩ : BufTy).Contents (Elt F) → (⟨S600000, .i32⟩ : BufTy).Contents (Elt F)),
    StableHlo.ternary main_v57 main_v59 main_v19 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v60 main_v61 (broadcastInDim S600000x1 ![0] bcast_S600000_S600000x1_0 : (⟨S600000, .i32⟩ : BufTy).Contents (Elt F) → (⟨S600000x1, .i32⟩ : BufTy).Contents (Elt F)),
    StableHlo.ternary main_v55 main_v61 main_v54 main_v62 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_c_12 (constantI S_ 32 0#32),
    StableHlo.unary main_c_12 main_v63 (broadcastInDim S600000 ![] bcast_S_S600000 : (⟨S_, .i32⟩ : BufTy).Contents (Elt F) → (⟨S600000, .i32⟩ : BufTy).Contents (Elt F)),
    StableHlo.binary main_v21 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 100000#32),
    StableHlo.unary main_c_13 main_v65 (broadcastInDim S600000 ![] bcast_S_S600000 : (⟨S_, .i32⟩ : BufTy).Contents (Elt F) → (⟨S600000, .i32⟩ : BufTy).Contents (Elt F)),
    StableHlo.binary main_v21 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_v21 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.ternary main_v62 main_v68 main_v54 main_v69 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_14 (constant S_ .f32 0x3F000000#32),
    StableHlo.unary main_cst_14 main_v70 (broadcastInDim S100000x128 ![] bcast_S_S100000x128 : (⟨S_, .f32⟩ : BufTy).Contents (Elt F) → (⟨S100000x128, .f32⟩ : BufTy).Contents (Elt F)),
    StableHlo.binary main_v70 main_v69 main_v71 (mulf : (⟨S100000x128, .f32⟩ : BufTy).Contents (Elt F) → (⟨S100000x128, .f32⟩ : BufTy).Contents (Elt F) → (⟨S100000x128, .f32⟩ : BufTy).Contents (Elt F)),
    StableHlo.binary main_v17 main_v71 main_v72 (addf : (⟨S100000x128, .f32⟩ : BufTy).Contents (Elt F) → (⟨S100000x128, .f32⟩ : BufTy).Contents (Elt F) → (⟨S100000x128, .f32⟩ : BufTy).Contents (Elt F)) ]

/-- The whole line is the four stretches in order. -/
theorem ops_eq : (ops : List (HloOp τ sig (Elt F))) = opsA ++ (opsB ++ (opsC ++ opsD)) := rfl

/-- The whole line is the two windows in order. -/
theorem ops_windows : (ops : List (HloOp τ sig (Elt F))) = opsP0 ++ opsP1 := rfl

/-- The fold over the whole line is the four folds in turn. -/
theorem after_ops (V : Valuation τ sig (Elt F)) :
    after ops V = after opsD (after opsC (after opsB (after opsA V))) := by
  rw [ops_eq, StableHlo.after_append, StableHlo.after_append, StableHlo.after_append]

set_option maxRecDepth 16384 in
set_option maxHeartbeats 4000000 in
/-- The first window is its line: the functions' bodies unfolded at the call, both sides compute to the same chain
    of steps. -/
theorem part0_eq (c : Dev nD) : main_part0 (F := F) c = seq opsP0 := by
  unfold main_part0 fn_leaky_relu.body fn_where.body
  rfl

set_option maxRecDepth 16384 in
set_option maxHeartbeats 4000000 in
/-- The second window is its line. -/
theorem part1_eq (c : Dev nD) : main_part1 (F := F) c = seq opsP1 := by
  unfold main_part1
  rfl

/-- @main is the straight line: its two windows in order. -/
theorem main_eq (c : Dev nD) : main (F := F) c = seq ops := by
  rw [ops_windows, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub ..⟩

/-- On the one device, for any float values, from any memory with zero counters: every weakly fair execution of
    @main terminates, and every final state has each buffer at the operations' fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefDefs.lean ====
import proofs.«116679_j34248069218341_2_alg».proof.Proof.Gen.ReferenceIdeal
import proofs.«116679_j34248069218341_2_alg».proof.Proof.Spec

/-!
The arrays the reference program forms, as functions of the arrays they are formed from.

Each definition spells one group of the program's host operations exactly as the program applies them, with the
program's own shape facts: the row-wise softmax in the host's spelling (`hSoftmax`, over the column of row maxima
`hMaxCol`), the node scores and the shifted node array (`hNodeScore`, `hShifted`), a row of the edge list and the
column of wrapped start indices made of it (`edgeRow`, `colOf`; `srcCol`, `dstCol`), the edge scores over two
columns of start indices (`hScores`), the leaky rectifier (`hLeaky`), the edge mixtures (`hEdgeMix`), the two
additions per node with the halving and the final sum (`hFinal`), and the whole result (`refOut`).
-/

noncomputable section

namespace Cert.ReferenceIdeal.Hand

open Cert.ReferenceIdeal Cert.ReferenceIdeal.Gen Idealize.ShloMosaic

variable {F : FTy → Type} [FloatOps F]

/-! ## The arrays on the way, as functions -/

/-- The column of row maxima (from −∞) of an a×b array spread back over the b columns, in the host's spelling. -/
def hMaxCol {a b : Nat} (z : FVec F ⟨2, ![a, b]⟩ .f32)
    (h' : (⟨2, ![a, b]⟩ : Shape).ReducesTo [1] (⟨1, ![a]⟩ : Shape)) (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) : FVec F ⟨2, ![a, b]⟩ .f32 :=
  broadcastInDim ⟨2, ![a, b]⟩ (![0, 1] : Fin 2 → Fin 2) g2 (broadcastInDim ⟨2, ![a, 1]⟩ (![0] : Fin 1 → Fin 2) g1
    (maximumf (broadcastInDim ⟨1, ![a]⟩ (![] : Fin 0 → Fin 1) g0 (constant (F := F) (⟨0, ![]⟩ : Shape) .f32 0xFF800000#32))
      (Host.reduce FloatOps.maximumf z (constant (F := F) (⟨0, ![]⟩ : Shape) .f32 0xFF800000#32) h' hu)))

/-- The row-wise softmax of an a×b array in the host's spelling. -/
def hSoftmax {a b : Nat} (z : FVec F ⟨2, ![a, b]⟩ .f32)
    (h' : (⟨2, ![a, b]⟩ : Shape).ReducesTo [1] (⟨1, ![a]⟩ : Shape)) (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) : FVec F ⟨2, ![a, b]⟩ .f32 :=
  Host.divf (Host.exp (subf z (hMaxCol z h' hu g0 g1 g2)))
    (broadcastInDim ⟨2, ![a, b]⟩ (![0, 1] : Fin 2 → Fin 2) g2 (broadcastInDim ⟨2, ![a, 1]⟩ (![0] : Fin 1 → Fin 2) g1
      (Host.reduceAdd (Host.exp (subf z (hMaxCol z h' hu g0 g1 g2))) (constant (F := F) (⟨0, ![]⟩ : Shape) .f32 0x00000000#32) h' hu)))

/-- The node scores: the rows times the transposed attention weights, plus the bias over the rows. -/
def hNodeScore (x : FVec F S100000x128 .f32) (attW : FVec F S5x128 .f32) (attB : FVec F S5 .f32) : FVec F S100000x5 .f32 :=
  addf (Host.dotGeneral dot_S100000x128_S128x5_S100000x5_1_0_0_1_n_n none x (transpose S128x5 [1, 0] attW transposes_S5x128_S128x5_1_0))
    (broadcastInDim S100000x5 ![0, 1] bcast_S1x5_S100000x5_0_1 (broadcastInDim S1x5 ![1] bcast_S5_S1x5_1 attB))

/-- The shifted node array: the rows plus the softmax mixture of the node anchors. -/
def hShifted (x : FVec F S100000x128 .f32) (anN attW : FVec F S5x128 .f32) (attB : FVec F S5 .f32) : FVec F S100000x128 .f32 :=
  addf x (Host.dotGeneral dot_S100000x5_S5x128_S100000x128_1_0_0_1_n_n none
    (hSoftmax (hNodeScore x attW attB) reducesTo_S100000x5_S100000_d1 h_S_ bcast_S_S100000 bcast_S100000_S100000x1_0
      bcast_S100000x1_S100000x5_0_1) anN)

/-- One row of the edge list as a vector. -/
def edgeRow (ei : IVec S2x600000 32) (off : Fin 2 → Nat) (hs : S2x600000.Slices off S1x600000) : IVec S600000 32 :=
  shapeCast S600000 (extractStridedSlice S1x600000 off ei hs) shapeCasts_S1x600000_S600000

/-- A vector of signed start indices, the negative ones counted from the end of the 100000 rows, as a column. -/
def colOf (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 100000#32))) r)

/-- The column of wrapped source indices of the edge list. -/
def srcCol (ei : IVec S2x600000 32) : IVec S600000x1 32 :=
  Cert.Prompt.endpointCol ei ![0, 0] slices_S2x600000_S1x600000_0_0 shapeCasts_S1x600000_S600000 bcast_S_S600000 bcast_S600000_S600000x1_0
/-- The column of wrapped destination indices of the edge list. -/
def dstCol (ei : IVec S2x600000 32) : IVec S600000x1 32 :=
  Cert.Prompt.endpointCol ei ![1, 0] slices_S2x600000_S1x600000_1_0 shapeCasts_S1x600000_S600000 bcast_S_S600000 bcast_S600000_S600000x1_0

theorem colOf_src (ei : IVec S2x600000 32) : colOf (edgeRow ei ![0, 0] slices_S2x600000_S1x600000_0_0) = srcCol ei := rfl
theorem colOf_dst (ei : IVec S2x600000 32) : colOf (edgeRow ei ![1, 0] slices_S2x600000_S1x600000_1_0) = dstCol ei := rfl

/-- The edge scores: the two gathered endpoint rows side by side times the transposed edge weights, plus the bias. -/
def hScores (x : FVec F S100000x128 .f32) (eW : FVec F S5x256 .f32) (eB : FVec F S5 .f32) (sI dI : IVec S600000x1 32) :
    FVec F S600000x5 .f32 :=
  addf (Host.dotGeneral dot_S600000x256_S256x5_S600000x5_1_0_0_1_n_n none
      (concatenate S600000x256 1
        [⟨S600000x128, Host.gather gather_S100000x128_S600000x1_S600000x128_1_0_n_n_0_1_1128 x sI⟩,
         ⟨S600000x128, Host.gather gather_S100000x128_S600000x1_S600000x128_1_0_n_n_0_1_1128 x dI⟩]
        concatenates_S600000x128_S600000x128_S600000x256_d1)
      (transpose S256x5 [1, 0] eW transposes_S5x256_S256x5_1_0))
    (broadcastInDim S600000x5 ![0, 1] bcast_S1x5_S600000x5_0_1 (broadcastInDim S1x5 ![1] bcast_S5_S1x5_1 eB))

/-- The leaky rectifier of an array: where an entry is at least zero the entry, elsewhere the slope times it. -/
def hLeaky (z : FVec F S600000x5 .f32) : FVec F S600000x5 .f32 :=
  select (cmpf .oge z (broadcastInDim S600000x5 ![] bcast_S_S600000x5 (constant (F := F) S_ .f32 0x00000000#32))) z
    (mulf (broadcastInDim S600000x5 ![] bcast_S_S600000x5 (constant (F := F) S_ .f32 0x3C23D70A#32)) z)

/-- The edge mixtures: the softmax of the rectified scores times the edge anchors. -/
def hEdgeMix (z : FVec F S600000x5 .f32) (anE : FVec F S5x128 .f32) : FVec F S600000x128 .f32 :=
  Host.dotGeneral dot_S600000x5_S5x128_S600000x128_1_0_0_1_n_n none
    (hSoftmax (hLeaky z) reducesTo_S600000x5_S600000_d1 h_S_ bcast_S_S600000 bcast_S600000_S600000x1_0
      bcast_S600000x1_S600000x5_0_1) anE

/-- The result from the shifted array, the two columns of start indices and the edge mixtures: the mixtures added per
    node at the sources and then at the destinations, from zero; one half of that, added to the shifted array. -/
def hFinal (s : FVec F S100000x128 .f32) (sI dI : IVec S600000x1 32) (u : FVec F S600000x128 .f32) : FVec F S100000x128 .f32 :=
  addf s (mulf (broadcastInDim S100000x128 ![] bcast_S_S100000x128 (constant (F := F) S_ .f32 0x3F000000#32))
    (Host.scatterAdd scatter_S100000x128_S600000x1_S600000x128_1_0_0_1
      (Host.scatterAdd scatter_S100000x128_S600000x1_S600000x128_1_0_0_1
        (broadcastInDim S100000x128 ![] bcast_S_S100000x128 (constant (F := F) S_ .f32 0x00000000#32)) sI u)
      dI u))

/-- The result as a function of the seven float arguments and the two columns of start indices. -/
def refOut (x : FVec F S100000x128 .f32) (anN attW : FVec F S5x128 .f32) (attB : FVec F S5 .f32) (anE : FVec F S5x128 .f32)
    (eW : FVec F S5x256 .f32) (eB : FVec F S5 .f32) (sI dI : IVec S600000x1 32) : FVec F S100000x128 .f32 :=
  hFinal (hShifted x anN attW attB) sI dI (hEdgeMix (hScores x eW eB sI dI) anE)

end Cert.ReferenceIdeal.Hand

end
-- ==== Proof.RefRead.lean ====
import proofs.«116679_j34248069218341_2_alg».proof.Proof.RefRun
import proofs.«116679_j34248069218341_2_alg».proof.Proof.RefDefs

/-!
The reference program's buffers after its run, as functions of its arguments.

Each of the four stretches of the line of operations is read back, from an arbitrary starting valuation, as one of
the named array functions applied to the buffers the stretch reads; a buffer a stretch does not write keeps its
contents.  The four readings compose: after the whole line the result buffer holds `refOut` of the seven float
arguments and the two columns of wrapped start indices made of the edge list (`val_out`), and the eight arguments'
own buffers are written by no operation (`val_arg0 … val_arg7`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The four stretches read back from any valuation -/

attribute [local irreducible] Host.reduce Host.reduceAdd Host.gather Host.scatterAdd

/-- After the first stretch the shifted array's buffer holds `hShifted` of the four arguments it reads. -/
theorem A_v17 (W : Valuation τ sig (Elt F)) : after opsA W (main_v17 : DevRef τ sig)
    = hShifted (W (main_arg0 : DevRef τ sig)) (W (main_arg1 : DevRef τ sig)) (W (main_arg2 : DevRef τ sig)) (W (main_arg3 : DevRef τ sig)) := by
  after_results_simp
  rfl

theorem A_arg0 (W : Valuation τ sig (Elt F)) : after opsA W (main_arg0 : DevRef τ sig) = W (main_arg0 : DevRef τ sig) := by
  after_results_simp

theorem A_arg4 (W : Valuation τ sig (Elt F)) : after opsA W (main_arg4 : DevRef τ sig) = W (main_arg4 : DevRef τ sig) := by
  after_results_simp

theorem A_arg5 (W : Valuation τ sig (Elt F)) : after opsA W (main_arg5 : DevRef τ sig) = W (main_arg5 : DevRef τ sig) := by
  after_results_simp

theorem A_arg6 (W : Valuation τ sig (Elt F)) : after opsA W (main_arg6 : DevRef τ sig) = W (main_arg6 : DevRef τ sig) := by
  after_results_simp

theorem A_arg7 (W : Valuation τ sig (Elt F)) : after opsA W (main_arg7 : DevRef τ sig) = W (main_arg7 : DevRef τ sig) := by
  after_results_simp

/-- After the second stretch: the edge scores, over the two columns made of the edge list's rows. -/
theorem B_v41 (W : Valuation τ sig (Elt F)) : after opsB W (main_v41 : DevRef τ sig)
    = hScores (W (main_arg0 : DevRef τ sig)) (W (main_arg5 : DevRef τ sig)) (W (main_arg6 : DevRef τ sig))
        (colOf (edgeRow (W (main_arg7 : DevRef τ sig)) ![0, 0] slices_S2x600000_S1x600000_0_0))
        (colOf (edgeRow (W (main_arg7 : DevRef τ sig)) ![1, 0] slices_S2x600000_S1x600000_1_0)) := by
  after_results_simp
  rfl

/-- After the second stretch: the row of sources. -/
theorem B_v19 (W : Valuation τ sig (Elt F)) : after opsB W (main_v19 : DevRef τ sig)
    = edgeRow (W (main_arg7 : DevRef τ sig)) ![0, 0] slices_S2x600000_S1x600000_0_0 := by
  after_results_simp
  rfl

/-- After the second stretch: the row of destinations. -/
theorem B_v21 (W : Valuation τ sig (Elt F)) : after opsB W (main_v21 : DevRef τ sig)
    = edgeRow (W (main_arg7 : DevRef τ sig)) ![1, 0] slices_S2x600000_S1x600000_1_0 := by
  after_results_simp
  rfl

theorem B_v17 (W : Valuation τ sig (Elt F)) : after opsB W (main_v17 : DevRef τ sig) = W (main_v17 : DevRef τ sig) := by
  after_results_simp

theorem B_arg4 (W : Valuation τ sig (Elt F)) : after opsB W (main_arg4 : DevRef τ sig) = W (main_arg4 : DevRef τ sig) := by
  after_results_simp

/-- After the third stretch: the edge mixtures. -/
theorem C_v54 (W : Valuation τ sig (Elt F)) : after opsC W (main_v54 : DevRef τ sig)
    = hEdgeMix (W (main_v41 : DevRef τ sig)) (W (main_arg4 : DevRef τ sig)) := by
  after_results_simp
  rfl

theorem C_v17 (W : Valuation τ sig (Elt F)) : after opsC W (main_v17 : DevRef τ sig) = W (main_v17 : DevRef τ sig) := by
  after_results_simp

theorem C_v19 (W : Valuation τ sig (Elt F)) : after opsC W (main_v19 : DevRef τ sig) = W (main_v19 : DevRef τ sig) := by
  after_results_simp

theorem C_v21 (W : Valuation τ sig (Elt F)) : after opsC W (main_v21 : DevRef τ sig) = W (main_v21 : DevRef τ sig) := by
  after_results_simp

/-- After the last stretch: the result, over the two columns made again of the two rows. -/
theorem D_v72 (W : Valuation τ sig (Elt F)) : after opsD W (main_v72 : DevRef τ sig)
    = hFinal (W (main_v17 : DevRef τ sig)) (colOf (W (main_v19 : DevRef τ sig))) (colOf (W (main_v21 : DevRef τ sig))) (W (main_v54 : DevRef τ sig)) := by
  after_results_simp
  rfl

/-! ## The whole line -/

/-- After the whole line the result buffer holds `refOut` of the arguments. -/
theorem val_out (V : Valuation τ sig (Elt F)) : after ops V (main_v72 : DevRef τ sig)
    = refOut (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg6 : DevRef τ sig)) (srcCol (V (main_arg7 : DevRef τ sig))) (dstCol (V (main_arg7 : DevRef τ sig))) := by
  rw [after_ops]
  have a17 := A_v17 V; have a0 := A_arg0 V; have a4 := A_arg4 V; have a5 := A_arg5 V; have a6 := A_arg6 V
  have a7 := A_arg7 V
  generalize after opsA V = WA at a17 a0 a4 a5 a6 a7 ⊢
  have b41 := B_v41 WA; have b19 := B_v19 WA; have b21 := B_v21 WA; have b17 := B_v17 WA; have b4 := B_arg4 WA
  generalize after opsB WA = WB at b41 b19 b21 b17 b4 ⊢
  have c54 := C_v54 WB; have c17 := C_v17 WB; have c19 := C_v19 WB; have c21 := C_v21 WB
  generalize after opsC WB = WC at c54 c17 c19 c21 ⊢
  rw [D_v72 WC, c54, c17, c19, c21, b41, b19, b21, b17, b4, a17, a0, a4, a5, a6, a7, colOf_src, colOf_dst]
  rfl

theorem val_arg0 (V : Valuation τ sig (Elt F)) : after ops V (main_arg0 : DevRef τ sig) = V (main_arg0 : DevRef τ sig) := by
  after_results_simp

theorem val_arg1 (V : Valuation τ sig (Elt F)) : after ops V (main_arg1 : DevRef τ sig) = V (main_arg1 : DevRef τ sig) := by
  after_results_simp

theorem val_arg2 (V : Valuation τ sig (Elt F)) : after ops V (main_arg2 : DevRef τ sig) = V (main_arg2 : DevRef τ sig) := by
  after_results_simp

theorem val_arg3 (V : Valuation τ sig (Elt F)) : after ops V (main_arg3 : DevRef τ sig) = V (main_arg3 : DevRef τ sig) := by
  after_results_simp

theorem val_arg4 (V : Valuation τ sig (Elt F)) : after ops V (main_arg4 : DevRef τ sig) = V (main_arg4 : DevRef τ sig) := by
  after_results_simp

theorem val_arg5 (V : Valuation τ sig (Elt F)) : after ops V (main_arg5 : DevRef τ sig) = V (main_arg5 : DevRef τ sig) := by
  after_results_simp

theorem val_arg6 (V : Valuation τ sig (Elt F)) : after ops V (main_arg6 : DevRef τ sig) = V (main_arg6 : DevRef τ sig) := by
  after_results_simp

theorem val_arg7 (V : Valuation τ sig (Elt F)) : after ops V (main_arg7 : DevRef τ sig) = V (main_arg7 : DevRef τ sig) := by
  after_results_simp

end Cert.ReferenceIdeal.Hand

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«116679_j34248069218341_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«116679_j34248069218341_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibLayout3.lean ====
/-
  Three layout and reduction readings at an index, for any extents.

  * The sum over the MIDDLE axis of an `[a, b, c]` array, started from the zero word, read at `(r, d)`: the sum
    over `i : Fin b` of the entries `(r, i, d)`.
  * An `[a, b, c]` array cast to `[a, n]` with `n = b · c` reads, at `(r, k)` with `k = i · c + d`, the
    operand at `(r, i, d)`: the two trailing axes flattened row-major.
  * Two arrays `[a, n₁]` and `[a, n₂]` concatenated along axis 1 read, at `(r, k)`, the first at `(r, k)`
    when `k < n₁` and the second at `(r, k − n₁)` otherwise.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- The sum along the middle axis, read at `(r, d)`. -/
theorem midSum_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (r : Fin a) (d : Fin c) :
    multiReduction (F := Ideal) .add [1] ⟨2, ![a, c]⟩ src 0x00000000#32 h hφ hacc (ix2 r d)
      = ∑ i : Fin b, src (ix3 r i d) := by
  refine (Ideal.multiReduction_add_single src _ h hφ hacc (ix2 r d)).trans ?_
  refine Finset.sum_congr rfl fun k _ => congrArg src ?_
  funext ax; apply Fin.ext
  match ax with
  | ⟨0, _⟩ => rfl
  | ⟨1, _⟩ => rfl
  | ⟨2, _⟩ => rfl

/-- The two trailing axes flattened. -/
theorem shapeCast_abc_an_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

/-- A concatenation along axis 1, read in its first piece. -/
theorem concat_axis1_left {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : k.val < n₁) :
    concatenate ⟨2, ![a, n]⟩ 1 [⟨⟨2, ![a, n₁]⟩, x₁⟩, ⟨⟨2, ![a, n₂]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A concatenation along axis 1, read in its second piece. -/
theorem concat_axis1_right {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : n₁ ≤ k.val)
    (hk2 : k.val - n₁ < n₂) :
    concatenate ⟨2, ![a, n]⟩ 1 [⟨⟨2, ![a, n₁]⟩, x₁⟩, ⟨⟨2, ![a, n₂]⟩, x₂⟩] h (ix2 r k) = x₂ (ix2 r ⟨k.val - n₁, hk2⟩) :=
  concatenate_pair_apply_right 1 x₁ x₂ h (ix2 r k) rfl rfl (ix2 r ⟨k.val - n₁, hk2⟩)
    (fun b hb => by
      match b with
      | ⟨0, _⟩ => rfl
      | ⟨1, _⟩ => exact absurd rfl hb)
    (by show (k.val - n₁) + n₁ = k.val; omega)

end Cert.LibLayout3

end
-- ==== Proof.RefValue.lean ====
/-
  The reference program's result, read at an entry, at the ideal instance.

  Each array the reference program forms on the way is read at one entry as the mathematics it spells: the node scores
  as an affine function of the row, the shifted node array as the row plus the softmax mixture of the node anchors, the
  edge scores as an affine function of the two endpoint rows laid side by side, the leaky rectifier entry by entry, the
  edge mixtures as the softmax mixture of the edge anchors, and the result as the shifted row plus one half of what the
  node receives from the edges at its sources and then at its destinations.
-/
import proofs.«116679_j34248069218341_2_alg».proof.Proof.RefDefs
import proofs.«116679_j34248069218341_2_alg».proof.Proof.Spec
import proofs.«116679_j34248069218341_2_alg».proof.Proof.LibSoftmax
import proofs.«116679_j34248069218341_2_alg».proof.Proof.LibHostAffine
import proofs.«116679_j34248069218341_2_alg».proof.Proof.LibDotGeneralNN
import proofs.«116679_j34248069218341_2_alg».proof.Proof.LibRowOps
import proofs.«116679_j34248069218341_2_alg».proof.Proof.LibLayout3
import Idealize.ShloMosaic.Lib.Pipeline.Value
import Idealize.ShloMosaic.Lib.ValueIdx
import Idealize.ShloMosaic.Lib.ValueLayout

noncomputable section

open scoped BigOperators

namespace Cert.ReferenceIdeal.Hand

open Cert.ReferenceIdeal Cert.ReferenceIdeal.Gen Idealize.ShloMosaic Idealize.ShloMosaic.ValueIdx Cert.Prompt

/-- The host's row-wise softmax at (r, q) is the softmax of row r at q. -/
theorem hSoftmax_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (q : Fin b) :
    hSoftmax (F := Ideal) z h' hu g0 g1 g2 (ix2 r q) = softmaxAt (fun k : Fin b => z (ix2 r k)) q := by
  unfold hSoftmax hMaxCol
  exact Cert.Lib.Softmax.host_apply z h' h hu g0 g1 g2 r q

/-- The node scores at (n, a): the row against the attention weights' row a, plus the bias entry. -/
theorem hNodeScore_apply (x : FVec Ideal S100000x128 .f32) (attW : FVec Ideal S5x128 .f32) (attB : FVec Ideal S5 .f32)
    (n : Fin 100000) (a : Fin 5) :
    hNodeScore (F := Ideal) x attW attB (ix2 n a) = nodeScore x attW (fun a => attB (ix1 a)) n a := by
  unfold hNodeScore
  refine (Cert.LibHostAffine.affine_apply (M := 100000) (K := 128) (N := 5) dot_S100000x128_S128x5_S100000x5_1_0_0_1_n_n
    rfl rfl rfl rfl rfl rfl none x _ attB bcast_S5_S1x5_1 bcast_S1x5_S100000x5_0_1 n a).trans ?_
  unfold nodeScore
  refine congrArg (fun t : EReal => t + attB (ix1 a)) ?_
  refine Finset.sum_congr rfl fun k _ => ?_
  rw [transpose_ix2_apply]

/-- The shifted node array at (n, d). -/
theorem hShifted_apply (x : FVec Ideal S100000x128 .f32) (anN attW : FVec Ideal S5x128 .f32) (attB : FVec Ideal S5 .f32)
    (n : Fin 100000) (d : Fin 128) :
    hShifted (F := Ideal) x anN attW attB (ix2 n d) = shifted x anN attW (fun a => attB (ix1 a)) n d := by
  unfold hShifted
  refine (addf_apply _ _ _).trans ?_
  unfold shifted
  refine congrArg (fun t : EReal => x (ix2 n d) + t) ?_
  refine (Cert.LibDotGeneralNN.dotGeneral_apply (M := 100000) (K := 5) (N := 128) dot_S100000x5_S5x128_S100000x128_1_0_0_1_n_n
    rfl rfl rfl rfl rfl rfl none _ _ anN n d).trans ?_
  refine Finset.sum_congr rfl fun a _ => ?_
  refine congrArg (fun t : EReal => t * anN (ix2 a d)) ?_
  refine (hSoftmax_apply _ reducesTo_S100000x5_S100000_d1 (by decide) h_S_ bcast_S_S100000 bcast_S100000_S100000x1_0
    bcast_S100000x1_S100000x5_0_1 n a).trans ?_
  refine congrArg (fun f : Fin 5 → EReal => softmaxAt f a) (funext fun a' => ?_)
  exact hNodeScore_apply x attW attB n a'

/-- A gather of whole rows at (e, c): the row the start index names, clamped into the array. -/
theorem gatherRow_apply (x : FVec Ideal S100000x128 .f32) (I : IVec S600000x1 32) (e : Fin 600000) (c : Fin 128) :
    Host.gather gather_S100000x128_S600000x1_S600000x128_1_0_n_n_0_1_1128 x I (ix2 e c)
      = x (ix2 (rowOf 100000 (by decide) (I (ix2 e ⟨0, Nat.one_pos⟩))) c) :=
  Cert.LibRowOps.gather_rows_apply_of_eq (N := 100000) (E := 600000) (C := 128) (by decide)
    gather_S100000x128_S600000x1_S600000x128_1_0_n_n_0_1_1128 rfl rfl rfl rfl rfl rfl rfl x I e c

/-- The two gathered endpoint rows concatenated are the two rows laid side by side. -/
theorem sideBySide_apply (x : FVec Ideal S100000x128 .f32) (sI dI : IVec S600000x1 32) (e : Fin 600000) (k : Fin 256) :
    concatenate S600000x256 1
        [⟨S600000x128, Host.gather gather_S100000x128_S600000x1_S600000x128_1_0_n_n_0_1_1128 x sI⟩,
         ⟨S600000x128, Host.gather gather_S100000x128_S600000x1_S600000x128_1_0_n_n_0_1_1128 x dI⟩]
        concatenates_S600000x128_S600000x128_S600000x256_d1 (ix2 e k)
      = sideBySide x sI dI e k := by
  unfold sideBySide
  by_cases hk : k.val < 128
  · rw [dif_pos hk]
    refine (Cert.LibLayout3.concat_axis1_left (a := 600000) (n₁ := 128) (n₂ := 128) (n := 256) _ _
      concatenates_S600000x128_S600000x128_S600000x256_d1 e k hk).trans ?_
    exact gatherRow_apply x sI e ⟨k.val, hk⟩
  · rw [dif_neg hk]
    have hk2 : k.val - 128 < 128 := by have := k.isLt; omega
    refine (Cert.LibLayout3.concat_axis1_right (a := 600000) (n₁ := 128) (n₂ := 128) (n := 256) _ _
      concatenates_S600000x128_S600000x128_S600000x256_d1 e k (by omega) hk2).trans ?_
    exact gatherRow_apply x dI e ⟨k.val - 128, hk2⟩

/-- The edge scores at (e, a): the two endpoint rows side by side against the edge weights' row a, plus the bias entry. -/
theorem hScores_apply (x : FVec Ideal S100000x128 .f32) (eW : FVec Ideal S5x256 .f32) (eB : FVec Ideal S5 .f32)
    (sI dI : IVec S600000x1 32) (e : Fin 600000) (a : Fin 5) :
    hScores (F := Ideal) x eW eB sI dI (ix2 e a) = edgeScoreR x (fun a => eB (ix1 a)) eW sI dI e a := by
  unfold hScores
  refine (Cert.LibHostAffine.affine_apply (M := 600000) (K := 256) (N := 5) dot_S600000x256_S256x5_S600000x5_1_0_0_1_n_n
    rfl rfl rfl rfl rfl rfl none _ _ eB bcast_S5_S1x5_1 bcast_S1x5_S600000x5_0_1 e a).trans ?_
  unfold edgeScoreR
  refine congrArg (fun t : EReal => t + eB (ix1 a)) ?_
  refine Finset.sum_congr rfl fun k _ => ?_
  rw [transpose_ix2_apply, sideBySide_apply]

/-- The leaky rectifier, entry by entry. -/
theorem hLeaky_apply (z : FVec Ideal S600000x5 .f32) (e : Fin 600000) (a : Fin 5) :
    hLeaky (F := Ideal) z (ix2 e a) = leakyGe (z (ix2 e a)) := rfl

/-- The edge mixtures at (e, d): the softmax over the anchors of the rectified scores, against the edge anchors. -/
theorem hEdgeMix_apply (z : FVec Ideal S600000x5 .f32) (anE : FVec Ideal S5x128 .f32) (e : Fin 600000) (d : Fin 128) :
    hEdgeMix (F := Ideal) z anE (ix2 e d)
      = ∑ a : Fin 5, softmaxAt (fun a' : Fin 5 => leakyGe (z (ix2 e a'))) a * anE (ix2 a d) := by
  unfold hEdgeMix
  refine (Cert.LibDotGeneralNN.dotGeneral_apply (M := 600000) (K := 5) (N := 128) dot_S600000x5_S5x128_S600000x128_1_0_0_1_n_n
    rfl rfl rfl rfl rfl rfl none _ _ anE e d).trans ?_
  refine Finset.sum_congr rfl fun a _ => ?_
  refine congrArg (fun t : EReal => t * anE (ix2 a d)) ?_
  refine (hSoftmax_apply _ reducesTo_S600000x5_S600000_d1 (by decide) h_S_ bcast_S_S600000 bcast_S600000_S600000x1_0
    bcast_S600000x1_S600000x5_0_1 e a).trans ?_
  refine congrArg (fun f : Fin 5 → EReal => softmaxAt f a) (funext fun a' => ?_)
  exact hLeaky_apply z e a'

/-- The result at (n, d): the shifted entry plus one half of what node n receives of the per-edge array. -/
theorem hFinal_apply (s : FVec Ideal S100000x128 .f32) (sI dI : IVec S600000x1 32) (u : FVec Ideal S600000x128 .f32)
    (n : Fin 100000) (d : Fin 128) :
    hFinal (F := Ideal) s sI dI u (ix2 n d)
      = s (ix2 n d) + Ideal.ofBits .f32 0x3F000000#32 * received sI dI (fun e d' => u (ix2 e d')) n d := by
  unfold hFinal
  refine (addf_apply _ _ _).trans ?_
  refine congrArg (fun t : EReal => s (ix2 n d) + t) ?_
  refine (mulf_apply _ _ _).trans ?_
  have hhalf : broadcastInDim S100000x128 ![] bcast_S_S100000x128 (constant (F := Ideal) S_ .f32 0x3F000000#32) (ix2 n d)
      = Ideal.ofBits .f32 0x3F000000#32 :=
    (broadcastInDim_apply _ bcast_S_S100000x128 _ (ix2 n d) ix0 (fun d => d.elim0)).trans rfl
  have hzero : broadcastInDim S100000x128 ![] bcast_S_S100000x128 (constant (F := Ideal) S_ .f32 0x00000000#32) (ix2 n d)
      = Ideal.ofBits .f32 0x00000000#32 :=
    (broadcastInDim_apply _ bcast_S_S100000x128 _ (ix2 n d) ix0 (fun d => d.elim0)).trans rfl
  rw [hhalf]
  refine congrArg (fun t : EReal => Ideal.ofBits .f32 0x3F000000#32 * t) ?_
  refine (Cert.LibRowOps.scatterAdd_rows_apply_of_eq scatter_S100000x128_S600000x1_S600000x128_1_0_0_1 rfl rfl rfl rfl _ _ _ n d).trans ?_
  rw [Cert.LibRowOps.scatterAdd_rows_apply_of_eq scatter_S100000x128_S600000x1_S600000x128_1_0_0_1 rfl rfl rfl rfl _ _ _ n d, hzero]
  unfold received
  rfl

/-- The reference program's result at (n, d) is the result with the edge mixtures added up per node. -/
theorem refOut_apply (x : FVec Ideal S100000x128 .f32) (anN attW : FVec Ideal S5x128 .f32) (attB : FVec Ideal S5 .f32)
    (anE : FVec Ideal S5x128 .f32) (eW : FVec Ideal S5x256 .f32) (eB : FVec Ideal S5 .f32) (sI dI : IVec S600000x1 32)
    (n : Fin 100000) (d : Fin 128) :
    refOut (F := Ideal) x anN attW attB anE eW eB sI dI (ix2 n d)
      = Cert.Prompt.outR x anN attW anE (fun a => attB (ix1 a)) (fun a => eB (ix1 a)) eW sI dI n d := by
  unfold refOut
  refine (hFinal_apply _ sI dI _ n d).trans ?_
  unfold outR
  rw [hShifted_apply]
  refine congrArg (fun t : EReal => shifted x anN attW (fun a => attB (ix1 a)) n d + Ideal.ofBits .f32 0x3F000000#32 * t) ?_
  refine congrArg (fun u : Fin 600000 → Fin 128 → EReal => received sI dI u n d) (funext fun e => funext fun d' => ?_)
  refine (hEdgeMix_apply _ anE e d').trans ?_
  refine Finset.sum_congr rfl fun a _ => ?_
  refine congrArg (fun t : EReal => t * anE (ix2 a d')) ?_
  unfold edgeWeightR
  refine congrArg (fun f : Fin 5 → EReal => softmaxAt f a) (funext fun a' => ?_)
  rw [hScores_apply]

end Cert.ReferenceIdeal.Hand

end
-- ==== Proof.RefTheorem.lean ====
import proofs.«116679_j34248069218341_2_alg».proof.Proof.RefRead
import proofs.«116679_j34248069218341_2_alg».proof.Proof.RefValue

/-!
The reference program's run: every weakly fair execution terminates with the result buffer holding, entry by
entry, the specification's value of the arguments at launch, and with the arguments' buffers unchanged.  The run
reads every buffer as the fold of the operations over the launch contents; the result buffer's fold is the array
function `refOut` of the arguments, which is the specification's `outR` at every entry.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Prompt

/-- On the one device, from any memory with zero counters: every weakly fair execution of the reference program
    terminates; its result buffer then holds the specification's `outR` of the arguments' launch contents at every
    entry, and the eight arguments' buffers hold what they held at launch. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72)
          = ofCoords2 (fun n d => outR (m ((c.tc : Thread nD τ).loc main_arg0)) (m ((c.tc : Thread nD τ).loc main_arg1)) (m ((c.tc : Thread nD τ).loc main_arg2))
              (m ((c.tc : Thread nD τ).loc main_arg4)) (fun a => m ((c.tc : Thread nD τ).loc main_arg3) (ix1 a)) (fun a => m ((c.tc : Thread nD τ).loc main_arg6) (ix1 a))
              (m ((c.tc : Thread nD τ).loc main_arg5)) (srcCol (m ((c.tc : Thread nD τ).loc main_arg7))) (dstCol (m ((c.tc : Thread nD τ).loc main_arg7))) n d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v72).trans ((val_out (launchContents m c)).trans
          (eq_ofCoords2 _ _ fun n d => refOut_apply _ _ _ _ _ _ _ _ _ n d)),
        (h c main_arg0).trans (val_arg0 (launchContents m c)),
        (h c main_arg1).trans (val_arg1 (launchContents m c)),
        (h c main_arg2).trans (val_arg2 (launchContents m c)),
        (h c main_arg3).trans (val_arg3 (launchContents m c)),
        (h c main_arg4).trans (val_arg4 (launchContents m c)),
        (h c main_arg5).trans (val_arg5 (launchContents m c)),
        (h c main_arg6).trans (val_arg6 (launchContents m c)),
        (h c main_arg7).trans (val_arg7 (launchContents m c))⟩)
    (run_all m ρ)

end Cert.ReferenceIdeal.Hand

end
-- ==== Proof.LibSageLaw.lean ====
/-
  Real numbers inside the extended reals, and the one law a mean-aggregating layer needs when its weight matrix is
  applied BEFORE the neighbour sum instead of after it.

  For edge features h(e,k), a weight column w(k), a mask p(e) (edge e points at the node in question) and a reciprocal
  degree c,
      ( Σ_e [p e] · Σ_k h(e,k)·w(k) ) · c   =   Σ_k ( ( Σ_e [p e] · h(e,k) ) · c ) · w(k).
  The two sides differ by an exchange of the two sums and by moving the factors c and w(k) across a sum. On the
  extended reals a product does not distribute over a sum of infinities of both signs, so the law is stated for real
  data: every term is then the image of a real number and the identity is the one of the real field.
-/
import Idealize.ShloMosaic.PureOps.Ideal.Laws

noncomputable section

open scoped BigOperators

namespace Cert.SageLaw

open Idealize.ShloMosaic

/-- A finite sum of real numbers read as extended reals is the sum read as an extended real. -/
theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- A masked real read as an extended real. -/
theorem coe_ite (p : Prop) [Decidable p] (x : ℝ) :
    (if p then ((x : ℝ) : EReal) else 0) = (((if p then x else 0) : ℝ) : EReal) := by
  by_cases h : p
  · rw [if_pos h, if_pos h]
  · rw [if_neg h, if_neg h, EReal.coe_zero]

/-- THE LAW: applying the weights to every edge's row and then summing the masked rows and scaling is summing the
    masked rows, scaling, and then applying the weights. -/
theorem project_then_aggregate {E K : Type*} [Fintype E] [Fintype K] (p : E → Prop) [DecidablePred p]
    (h : E → K → ℝ) (w : K → ℝ) (c : ℝ) :
    (0 + ∑ e, if p e then (∑ k, ((h e k : ℝ) : EReal) * ((w k : ℝ) : EReal)) else 0) * ((c : ℝ) : EReal)
      = ∑ k, ((0 + ∑ e, if p e then ((h e k : ℝ) : EReal) else 0) * ((c : ℝ) : EReal)) * ((w k : ℝ) : EReal) := by
  simp only [← EReal.coe_mul, coe_sum, coe_ite, zero_add]
  refine congrArg _ ?_
  rw [Finset.sum_mul]
  simp only [Finset.sum_mul]
  rw [Finset.sum_comm]
  refine Finset.sum_congr rfl fun e _ => ?_
  by_cases hp : p e
  · simp only [if_pos hp]
    rw [Finset.sum_mul]
    exact Finset.sum_congr rfl fun k _ => by ring
  · simp only [if_neg hp, zero_mul, Finset.sum_const_zero]

/-! ## Being a real number -/

/-- An extended real that is the image of a real number. -/
def IsReal (x : EReal) : Prop := ∃ r : ℝ, x = ((r : ℝ) : EReal)

theorem isReal_coe (r : ℝ) : IsReal ((r : ℝ) : EReal) := ⟨r, rfl⟩
theorem isReal_zero : IsReal 0 := ⟨0, EReal.coe_zero.symm⟩
theorem isReal_one : IsReal 1 := ⟨1, EReal.coe_one.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rw [max_eq_right h]; exact hy
  · rw [max_eq_left h]; exact hx

theorem isReal_sum {ι : Type*} (s : Finset ι) (f : ι → EReal) (hf : ∀ i ∈ s, IsReal (f i)) : IsReal (∑ i ∈ s, f i) :=
  Finset.sum_induction f IsReal (fun _ _ => isReal_add) isReal_zero hf

theorem isReal_ite (p : Prop) [Decidable p] {x y : EReal} (hx : IsReal x) (hy : IsReal y) : IsReal (if p then x else y) := by
  by_cases h : p
  · rw [if_pos h]; exact hx
  · rw [if_neg h]; exact hy

/-- A quotient of a real by the larger of a real and one is a real: the divisor is not zero. -/
theorem isReal_div_max_one {x d : EReal} (hx : IsReal x) (hd : IsReal d) : IsReal (Ideal.div x (max d 1)) := by
  obtain ⟨b, hb⟩ := isReal_max hd isReal_one
  have hne : b ≠ 0 := by
    intro h0
    have h1 : (1 : EReal) ≤ max d 1 := le_max_right d 1
    rw [hb, h0, EReal.coe_zero] at h1
    exact absurd h1 (by norm_num)
  rw [hb, Ideal.div_coe hne]
  exact isReal_mul hx (isReal_coe _)

end Cert.SageLaw

end
-- ==== Proof.LibRealCoe.lean ====
/-
  Real numbers inside the extended reals, under the exact operations.

  A finite sum of reals read as extended reals is the sum of the readings; the exact quotient of two reals with a
  nonzero divisor is their real quotient; the exact logarithm of a positive real and the exact exponential of a
  real are the real ones. With these a computation that never leaves the reals can be read in ℝ.
-/
import Idealize.ShloMosaic.PureOps.Ideal.Laws

noncomputable section

namespace Cert.LibRealCoe

open Idealize.ShloMosaic

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the readings is the reading of the sum (the direction that collects coercions). -/
theorem sum_coe {ι : Type*} (s : Finset ι) (f : ι → ℝ) : ∑ i ∈ s, (f i : EReal) = ((∑ i ∈ s, f i : ℝ) : EReal) :=
  (coe_sum s f).symm

/-- The exact quotient of reals by a nonzero real. -/
theorem div_coe_coe (a b : ℝ) (hb : b ≠ 0) : Ideal.div (a : EReal) (b : EReal) = ((a / b : ℝ) : EReal) := by
  rw [Ideal.div_coe hb, ← EReal.coe_mul]
  congr 1
  rw [mul_one_div]

/-- The exact logarithm of a positive real. -/
theorem log_coe_pos (a : ℝ) (ha : 0 < a) : Ideal.log (a : EReal) = ((Real.log a : ℝ) : EReal) := by
  rw [Ideal.log_coe, if_neg (not_le.mpr ha)]

/-- The exact exponential of a real. -/
theorem exp_coe (a : ℝ) : Ideal.exp (a : EReal) = ((Real.exp a : ℝ) : EReal) := rfl

/-- The logistic function as the programs spell it, 1 / (1 + e^(-x)), of a real. -/
theorem logistic_coe (x : ℝ) :
    Ideal.div ((1 : ℝ) : EReal) (((1 : ℝ) : EReal) + Ideal.exp (-(x : EReal))) = ((1 / (1 + Real.exp (-x)) : ℝ) : EReal) := by
  rw [← EReal.coe_neg, exp_coe, ← EReal.coe_add, div_coe_coe _ _ (by positivity)]

end Cert.LibRealCoe

end
-- ==== Proof.SpecLaw.lean ====
/-
  Why the two orders of adding agree.

  (1) The two spellings of the leaky rectifier differ only at 0, where both give 0.
  (2) An edge's score over the 256 columns of the two endpoint rows laid side by side is the sum of the source row's
      score against the first 128 columns and the destination row's score against the last 128: a sum split in two.
  (3) A softmax of real scores is a quotient of a positive real by a positive real: it is not negative.
  (4) For numbers that are not negative, multiplying a finite sum by a factor is the sum of the products (on the
      extended reals this fails in general: ∞ − ∞ may appear), so a node's received weights mixed with the anchors are
      the received mixtures: Σ_a (Σ_e [e ends at n] w(e,a)) · c(a) = Σ_e [e ends at n] Σ_a w(e,a) · c(a).
-/
import proofs.«116679_j34248069218341_2_alg».proof.Proof.Spec
import proofs.«116679_j34248069218341_2_alg».proof.Proof.LibSageLaw
import proofs.«116679_j34248069218341_2_alg».proof.Proof.LibRealCoe

noncomputable section

open scoped BigOperators

namespace Cert.Prompt

open Idealize.ShloMosaic Idealize.ShloMosaic.ValueIdx Cert.Lib.LogSoftmax Cert.SageLaw

/-! ## The rectifier -/

theorem leakyGt_eq_leakyGe (t : EReal) : leakyGt t = leakyGe t := by
  unfold leakyGt leakyGe
  rw [Ideal.ofBits_zero_f32]
  show Scalar.select (BitVec.ofBool (decide ((0 : EReal) < t))) t _ = Scalar.select (BitVec.ofBool (decide ((0 : EReal) ≤ t))) t _
  rcases lt_trichotomy (0 : EReal) t with h | h | h
  · rw [decide_eq_true h, decide_eq_true h.le]
  · subst h
    rw [decide_eq_false (lt_irrefl _), decide_eq_true le_rfl]
    simp [Scalar.select]
  · rw [decide_eq_false (not_lt.mpr h.le), decide_eq_false (not_le.mpr h)]

/-- An extended real that is neither infinity is a real number. -/
theorem isReal_of_ne {x : EReal} (h1 : x ≠ ⊤) (h2 : x ≠ ⊥) : IsReal x := ⟨x.toReal, (EReal.coe_toReal h1 h2).symm⟩

/-- The rectifier's slope is a real number. -/
theorem isReal_slope : IsReal (Ideal.ofBits .f32 0x3C23D70A#32) :=
  isReal_of_ne (by simp [Ideal.ofBits, Ideal.ieee, -EReal.coe_mul]) (by simp [Ideal.ofBits, Ideal.ieee, -EReal.coe_mul])

theorem isReal_leakyGe {t : EReal} (ht : IsReal t) : IsReal (leakyGe t) := by
  unfold leakyGe Scalar.select
  split
  · exact ht
  · exact isReal_mul isReal_slope ht

/-! ## The score, split -/

section
variable (x : (⟨2, ![100000, 128]⟩ : Shape).Idx → EReal) (eB : Fin 5 → EReal)
  (eW : (⟨2, ![5, 256]⟩ : Shape).Idx → EReal) (sI dI : IVec ⟨2, ![600000, 1]⟩ 32)

theorem edgeScoreK_eq (e : Fin 600000) (a : Fin 5) :
    edgeScoreK x eB eW sI dI e a = edgeScoreR x eB eW sI dI e a := by
  unfold edgeScoreK edgeScoreR halfScore
  refine congrArg (fun s : EReal => s + eB a) ?_
  have h := Fin.sum_univ_add (fun k : Fin (128 + 128) => sideBySide x sI dI e k * eW (ix2 a k))
  refine Eq.trans ?_ h.symm
  refine congrArg₂ (fun s t : EReal => s + t) (Finset.sum_congr rfl fun k _ => ?_) (Finset.sum_congr rfl fun k _ => ?_)
  · have hk : (Fin.castAdd 128 k : Fin (128 + 128)).val < 128 := k.isLt
    unfold sideBySide eWl
    rw [dif_pos hk, ofCoords2_ix2]
    rfl
  · have hk : ¬ (Fin.natAdd 128 k : Fin (128 + 128)).val < 128 := by
      show ¬ 128 + k.val < 128
      omega
    unfold sideBySide eWr
    rw [dif_neg hk, ofCoords2_ix2]
    have e1 : ∀ h', (⟨(Fin.natAdd 128 k : Fin (128 + 128)).val - 128, h'⟩ : Fin 128) = k := fun h' =>
      Fin.ext (by show 128 + k.val - 128 = k.val; omega)
    rw [e1]
    rfl

theorem isReal_edgeScoreR (hx : ∀ i, IsReal (x i)) (heW : ∀ i, IsReal (eW i)) (heB : ∀ a, IsReal (eB a))
    (e : Fin 600000) (a : Fin 5) : IsReal (edgeScoreR x eB eW sI dI e a) := by
  unfold edgeScoreR
  refine isReal_add (isReal_sum _ _ fun k _ => isReal_mul ?_ (heW _)) (heB a)
  unfold sideBySide
  split
  · exact hx _
  · exact hx _

end

/-! ## A softmax of real scores is not negative -/

theorem negInf_word : Ideal.ofBits .f32 0xFF800000#32 = ⊥ := by simp [Ideal.ofBits, Ideal.ieee]

theorem isReal_famMax {c : Nat} (z : Fin c → EReal) (hz : ∀ p, IsReal (z p)) (q : Fin c) : IsReal (famMax z) := by
  refine isReal_of_ne ?_ ?_
  · refine ne_of_lt ?_
    unfold famMax
    rw [Finset.fold_max_lt]
    refine ⟨by rw [negInf_word]; exact bot_lt_top, fun p _ => ?_⟩
    obtain ⟨r, hr⟩ := hz p
    rw [hr]; exact EReal.coe_lt_top r
  · have hq : z q ≤ famMax z := by
      unfold famMax
      rw [Finset.le_fold_max]
      exact Or.inr ⟨q, Finset.mem_univ q, le_rfl⟩
    obtain ⟨r, hr⟩ := hz q
    rw [hr] at hq
    exact ne_of_gt (lt_of_lt_of_le (EReal.bot_lt_coe r) hq)

theorem softmaxAt_nonneg {c : Nat} (z : Fin c → EReal) (hz : ∀ p, IsReal (z p)) (q : Fin c) : 0 ≤ softmaxAt z q := by
  obtain ⟨M, hM⟩ := isReal_famMax z hz q
  choose r hr using hz
  unfold softmaxAt
  rw [hM]
  have he : ∀ p, Ideal.exp (z p - (M : EReal)) = ((Real.exp (r p - M) : ℝ) : EReal) := fun p => by
    rw [hr p, ← EReal.coe_sub]; rfl
  simp only [he]
  rw [Cert.LibRealCoe.sum_coe]
  have hpos : 0 < ∑ p : Fin c, Real.exp (r p - M) :=
    Finset.sum_pos (fun p _ => Real.exp_pos _) ⟨q, Finset.mem_univ q⟩
  rw [Cert.LibRealCoe.div_coe_coe _ _ hpos.ne']
  exact EReal.coe_nonneg.mpr (div_nonneg (Real.exp_pos _).le hpos.le)

/-! ## Sums of numbers that are not negative -/

theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- Mixing what arrives over the edges selected by p: the selected weights added up, then mixed, are the selected
    mixtures added up. -/
theorem mix_selected {E : Type*} [Fintype E] (p : E → Prop) [DecidablePred p] (w : E → Fin 5 → EReal)
    (hw : ∀ e a, 0 ≤ w e a) (g : Fin 5 → EReal) :
    ∑ a : Fin 5, (∑ e : E, if p e then w e a else 0) * g a = ∑ e : E, if p e then ∑ a : Fin 5, w e a * g a else 0 := by
  have h1 : ∀ a : Fin 5, (∑ e : E, if p e then w e a else 0) * g a = ∑ e : E, (if p e then w e a else 0) * g a := fun a =>
    sum_mul_of_nonneg _ _ (fun e _ => by split; exact hw e a; exact le_rfl) _
  simp only [h1]
  rw [Finset.sum_comm]
  refine Finset.sum_congr rfl fun e _ => ?_
  by_cases h : p e
  · simp only [if_pos h]
  · simp only [if_neg h, zero_mul, Finset.sum_const_zero]

section
variable (sI dI : IVec ⟨2, ![600000, 1]⟩ 32)

theorem received_nonneg_part (I : IVec ⟨2, ![600000, 1]⟩ 32) (w : Fin 600000 → Fin 5 → EReal) (hw : ∀ e a, 0 ≤ w e a)
    (n : Fin 100000) (a : Fin 5) :
    0 ≤ ∑ e : Fin 600000, if (I (ix2 e ⟨0, Nat.one_pos⟩)).toInt = (n.val : Int) then w e a else 0 :=
  Finset.sum_nonneg fun e _ => by split; exact hw e a; exact le_rfl

/-- What a node receives of the weights, mixed with the anchors, is what it receives of the mixtures. -/
theorem mix_received {C : Nat} (w : Fin 600000 → Fin 5 → EReal) (hw : ∀ e a, 0 ≤ w e a) (g : Fin 5 → Fin C → EReal)
    (n : Fin 100000) (d : Fin C) :
    ∑ a : Fin 5, received sI dI w n a * g a d = received sI dI (fun e d' => ∑ a : Fin 5, w e a * g a d') n d := by
  unfold received
  rw [Ideal.ofBits_zero_f32]
  simp only [zero_add]
  have h1 : ∀ a : Fin 5,
      ((∑ e : Fin 600000, if (sI (ix2 e ⟨0, Nat.one_pos⟩)).toInt = (n.val : Int) then w e a else 0)
        + ∑ e : Fin 600000, if (dI (ix2 e ⟨0, Nat.one_pos⟩)).toInt = (n.val : Int) then w e a else 0) * g a d
      = (∑ e : Fin 600000, if (sI (ix2 e ⟨0, Nat.one_pos⟩)).toInt = (n.val : Int) then w e a else 0) * g a d
        + (∑ e : Fin 600000, if (dI (ix2 e ⟨0, Nat.one_pos⟩)).toInt = (n.val : Int) then w e a else 0) * g a d := fun a =>
    EReal.right_distrib_of_nonneg (received_nonneg_part sI w hw n a) (received_nonneg_part dI w hw n a)
  simp only [h1]
  rw [Finset.sum_add_distrib]
  refine congrArg₂ (fun s t : EReal => s + t) ?_ ?_
  · exact mix_selected (fun e => (sI (ix2 e ⟨0, Nat.one_pos⟩)).toInt = (n.val : Int)) w hw (fun a => g a d)
  · exact mix_selected (fun e => (dI (ix2 e ⟨0, Nat.one_pos⟩)).toInt = (n.val : Int)) w hw (fun a => g a d)

end

/-! ## The two results agree -/

theorem outK_eq_outR (x : (⟨2, ![100000, 128]⟩ : Shape).Idx → EReal)
    (anN attW anE : (⟨2, ![5, 128]⟩ : Shape).Idx → EReal) (attB eB : Fin 5 → EReal)
    (eW : (⟨2, ![5, 256]⟩ : Shape).Idx → EReal) (sI dI : IVec ⟨2, ![600000, 1]⟩ 32)
    (hx : ∀ i, IsReal (x i)) (heW : ∀ i, IsReal (eW i)) (heB : ∀ a, IsReal (eB a))
    (n : Fin 100000) (d : Fin 128) :
    outK x anN attW anE attB eB eW sI dI n d = outR x anN attW anE attB eB eW sI dI n d := by
  unfold outK outR
  refine congrArg (fun s : EReal => shifted x anN attW attB n d + Ideal.ofBits .f32 0x3F000000#32 * s) ?_
  have hKR : edgeWeightK x eB eW sI dI = edgeWeightR x eB eW sI dI := by
    funext e a
    unfold edgeWeightK edgeWeightR
    refine congrArg (fun z => softmaxAt z a) (funext fun a' => ?_)
    rw [leakyGt_eq_leakyGe, edgeScoreK_eq]
  rw [hKR]
  exact mix_received sI dI _ (fun e a => softmaxAt_nonneg _
    (fun a' => isReal_leakyGe (isReal_edgeScoreR x eB eW sI dI hx heW heB e a')) a) (fun a d' => anE (ix2 a d')) n d

end Cert.Prompt

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.Finite.lean ====
/-
  What the precondition gives: every entry of the node array, of the edge weights and of the edge bias is a real number.

  The precondition is the conjunction of seven tests, one per float argument, "every entry has absolute value below +∞",
  joined by bitwise and.  A conjunction of bits that is 1 has every conjunct 1, and a test that is 1 makes every entry of
  its array a real number.
-/
import proofs.«116679_j34248069218341_2_alg».proof.Pre_finite_inputs
import proofs.«116679_j34248069218341_2_alg».proof.Proof.Gen.Pre_finite_inputs
import proofs.«116679_j34248069218341_2_alg».proof.Proof.LibFiniteAll
import proofs.«116679_j34248069218341_2_alg».proof.Proof.LibSageLaw
import Idealize.ShloMosaic.Lib.Affine

noncomputable section

namespace Cert.Prompt.Finite

open Idealize.ShloMosaic Cert.Pre_finite_inputs Cert.Pre_finite_inputs.Facts Cert.SageLaw

theorem finite_of_pre (a0 : FVec Ideal S100000x128 .f32) (a1 a2 : FVec Ideal S5x128 .f32) (a3 : FVec Ideal S5 .f32)
    (a4 : FVec Ideal S5x128 .f32) (a5 : FVec Ideal S5x256 .f32) (a6 : FVec Ideal S5 .f32) (a7 : IVec S2x600000 32)
    (h : Cert.Pre_finite_inputs.fn (F := Ideal) a0 a1 a2 a3 a4 a5 a6 a7 = fun _ => 1#1) :
    (∀ i, IsReal (a0 i)) ∧ (∀ i, IsReal (a5 i)) ∧ (∀ i, IsReal (a6 i)) := by
  have h0 := congrFun h ValueIdx.ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, -⟩ := IntOp.andi_eq_one.1 h8
  exact ⟨fun i => ⟨_, Cert.LibFiniteAll.real_of_all a0 _ _ _ h3 i⟩,
    fun i => ⟨_, Cert.LibFiniteAll.real_of_all a5 _ _ _ h27 i⟩,
    fun i => ⟨_, Cert.LibFiniteAll.real_of_all a6 _ _ _ h32 i⟩⟩

end Cert.Prompt.Finite

end
-- ==== Proof.lean ====
/-
  The certificate: a graph layer that shifts every node row by a softmax mixture of node anchors and then adds one
  half of what the node receives over its edges, each edge sending a softmax mixture of edge anchors to both endpoints.

  The kernel program (three pipelined kernel regions among host gathers and scatter-adds) adds the five edge weights
  up per node and mixes once per node; the reference mixes per edge and adds the 128-wide mixtures up per node.  On
  the extended reals the two agree because the edge weights are not negative, which holds as soon as the node array,
  the edge weights' matrix and the edge bias hold real numbers — what the precondition says.  The frames of the two
  kernel programs are the generated ones; the reference's frame is its run with the result dropped; the idealized
  kernel is the kernel's own text read at the ideal instance, so nothing is owed for it.
-/
import proofs.«116679_j34248069218341_2_alg».proof.Defs
import proofs.«116679_j34248069218341_2_alg».proof.Proof.Gen.Kernel
import proofs.«116679_j34248069218341_2_alg».proof.Proof.Gen.Kernel.Frame
import proofs.«116679_j34248069218341_2_alg».proof.Proof.Gen.KernelIdeal
import proofs.«116679_j34248069218341_2_alg».proof.Proof.Gen.KernelIdeal.Frame
import proofs.«116679_j34248069218341_2_alg».proof.Proof.Gen.ReferenceIdeal
import proofs.«116679_j34248069218341_2_alg».proof.Proof.Gen.Pre_finite_inputs
import proofs.«116679_j34248069218341_2_alg».proof.Proof.KernelRun
import proofs.«116679_j34248069218341_2_alg».proof.Proof.KernelValue
import proofs.«116679_j34248069218341_2_alg».proof.Proof.RefTheorem
import proofs.«116679_j34248069218341_2_alg».proof.Proof.SpecLaw
import proofs.«116679_j34248069218341_2_alg».proof.Proof.Finite

noncomputable section

namespace Cert.Proof

open Idealize.ShloMosaic Idealize.ShloMosaic.ValueIdx Idealize.SL.Sem Cert.Prompt

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run m ρ)

/-- The two programs name the same columns of start indices. -/
theorem srcCol_eq (ei : IVec ⟨2, ![2, 600000]⟩ 32) :
    Cert.ReferenceIdeal.Hand.srcCol ei = Cert.KernelIdeal.Stretch.srcCol ei := rfl
theorem dstCol_eq (ei : IVec ⟨2, ![2, 600000]⟩ 32) :
    Cert.ReferenceIdeal.Hand.dstCol ei = Cert.KernelIdeal.Stretch.dstCol ei := rfl

/-- Both programs end with the same result array: the kernel's is `outK` of the arguments entry by entry, the
    reference's `outR`, and the two agree on real node features, edge weights and edge bias. -/
theorem algebraic : Cert.algebraic_KernelIdeal_ReferenceIdeal := by
  intro m ρ m' ρ' hpre hagree
  refine ⟨fun c => Cert.KernelIdeal.Gen.W6 m ρ c (Proc.devRef .tc Cert.KernelIdeal.main_v39),
    Cert.KernelIdeal.Hand.run_named m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7⟩ := hagree c
  obtain ⟨hx, heW, heB⟩ := Cert.Prompt.Finite.finite_of_pre _ _ _ _ _ _ _ _ (hpre c)
  show _ = Cert.KernelIdeal.Gen.W6 m ρ c (Proc.devRef .tc Cert.KernelIdeal.main_v39)
  rw [Cert.KernelIdeal.Whole.result_eq m ρ c, h0, h1, h2, h3, h4, h5, h6, h7, srcCol_eq, dstCol_eq]
  refine congrArg ofCoords2 (funext fun n => funext fun d => ?_)
  exact (outK_eq_outR _ _ _ _ _ _ _ _ _ hx heW (fun a => heB (ix1 a)) n d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
